-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S100000x1 : Shape := ⟨2, ![100000, 1]⟩
abbrev S2x600000 : Shape := ⟨2, ![2, 600000]⟩
abbrev S6x128 : Shape := ⟨2, ![6, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x3 .f32) (main_arg14 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x3 .f32 := Host.absf main_arg13
  let main_cst_22 : FVec F S_ .f32 := constant S_ .f32 0x7F800000#32
  let main_v60 : FVec F S128x3 .f32 := broadcastInDim S128x3 ![] bcast_S_S128x3 main_cst_22
  let main_v61 : IVec S128x3 1 := cmpf .olt main_v59 main_v60
  let main_c_23 : IVec S_ 1 := constantI S_ 1 1#1
  let main_v62 : IVec S_ 1 := (fun x v => Host.reduce IntOp.andi x v reducesTo_S128x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x5 .f32) (main_arg1 : FVec F S100000x1 .f32) (main_arg2 : IVec S2x600000 32) (main_arg3 : FVec F S6x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S6x128 .f32 := Host.absf main_arg3
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x5 : Shape := ⟨2, ![100000, 5]⟩
abbrev S100000x1 : Shape := ⟨2, ![100000, 1]⟩
abbrev S2x600000 : Shape := ⟨2, ![2, 600000]⟩
abbrev S6x128 : Shape := ⟨2, ![6, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x6 : Shape := ⟨2, ![100000, 6]⟩
abbrev S1x128 : Shape := ⟨2, ![1, 128]⟩
abbrev S100000x128 : Shape := ⟨2, ![100000, 128]⟩
abbrev S5000x6 : Shape := ⟨2, ![5000, 6]⟩
abbrev S5000x1 : Shape := ⟨2, ![5000, 1]⟩
abbrev S5000x128 : Shape := ⟨2, ![5000, 128]⟩
abbrev S600000x128 : Shape := ⟨2, ![600000, 128]⟩
abbrev S1x3 : Shape := ⟨2, ![1, 3]⟩
abbrev S100000x3 : Shape := ⟨2, ![100000, 3]⟩
abbrev S5000x3 : Shape := ⟨2, ![5000, 3]⟩
abbrev S600000x3 : Shape := ⟨2, ![600000, 3]⟩

abbrev nBuf : Space → Nat
  | .hbm => 171
  | .vmem => 96
  | .smem => 0
  | _ => 0

abbrev hbmTy0_0 (i : Nat) : BufTy := match i % 128 with
  | 0 => ⟨S100000x5, .f32⟩
  | 1 => ⟨S100000x1, .f32⟩
  | 2 => ⟨S2x600000, .i32⟩
  | 3 => ⟨S6x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x3, .f32⟩
  | 14 => ⟨S3, .f32⟩
  | 15 => ⟨S1x600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S100000, .f32⟩
  | 49 => ⟨S100000x1, .f32⟩
  | 50 => ⟨S100000x6, .f32⟩
  | 51 => ⟨S1x128, .f32⟩
  | 52 => ⟨S100000x128, .f32⟩
  | 53 => ⟨S100000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x1, .f32⟩
  | 64 => ⟨S600000x128, .f32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S600000x1, .f32⟩
  | 84 => ⟨S600000x128, .f32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x1, .f32⟩
  | 104 => ⟨S600000x128, .f32⟩
  | 105 => ⟨S600000x128, .f32⟩
  | 106 => ⟨S_, .f32⟩
  | 107 => ⟨S100000x128, .f32⟩
  | 108 => ⟨S600000x1, .i32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x1, .f32⟩
  | 124 => ⟨S600000x128, .f32⟩
  | 125 => ⟨S600000x128, .f32⟩
  | 126 => ⟨S_, .f32⟩
  | 127 => ⟨S100000x128, .f32⟩
  | _ => ⟨S100000x5, .f32⟩

abbrev hbmTy0_1 (i : Nat) : BufTy := match i % 128 with
  | 0 => ⟨S600000x1, .i32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x1, .f32⟩
  | 16 => ⟨S600000x128, .f32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S100000x128, .f32⟩
  | 23 => ⟨S1x3, .f32⟩
  | 24 => ⟨S100000x3, .f32⟩
  | 25 => ⟨S100000x3, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x3, .f32⟩
  | 35 => ⟨S600000x1, .f32⟩
  | 36 => ⟨S600000x3, .f32⟩
  | 37 => ⟨S600000x3, .f32⟩
  | 38 => ⟨S_, .f32⟩
  | 39 => ⟨S100000x3, .f32⟩
  | 40 => ⟨S600000x1, .i32⟩
  | 41 => ⟨S100000x3, .f32⟩
  | 42 => ⟨S100000x3, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S5000x6, .f32⟩
  | .local _ .vmem, ⟨1, _⟩ => ⟨S5000x6, .f32⟩
  | .local _ .vmem, ⟨2, _⟩ => ⟨S6x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S1x128, .f32⟩
  | .local _ .vmem, ⟨68, _⟩ => ⟨S5000x1, .f32⟩
  | .local _ .vmem, ⟨69, _⟩ => ⟨S5000x1, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x3, .f32⟩
  | .local _ .vmem, ⟨83, _⟩ => ⟨S1x3, .f32⟩
  | .local _ .vmem, ⟨84, _⟩ => ⟨S5000x1, .f32⟩
  | .local _ .vmem, ⟨85, _⟩ => ⟨S5000x1, .f32⟩
  | .local _ .vmem, ⟨86, _⟩ => ⟨S5000x3, .f32⟩
  | .local _ .vmem, ⟨87, _⟩ => ⟨S5000x3, .f32⟩
  | .local _ .vmem, ⟨88, _⟩ => ⟨S5000x3, .f32⟩
  | .local _ .vmem, ⟨89, _⟩ => ⟨S5000x3, .f32⟩
  | .local _ .vmem, ⟨90, _⟩ => ⟨S5000x3, .f32⟩
  | .local _ .vmem, ⟨91, _⟩ => ⟨S5000x3, .f32⟩
  | .local _ .vmem, ⟨92, _⟩ => ⟨S5000x3, .f32⟩
  | .local _ .vmem, ⟨93, _⟩ => ⟨S5000x3, .f32⟩
  | .local _ .vmem, ⟨94, _⟩ => ⟨S5000x3, .f32⟩
  | .local _ .vmem, ⟨95, _⟩ => ⟨S5000x3, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_c_14 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94_0 : Ref sig .tc := ⟨.hbm, 132, rfl⟩
abbrev main_v94_1 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_c_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_19 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110_0 : Ref sig .tc := ⟨.hbm, 152, rfl⟩
abbrev main_v110_1 : Ref sig .tc := ⟨.hbm, 153, rfl⟩
abbrev main_c_20 : Ref sig .tc := ⟨.hbm, 154, rfl⟩
abbrev main_v111 : Ref sig .tc := ⟨.hbm, 155, rfl⟩
abbrev main_v112 : Ref sig .tc := ⟨.hbm, 156, rfl⟩
abbrev main_c_21 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_22 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc8_stg5_0 : Ref sig .tc := ⟨.vmem, 72, rfl⟩
abbrev cc8_stg5_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg3_1 : Ref sig .tc := ⟨.vmem, 85, rfl⟩
abbrev cc10_stg4_0 : Ref sig .tc := ⟨.vmem, 86, rfl⟩
abbrev cc10_stg4_1 : Ref sig .tc := ⟨.vmem, 87, rfl⟩
abbrev cc10_stg5_0 : Ref sig .tc := ⟨.vmem, 88, rfl⟩
abbrev cc10_stg5_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg1_1 : Ref sig .tc := ⟨.vmem, 93, rfl⟩
abbrev cc11_stg2_0 : Ref sig .tc := ⟨.vmem, 94, rfl⟩
abbrev cc11_stg2_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55
abbrev cc6_sem5_0 : DmaSem sig := 56
abbrev cc6_sem5_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc8_sem4_0 : DmaSem sig := 70
abbrev cc8_sem4_1 : DmaSem sig := 71
abbrev cc8_sem5_0 : DmaSem sig := 72
abbrev cc8_sem5_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem3_1 : DmaSem sig := 85
abbrev cc10_sem4_0 : DmaSem sig := 86
abbrev cc10_sem4_1 : DmaSem sig := 87
abbrev cc10_sem5_0 : DmaSem sig := 88
abbrev cc10_sem5_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem2_1 : DmaSem sig := 95

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x3 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x3 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S5000x3 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S5000x3 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x3 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x3 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x3 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  concatenates_S100000x5_S100000x1_S100000x6_d1 : Shape.Concatenates [S100000x5, S100000x1] S100000x6 1
  shapeCasts_S128_S1x128 : S128.ShapeCasts S1x128
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S3_S1x3 : S3.ShapeCasts S1x3
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  broadcasts_S5000x1_S5000x3 : S5000x1.Broadcasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  bcast_S600000x1_S600000x3_0_1 : S600000x1.BroadcastsInDim S600000x3 (![0, 1] : Fin 2 → Fin S600000x3.rank)
  bcast_S_S100000x3 : S_.BroadcastsInDim S100000x3 (![] : Fin 0 → Fin S100000x3.rank)
  shapeCasts_S5000x3_S5000x3 : S5000x3.ShapeCasts S5000x3
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S5000x6_S6x128_S5000x128_1_0_0_1_n_n_wf : DotDims.WF S5000x6 S6x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S100000x1.size a
  hwx8_3 : ∀ i : grid8.Coords, EltTy.bits .f32 = 32 ∨ (Rect.block (s := S100000x1) S5000x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x3.size a ≤ S128x3.size a
  hwx10_1 : ∀ i : grid10.Coords, EltTy.bits .f32 = 32 ∨ (Rect.block (s := S128x3) S128x3.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x3.size a ≤ S1x3.size a
  hwx10_2 : ∀ i : grid10.Coords, EltTy.bits .f32 = 32 ∨ (Rect.block (s := S1x3) S1x3.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x1.size a ≤ S100000x1.size a
  hwx10_3 : ∀ i : grid10.Coords, EltTy.bits .f32 = 32 ∨ (Rect.block (s := S100000x1) S5000x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x3.size a ≤ S100000x3.size a
  hwx10_4 : ∀ i : grid10.Coords, EltTy.bits .f32 = 32 ∨ (Rect.block (s := S100000x3) S5000x3.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x3.size a ≤ S100000x3.size a
  hwx10_5 : ∀ i : grid10.Coords, EltTy.bits .f32 = 32 ∨ (Rect.block (s := S100000x3) S5000x3.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x3.size a ≤ S100000x3.size a
  hwx11_0 : ∀ i : grid11.Coords, EltTy.bits .f32 = 32 ∨ (Rect.block (s := S100000x3) S5000x3.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x3.size a ≤ S100000x3.size a
  hwx11_1 : ∀ i : grid11.Coords, EltTy.bits .f32 = 32 ∨ (Rect.block (s := S100000x3) S5000x3.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x3.size a ≤ S100000x3.size a
  hwx11_2 : ∀ i : grid11.Coords, EltTy.bits .f32 = 32 ∨ (Rect.block (s := S100000x3) S5000x3.size (cc11_transform_2 i) (hinb11_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf

abbrev win0_0 : Pipeline.Window sig grid0 :=
  Pipeline.Window.ofSpec (Memref.whole main_v28) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v46_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v62_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v62_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v78_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v78_1) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v91) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78_1) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v92) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v92) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v93) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v27) S5000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v94_0) S5000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v94_1) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v107) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v94_1) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v108) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v108) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S128x3.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v109) S1x3.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v27) S5000x1.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v110_0) S5000x3.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v110_1) S5000x3.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v123) S5000x3.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v110_1) S5000x3.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v124) S5000x3.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x5 : Shape := ⟨2, ![100000, 5]⟩
abbrev S100000x1 : Shape := ⟨2, ![100000, 1]⟩
abbrev S2x600000 : Shape := ⟨2, ![2, 600000]⟩
abbrev S6x128 : Shape := ⟨2, ![6, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x6 : Shape := ⟨2, ![100000, 6]⟩
abbrev S100000x128 : Shape := ⟨2, ![100000, 128]⟩
abbrev S600000x128 : Shape := ⟨2, ![600000, 128]⟩
abbrev S1x128 : Shape := ⟨2, ![1, 128]⟩
abbrev S100000x3 : Shape := ⟨2, ![100000, 3]⟩
abbrev S600000x3 : Shape := ⟨2, ![600000, 3]⟩
abbrev S1x3 : Shape := ⟨2, ![1, 3]⟩

abbrev nBuf : Space → Nat
  | .hbm => 209
  | .vmem => 0
  | .smem => 0
  | _ => 0

abbrev hbmTy0_0 (i : Nat) : BufTy := match i % 128 with
  | 0 => ⟨S100000x5, .f32⟩
  | 1 => ⟨S100000x1, .f32⟩
  | 2 => ⟨S2x600000, .i32⟩
  | 3 => ⟨S6x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x3, .f32⟩
  | 14 => ⟨S3, .f32⟩
  | 15 => ⟨S1x600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S100000, .f32⟩
  | 49 => ⟨S100000x6, .f32⟩
  | 50 => ⟨S100000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S600000x1, .f32⟩
  | 61 => ⟨S600000x128, .f32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x1, .f32⟩
  | 88 => ⟨S600000x128, .f32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S100000x1, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S600000x1, .f32⟩
  | 115 => ⟨S600000x128, .f32⟩
  | 116 => ⟨S600000x128, .f32⟩
  | 117 => ⟨S_, .f32⟩
  | 118 => ⟨S100000x128, .f32⟩
  | 119 => ⟨S600000x1, .i32⟩
  | 120 => ⟨S100000x128, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x5, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x1, .f32⟩
  | 14 => ⟨S600000x128, .f32⟩
  | 15 => ⟨S600000x128, .f32⟩
  | 16 => ⟨S_, .f32⟩
  | 17 => ⟨S100000x128, .f32⟩
  | 18 => ⟨S600000x1, .i32⟩
  | 19 => ⟨S100000x128, .f32⟩
  | 20 => ⟨S100000x1, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x1, .f32⟩
  | 41 => ⟨S600000x128, .f32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x3, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x3, .f32⟩
  | 67 => ⟨S600000x1, .f32⟩
  | 68 => ⟨S600000x3, .f32⟩
  | 69 => ⟨S600000x3, .f32⟩
  | 70 => ⟨S_, .f32⟩
  | 71 => ⟨S100000x3, .f32⟩
  | 72 => ⟨S600000x1, .i32⟩
  | 73 => ⟨S100000x3, .f32⟩
  | 74 => ⟨S100000x1, .f32⟩
  | 75 => ⟨S100000x3, .f32⟩
  | 76 => ⟨S100000x3, .f32⟩
  | 77 => ⟨S100000x3, .f32⟩
  | 78 => ⟨S1x3, .f32⟩
  | 79 => ⟨S100000x3, .f32⟩
  | 80 => ⟨S100000x3, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_c_11 : Ref sig .tc := ⟨.hbm, 105, rfl⟩
abbrev main_v73 : Ref sig .tc := ⟨.hbm, 106, rfl⟩
abbrev main_v74 : Ref sig .tc := ⟨.hbm, 107, rfl⟩
abbrev main_c_12 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call2_cst : Ref sig .tc := ⟨.hbm, 128, rfl⟩
abbrev main_call2_v0 : Ref sig .tc := ⟨.hbm, 129, rfl⟩
abbrev main_v93 : Ref sig .tc := ⟨.hbm, 130, rfl⟩
abbrev main_v94 : Ref sig .tc := ⟨.hbm, 131, rfl⟩
abbrev main_c_14 : Ref sig .tc := ⟨.hbm, 132, rfl⟩
abbrev main_v95 : Ref sig .tc := ⟨.hbm, 133, rfl⟩
abbrev main_v96 : Ref sig .tc := ⟨.hbm, 134, rfl⟩
abbrev main_c_15 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_16 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call3_cst : Ref sig .tc := ⟨.hbm, 155, rfl⟩
abbrev main_call3_v0 : Ref sig .tc := ⟨.hbm, 156, rfl⟩
abbrev main_v115 : Ref sig .tc := ⟨.hbm, 157, rfl⟩
abbrev main_v116 : Ref sig .tc := ⟨.hbm, 158, rfl⟩
abbrev main_c_17 : Ref sig .tc := ⟨.hbm, 159, rfl⟩
abbrev main_v117 : Ref sig .tc := ⟨.hbm, 160, rfl⟩
abbrev main_v118 : Ref sig .tc := ⟨.hbm, 161, rfl⟩
abbrev main_c_18 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_19 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_call4_cst : Ref sig .tc := ⟨.hbm, 182, rfl⟩
abbrev main_call4_v0 : Ref sig .tc := ⟨.hbm, 183, rfl⟩
abbrev main_v137 : Ref sig .tc := ⟨.hbm, 184, rfl⟩
abbrev main_v138 : Ref sig .tc := ⟨.hbm, 185, rfl⟩
abbrev main_c_20 : Ref sig .tc := ⟨.hbm, 186, rfl⟩
abbrev main_v139 : Ref sig .tc := ⟨.hbm, 187, rfl⟩
abbrev main_v140 : Ref sig .tc := ⟨.hbm, 188, rfl⟩
abbrev main_c_21 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_22 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  concatenates_S100000x5_S100000x1_S100000x6_d1 : Shape.Concatenates [S100000x5, S100000x1] S100000x6 1
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x3_0_1 : S600000x1.BroadcastsInDim S600000x3 (![0, 1] : Fin 2 → Fin S600000x3.rank)
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x6_S6x128_S100000x128_1_0_0_1_n_n_wf : DotDims.WF S100000x6 S6x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf

class Facts : Prop extends Facts₀ where

variable [Facts]
-- ==== Proof.KRun.lean ====
/-
  The idealized kernel program's run with its result named.  The program is twelve regions among stretches of host
  operations; the buffers' contents at each boundary are a fold from the launch memory (a stretch applies its
  operations, a region leaves its output arrays at what its write-backs make them).  Every weakly fair execution
  terminates with EVERY unscoped buffer at the last boundary's contents; read at the result buffer and at the
  arguments this gives the result as the fold's value and the arguments unchanged.
-/
import proofs.«111918_j80633716015488_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v124) = W24 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v124 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c)⟩)

end Cert.KernelIdeal.KRun

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«111918_j80633716015488_1_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«111918_j80633716015488_1_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibGcnTail.lean ====
/-
  One graph-convolution layer's dense tail on the extended reals, general in the extents N (nodes) and M (features).

  After the product xw = x·W and the aggregate agg of the neighbours' messages, a layer with self-loops adds the
  node's own term and a bias: out (p, j) = agg (p, j) + xw (p, j) · s p + b j, optionally followed by the maximum
  with zero.  Two groupings of that sum appear.  A program that fuses the own term with the product forms
  `own xw s b` — entry (p, j) = xw (p, j) · s (p, 0) + b (0, j), the factor a one-column matrix, the bias a one-row
  matrix — and later adds the aggregate: agg + (xw·s + b)  (`join`, `joinRelu`).  A program that writes the layer
  as one expression computes (agg + xw·s) + b.  Addition on the extended reals is associative, so the two agree
  (`host_layer`, `host_layerRelu`); no finiteness is used.

  Here: the functions, the kernel spellings (re-casts, a column spread along the rows and a row spread down the
  columns by vector broadcasts, a scalar-zero splat), the host spelling (broadcast_in_dim in two steps for the
  factor vector and for the bias vector, a rank-0 zero broadcast), and each function on a block of R consecutive rows.
  It imports LibRowBlocks.lean (with LibDense.lean, LibDotSum.lean) and LibColumns.lean, so it needs those beside it.
-/
import proofs.«111918_j80633716015488_1_alg».proof.Proof.LibRowBlocks
import proofs.«111918_j80633716015488_1_alg».proof.Proof.LibColumns

noncomputable section

namespace Cert.GcnTail

open Idealize.ShloMosaic Idealize.ShloMosaic.ValueIdx Cert.Dense Cert.RowBlocks

/-- The node's own term: row p of the product scaled by the node's factor s (p, 0), plus the bias row. -/
def own {N M : ℕ} (xw : (⟨2, ![N, M]⟩ : Shape).Idx → EReal) (s : (⟨2, ![N, 1]⟩ : Shape).Idx → EReal)
    (b : (⟨2, ![1, M]⟩ : Shape).Idx → EReal) : (⟨2, ![N, M]⟩ : Shape).Idx → EReal :=
  fun i => xw i * s (ix2 (i 0 : Fin N) (0 : Fin 1)) + b (ix2 (0 : Fin 1) (i 1 : Fin M))

/-- The aggregate plus the own term. -/
def join {N M : ℕ} (a t : (⟨2, ![N, M]⟩ : Shape).Idx → EReal) : (⟨2, ![N, M]⟩ : Shape).Idx → EReal :=
  fun i => a i + t i

/-- The aggregate plus the own term, then the maximum with zero. -/
def joinRelu {N M : ℕ} (a t : (⟨2, ![N, M]⟩ : Shape).Idx → EReal) : (⟨2, ![N, M]⟩ : Shape).Idx → EReal :=
  fun i => max (a i + t i) (Ideal.ofBits .f32 0x00000000#32)

theorem own_apply {N M : ℕ} (xw : (⟨2, ![N, M]⟩ : Shape).Idx → EReal) (s : (⟨2, ![N, 1]⟩ : Shape).Idx → EReal)
    (b : (⟨2, ![1, M]⟩ : Shape).Idx → EReal) (p : Fin N) (j : Fin M) :
    own xw s b (ix2 p j) = xw (ix2 p j) * s (ix2 p (0 : Fin 1)) + b (ix2 (0 : Fin 1) j) := rfl

/-! ## Kernel spellings -/

/-- The own term as a kernel body forms it: the factor column re-cast and spread along the rows, multiplied in; the
    bias row re-cast and spread down the columns, added. -/
theorem kernel_own {N M : ℕ} (xw : (⟨2, ![N, M]⟩ : Shape).Idx → EReal) (s : (⟨2, ![N, 1]⟩ : Shape).Idx → EReal)
    (b : (⟨2, ![1, M]⟩ : Shape).Idx → EReal)
    (hs : (⟨2, ![N, 1]⟩ : Shape).ShapeCasts ⟨2, ![N, 1]⟩) (hsb : (⟨2, ![N, 1]⟩ : Shape).Broadcasts ⟨2, ![N, M]⟩)
    (hb : (⟨2, ![1, M]⟩ : Shape).ShapeCasts ⟨2, ![1, M]⟩) (hbb : (⟨2, ![1, M]⟩ : Shape).Broadcasts ⟨2, ![N, M]⟩) :
    addf (F := Ideal) (φ := .f32)
        (mulf (F := Ideal) (φ := .f32) xw (broadcastTo ⟨2, ![N, M]⟩ (shapeCast ⟨2, ![N, 1]⟩ s hs) hsb))
        (broadcastTo ⟨2, ![N, M]⟩ (shapeCast ⟨2, ![1, M]⟩ b hb) hbb)
      = own xw s b := by
  funext i
  obtain ⟨p, j, rfl⟩ : ∃ (p : Fin N) (j : Fin M), i = ix2 p j := ⟨i 0, i 1, eq_ix2 i⟩
  rw [shapeCast_self, shapeCast_self, addf_apply, mulf_apply, Cert.LibColumns.broadcastTo_col, broadcastTo_1b_ab_apply]
  rfl

/-- The two summands re-cast and added, then the maximum with a splat of the scalar zero. -/
theorem kernel_joinRelu {N M : ℕ} (a t : (⟨2, ![N, M]⟩ : Shape).Idx → EReal)
    (h : (⟨2, ![N, M]⟩ : Shape).ShapeCasts ⟨2, ![N, M]⟩) :
    maximumf (F := Ideal) (φ := .f32)
        (addf (shapeCast ⟨2, ![N, M]⟩ a h) (shapeCast ⟨2, ![N, M]⟩ t h))
        (broadcast ⟨2, ![N, M]⟩ (Scalar.ofBits (F := Ideal) .f32 0x00000000#32))
      = joinRelu a t := by
  funext i
  rw [shapeCast_self, shapeCast_self, maximumf_apply, addf_apply, broadcast_apply]
  rfl

/-- The two summands re-cast and added. -/
theorem kernel_join {N M : ℕ} (a t : (⟨2, ![N, M]⟩ : Shape).Idx → EReal)
    (h : (⟨2, ![N, M]⟩ : Shape).ShapeCasts ⟨2, ![N, M]⟩) :
    addf (F := Ideal) (φ := .f32) (shapeCast ⟨2, ![N, M]⟩ a h) (shapeCast ⟨2, ![N, M]⟩ t h) = join a t := by
  funext i
  rw [shapeCast_self, shapeCast_self, addf_apply]
  rfl

/-! ## Blocks of rows -/

/-- A block of rows of the own term is the own term of the blocks of rows (the bias row kept whole). -/
theorem own_up {R N M : ℕ} (n : ℕ) (h : n * R + R ≤ N) (XW : (⟨2, ![N, M]⟩ : Shape).Idx → EReal)
    (S : (⟨2, ![N, 1]⟩ : Shape).Idx → EReal) (B : (⟨2, ![1, M]⟩ : Shape).Idx → EReal) :
    own (fun y => XW (up n h y)) (fun y => S (up n h y)) B = fun j => own XW S B (up n h j) := rfl

/-- A block of rows of the sum is the sum of the blocks of rows. -/
theorem join_up {R N M : ℕ} (n : ℕ) (h : n * R + R ≤ N) (A T : (⟨2, ![N, M]⟩ : Shape).Idx → EReal) :
    join (fun y => A (up n h y)) (fun y => T (up n h y)) = fun j => join A T (up n h j) := rfl

theorem joinRelu_up {R N M : ℕ} (n : ℕ) (h : n * R + R ≤ N) (A T : (⟨2, ![N, M]⟩ : Shape).Idx → EReal) :
    joinRelu (fun y => A (up n h y)) (fun y => T (up n h y)) = fun j => joinRelu A T (up n h j) := rfl

/-! ## The host's one-expression spelling -/

/-- (agg + xw · s) + b with the factor VECTOR spread in two steps ([N] → [N,1] → [N,M]) and the bias VECTOR spread in
    two steps ([M] → [1,M] → [N,M]) is the aggregate joined with the own term over the re-cast column and row. -/
theorem host_layer {N M : ℕ} (agg xw : (⟨2, ![N, M]⟩ : Shape).Idx → EReal) (sn : (⟨1, ![N]⟩ : Shape).Idx → EReal)
    (b : (⟨1, ![M]⟩ : Shape).Idx → EReal)
    (h0 : (⟨1, ![N]⟩ : Shape).BroadcastsInDim ⟨2, ![N, 1]⟩ ![0])
    (h1 : (⟨2, ![N, 1]⟩ : Shape).BroadcastsInDim ⟨2, ![N, M]⟩ ![0, 1])
    (h2 : (⟨1, ![M]⟩ : Shape).BroadcastsInDim ⟨2, ![1, M]⟩ ![1])
    (h3 : (⟨2, ![1, M]⟩ : Shape).BroadcastsInDim ⟨2, ![N, M]⟩ ![0, 1])
    (hc : (⟨1, ![N]⟩ : Shape).ShapeCasts ⟨2, ![N, 1]⟩) (hr : (⟨1, ![M]⟩ : Shape).ShapeCasts ⟨2, ![1, M]⟩) :
    addf (F := Ideal) (φ := .f32)
        (addf (F := Ideal) (φ := .f32) agg
          (mulf (F := Ideal) (φ := .f32) xw (broadcastInDim ⟨2, ![N, M]⟩ ![0, 1] h1 (broadcastInDim ⟨2, ![N, 1]⟩ ![0] h0 sn))))
        (broadcastInDim ⟨2, ![N, M]⟩ ![0, 1] h3 (broadcastInDim ⟨2, ![1, M]⟩ ![1] h2 b))
      = join agg (own xw (shapeCast ⟨2, ![N, 1]⟩ sn hc) (shapeCast ⟨2, ![1, M]⟩ b hr)) := by
  funext i
  obtain ⟨p, j, rfl⟩ : ∃ (p : Fin N) (j : Fin M), i = ix2 p j := ⟨i 0, i 1, eq_ix2 i⟩
  rw [addf_apply, addf_apply, mulf_apply, Cert.LibColumns.broadcastInDim_col_mat ![0, 1] rfl rfl,
    Cert.LibColumns.broadcastInDim_vec_col ![0] rfl, broadcastInDim_oneRow_apply, ← row_cast_eq_broadcast b hr h2]
  show (agg (ix2 p j) + xw (ix2 p j) * sn (ix1 p)) + shapeCast ⟨2, ![1, M]⟩ b hr (ix2 (0 : Fin 1) j)
    = agg (ix2 p j) + (xw (ix2 p j) * shapeCast ⟨2, ![N, 1]⟩ sn hc (ix2 p (0 : Fin 1)) + shapeCast ⟨2, ![1, M]⟩ b hr (ix2 (0 : Fin 1) j))
  rw [Cert.LibColumns.shapeCast_vec_col, add_assoc]

/-- The same followed by the maximum with a broadcast of the rank-0 zero. -/
theorem host_layerRelu {N M : ℕ} (agg xw : (⟨2, ![N, M]⟩ : Shape).Idx → EReal) (sn : (⟨1, ![N]⟩ : Shape).Idx → EReal)
    (b : (⟨1, ![M]⟩ : Shape).Idx → EReal)
    (h0 : (⟨1, ![N]⟩ : Shape).BroadcastsInDim ⟨2, ![N, 1]⟩ ![0])
    (h1 : (⟨2, ![N, 1]⟩ : Shape).BroadcastsInDim ⟨2, ![N, M]⟩ ![0, 1])
    (h2 : (⟨1, ![M]⟩ : Shape).BroadcastsInDim ⟨2, ![1, M]⟩ ![1])
    (h3 : (⟨2, ![1, M]⟩ : Shape).BroadcastsInDim ⟨2, ![N, M]⟩ ![0, 1])
    (hz : (⟨0, ![]⟩ : Shape).BroadcastsInDim ⟨2, ![N, M]⟩ ![])
    (hc : (⟨1, ![N]⟩ : Shape).ShapeCasts ⟨2, ![N, 1]⟩) (hr : (⟨1, ![M]⟩ : Shape).ShapeCasts ⟨2, ![1, M]⟩) :
    maximumf (F := Ideal) (φ := .f32)
        (addf (F := Ideal) (φ := .f32)
          (addf (F := Ideal) (φ := .f32) agg
            (mulf (F := Ideal) (φ := .f32) xw (broadcastInDim ⟨2, ![N, M]⟩ ![0, 1] h1 (broadcastInDim ⟨2, ![N, 1]⟩ ![0] h0 sn))))
          (broadcastInDim ⟨2, ![N, M]⟩ ![0, 1] h3 (broadcastInDim ⟨2, ![1, M]⟩ ![1] h2 b)))
        (broadcastInDim ⟨2, ![N, M]⟩ ![] hz (constant (F := Ideal) ⟨0, ![]⟩ .f32 0x00000000#32))
      = joinRelu agg (own xw (shapeCast ⟨2, ![N, 1]⟩ sn hc) (shapeCast ⟨2, ![1, M]⟩ b hr)) := by
  rw [host_layer agg xw sn b h0 h1 h2 h3 hc hr]
  funext i
  rw [maximumf_apply, broadcastInDim_scalar_apply, constant_apply]
  rfl

end Cert.GcnTail

end
-- ==== Proof.Dense10.lean ====
/-
  The dense region number 10 of the kernel program, as whole-array functions.  The region walks the 100000 node rows in
  20 blocks of 5000.  At block n its body multiplies rows [5000·n, 5000·n + 5000) of the feature matrix (128 columns)
  by the whole 128 × 3 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense10

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg10.N = 20 := N_10

theorem rows_le (t : Fin cfg10.N) : t.val * 5000 + 5000 ≤ 100000 := by
  have h : t.val < 20 := lt_of_lt_of_eq t.isLt N_eq
  omega

/-! ## The product record is a plain [5000,128] × [128,3] product -/

theorem lhs0 (i : S5000x3.Idx) (q : dot_S5000x128_S128x3_S5000x3_1_0_0_1_n_n.contr.Idx) : (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs1 (i : S5000x3.Idx) (q : dot_S5000x128_S128x3_S5000x3_1_0_0_1_n_n.contr.Idx) : (dot_S5000x128_S128x3_S5000x3_1_0_0_1_n_n.lhsIdx i q 1).val = (q ⟨0, by decide⟩).val :=
  dot_S5000x128_S128x3_S5000x3_1_0_0_1_n_n.lhsIdx_val_of_single rfl i q
theorem rhs0 (i : S5000x3.Idx) (q : dot_S5000x128_S128x3_S5000x3_1_0_0_1_n_n.contr.Idx) : (dot_S5000x128_S128x3_S5000x3_1_0_0_1_n_n.rhsIdx i q 0).val = (q ⟨0, by decide⟩).val :=
  dot_S5000x128_S128x3_S5000x3_1_0_0_1_n_n.rhsIdx_val_of_single rfl i q
theorem rhs1 (i : S5000x3.Idx) (q : dot_S5000x128_S128x3_S5000x3_1_0_0_1_n_n.contr.Idx) : (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-! ## The body's two stored values -/

/-- The first store: the product of the feature block with the weights. -/
theorem pay1_eq (x0 : Vec Ideal S5000x128 .f32) (x1 : Vec Ideal S128x3 .f32) : k10_pay1 x0 x1 = prod x0 x1 := by
  unfold k10_pay1
  dsimp only
  rw [shapeCast_self]
  exact matmul_zero_eq_prod dot_S5000x128_S128x3_S5000x3_1_0_0_1_n_n rfl rfl lhs0 lhs1 rhs0 rhs1 none _ _

/-- The second store: the own term of the block. -/
theorem pay2_eq (x0 : Vec Ideal S5000x128 .f32) (x1 : Vec Ideal S128x3 .f32) (x3 : Vec Ideal S5000x1 .f32) (x2 : Vec Ideal S1x3 .f32) :
    k10_pay2 x0 x1 x3 x2 = own (prod x0 x1) x3 x2 := by
  unfold k10_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_5.index t (0 : Fin 2) = t.val ∧ win10_5.index t (1 : Fin 2) = 0 :=
  (by decide +kernel : ∀ t : Fin grid10.N, _)

theorem emb0 (t : Fin cfg10.N) : ⇑((cfg10.win 0).blk t).view.emb = up (R := 5000) (N := 100000) (M := 128) t.val (rows_le t) := by
  obtain ⟨e00, e01, -⟩ := idx_facts t
  funext y a; apply Fin.ext
  match a with
  | ⟨0, _⟩ => show win10_0.index t (0 : Fin 2) * 5000 + 1 * (y 0).val = t.val * 5000 + (y 0).val; omega
  | ⟨1, _⟩ => show win10_0.index t (1 : Fin 2) * 128 + 1 * (y 1).val = (y 1).val; omega

theorem emb1 (t : Fin cfg10.N) : ⇑((cfg10.win 1).blk t).view.emb = fun y => y := by
  obtain ⟨-, -, e10, e11, -⟩ := idx_facts t
  funext y a; apply Fin.ext
  match a with
  | ⟨0, _⟩ => show win10_1.index t (0 : Fin 2) * 128 + 1 * (y 0).val = (y 0).val; omega
  | ⟨1, _⟩ => show win10_1.index t (1 : Fin 2) * 3 + 1 * (y 1).val = (y 1).val; omega

theorem emb2 (t : Fin cfg10.N) : ⇑((cfg10.win 2).blk t).view.emb = fun y => y := by
  obtain ⟨-, -, -, -, e20, e21, -⟩ := idx_facts t
  funext y a; apply Fin.ext
  match a with
  | ⟨0, _⟩ => show win10_2.index t (0 : Fin 2) * 1 + 1 * (y 0).val = (y 0).val; omega
  | ⟨1, _⟩ => show win10_2.index t (1 : Fin 2) * 3 + 1 * (y 1).val = (y 1).val; omega

theorem emb3 (t : Fin cfg10.N) : ⇑((cfg10.win 3).blk t).view.emb = up (R := 5000) (N := 100000) (M := 1) t.val (rows_le t) := by
  obtain ⟨-, -, -, -, -, -, e30, e31, -⟩ := idx_facts t
  funext y a; apply Fin.ext
  match a with
  | ⟨0, _⟩ => show win10_3.index t (0 : Fin 2) * 5000 + 1 * (y 0).val = t.val * 5000 + (y 0).val; omega
  | ⟨1, _⟩ => show win10_3.index t (1 : Fin 2) * 1 + 1 * (y 1).val = (y 1).val; omega

theorem emb4 (t : Fin cfg10.N) : ⇑((cfg10.win 4).blk t).view.emb = up (R := 5000) (N := 100000) (M := 3) t.val (rows_le t) := by
  obtain ⟨-, -, -, -, -, -, -, -, e40, e41, -⟩ := idx_facts t
  funext y a; apply Fin.ext
  match a with
  | ⟨0, _⟩ => show win10_4.index t (0 : Fin 2) * 5000 + 1 * (y 0).val = t.val * 5000 + (y 0).val; omega
  | ⟨1, _⟩ => show win10_4.index t (1 : Fin 2) * 3 + 1 * (y 1).val = (y 1).val; omega

theorem emb5 (t : Fin cfg10.N) : ⇑((cfg10.win 5).blk t).view.emb = up (R := 5000) (N := 100000) (M := 3) t.val (rows_le t) := by
  obtain ⟨-, -, -, -, -, -, -, -, -, -, e50, e51⟩ := idx_facts t
  funext y a; apply Fin.ext
  match a with
  | ⟨0, _⟩ => show win10_5.index t (0 : Fin 2) * 5000 + 1 * (y 0).val = t.val * 5000 + (y 0).val; omega
  | ⟨1, _⟩ => show win10_5.index t (1 : Fin 2) * 3 + 1 * (y 1).val = (y 1).val; omega

/-! ## What each point writes back -/

/-- Point `t` writes block `t` of the product of the whole matrices. -/
theorem flushed4_eq (c : Dev nD) (t : Fin cfg10.N) :
    (dat10 V c).flushed 4 t = ((cfg10.win 4).blk t).view.read (Elt Ideal) (prod (V c main_v108) (V c main_arg13)) := by
  show (cfg10.win 4).cut (grid10.coords t) ((dat10 V c).after 4 t) = _
  rw [after10_4]
  unfold out10_4
  rw [View.canon_unit_zero hz]
  simp only [View.ld_unit_zero (S := S5000x128) hz, View.ld_unit_zero (S := S128x3) hz, View.ld_unit_zero (S := S1x3) hz, View.ld_unit_zero (S := S5000x1) hz, View.ld_unit_zero (S := S5000x3) hz]
  rw [pay1_eq]
  funext j
  show prod (fun y => V c main_v108 (((cfg10.win 0).blk t).view.emb y)) (fun y => V c main_arg13 (((cfg10.win 1).blk t).view.emb y)) j
    = prod (V c main_v108) (V c main_arg13) (((cfg10.win 4).blk t).view.emb j)
  rw [emb0, emb1, emb4]
  exact congrFun (prod_up t.val (rows_le t) (V c main_v108) (V c main_arg13)) j

/-- Point `t` writes block `t` of the own term over the whole arrays. -/
theorem flushed5_eq (c : Dev nD) (t : Fin cfg10.N) :
    (dat10 V c).flushed 5 t = ((cfg10.win 5).blk t).view.read (Elt Ideal) (own (prod (V c main_v108) (V c main_arg13)) (V c main_v27) (V c main_v109)) := by
  show (cfg10.win 5).cut (grid10.coords t) ((dat10 V c).after 5 t) = _
  rw [after10_5]
  unfold out10_5
  rw [View.canon_unit_zero hz]
  simp only [View.ld_unit_zero (S := S5000x128) hz, View.ld_unit_zero (S := S128x3) hz, View.ld_unit_zero (S := S1x3) hz, View.ld_unit_zero (S := S5000x1) hz, View.ld_unit_zero (S := S5000x3) hz]
  rw [pay2_eq]
  funext j
  show own (prod (fun y => V c main_v108 (((cfg10.win 0).blk t).view.emb y)) (fun y => V c main_arg13 (((cfg10.win 1).blk t).view.emb y)))
      (fun y => V c main_v27 (((cfg10.win 3).blk t).view.emb y)) (fun y => V c main_v109 (((cfg10.win 2).blk t).view.emb y)) j
    = own (prod (V c main_v108) (V c main_arg13)) (V c main_v27) (V c main_v109) (((cfg10.win 5).blk t).view.emb j)
  rw [emb0, emb1, emb2, emb3, emb5]
  show own (prod (fun y => V c main_v108 (up (R := 5000) (N := 100000) (M := 128) t.val (rows_le t) y)) (V c main_arg13))
      (fun y => V c main_v27 (up (R := 5000) (N := 100000) (M := 1) t.val (rows_le t) y)) (V c main_v109) j = _
  rw [prod_up t.val (rows_le t) (V c main_v108) (V c main_arg13)]
  exact congrFun (own_up t.val (rows_le t) (prod (V c main_v108) (V c main_arg13)) (V c main_v27) (V c main_v109)) j

/-! ## The blocks tile the arrays -/

theorem mem_blk4 (t : Fin cfg10.N) (i : S100000x3.Idx) :
    i ∈ ((cfg10.win 4).blk t).view.set ↔ ∀ a : Fin 2, win10_4.index t a * S5000x3.size a ≤ (i a).val ∧ (i a).val < win10_4.index t a * S5000x3.size a + S5000x3.size a := by
  show i ∈ ((View.whole main_v110_0).slice (win10_4.rect t)).set ↔ _
  rw [View.set_slice_whole, Rect.mem_set_unit]
  exact Iff.rfl

/-- Row r lies in the block of point r / 5000. -/
theorem cover4 (i : S100000x3.Idx) : ∃ t : Fin cfg10.N, (cfg10.win 4).flush t = true ∧ i ∈ ((cfg10.win 4).blk t).view.set := by
  have hi0 : (i 0).val < 100000 := (i 0).isLt
  have hi1 : (i 1).val < 3 := (i 1).isLt
  obtain ⟨t, htv⟩ : ∃ t : Fin cfg10.N, t.val = (i 0).val / 5000 := ⟨⟨(i 0).val / 5000, by rw [N_eq]; omega⟩, rfl⟩
  obtain ⟨-, -, -, -, -, -, -, -, e40, e41, -⟩ := idx_facts t
  refine ⟨t, flush10_4 t, ?_⟩
  rw [mem_blk4]
  intro a
  match a with
  | ⟨0, _⟩ => show win10_4.index t (0 : Fin 2) * 5000 ≤ (i 0).val ∧ (i 0).val < win10_4.index t (0 : Fin 2) * 5000 + 5000; omega
  | ⟨1, _⟩ => show win10_4.index t (1 : Fin 2) * 3 ≤ (i 1).val ∧ (i 1).val < win10_4.index t (1 : Fin 2) * 3 + 3; omega

theorem mem_blk5 (t : Fin cfg10.N) (i : S100000x3.Idx) :
    i ∈ ((cfg10.win 5).blk t).view.set ↔ ∀ a : Fin 2, win10_5.index t a * S5000x3.size a ≤ (i a).val ∧ (i a).val < win10_5.index t a * S5000x3.size a + S5000x3.size a := by
  show i ∈ ((View.whole main_v110_1).slice (win10_5.rect t)).set ↔ _
  rw [View.set_slice_whole, Rect.mem_set_unit]
  exact Iff.rfl

/-- Row r lies in the block of point r / 5000. -/
theorem cover5 (i : S100000x3.Idx) : ∃ t : Fin cfg10.N, (cfg10.win 5).flush t = true ∧ i ∈ ((cfg10.win 5).blk t).view.set := by
  have hi0 : (i 0).val < 100000 := (i 0).isLt
  have hi1 : (i 1).val < 3 := (i 1).isLt
  obtain ⟨t, htv⟩ : ∃ t : Fin cfg10.N, t.val = (i 0).val / 5000 := ⟨⟨(i 0).val / 5000, by rw [N_eq]; omega⟩, rfl⟩
  obtain ⟨-, -, -, -, -, -, -, -, -, -, e50, e51⟩ := idx_facts t
  refine ⟨t, flush10_5 t, ?_⟩
  rw [mem_blk5]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 3 ≤ (i 1).val ∧ (i 1).val < win10_5.index t (1 : Fin 2) * 3 + 3; omega

/-! ## The arrays after the region -/

/-- The first output array after the region: the product of the whole feature matrix with the weights. -/
theorem final4 (c : Dev nD) : (dat10 V c).arrAt 4 cfg10.N = prod (V c main_v108) (V c main_arg13) :=
  (dat10 V c).arrAt_eq_of_cover 4 (prod (V c main_v108) (V c main_arg13)) (fun t _ => flushed4_eq V c t) cover4

/-- The second output array after the region: the own term over the whole arrays. -/
theorem final5 (c : Dev nD) : (dat10 V c).arrAt 5 cfg10.N = own (prod (V c main_v108) (V c main_arg13)) (V c main_v27) (V c main_v109) :=
  (dat10 V c).arrAt_eq_of_cover 5 (own (prod (V c main_v108) (V c main_arg13)) (V c main_v27) (V c main_v109)) (fun t _ => flushed5_eq V c t) cover5

end Cert.KernelIdeal.Dense10

end
-- ==== Proof.Combine11.lean ====
/-
  The combining region number 11 of the kernel program, as a whole-array function.  The region walks the 100000 node
  rows in 20 blocks of 5000; at block n its body adds rows [5000·n, 5000·n + 5000) of the aggregate and of the own
  term.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine11

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg11.N = 20 := N_11

theorem rows_le (t : Fin cfg11.N) : t.val * 5000 + 5000 ≤ 100000 := by
  have h : t.val < 20 := lt_of_lt_of_eq t.isLt N_eq
  omega

/-- The body's stored value. -/
theorem pay1_eq (x0 x1 : Vec Ideal S5000x3 .f32) : k11_pay1 x0 x1 = join x0 x1 := by
  unfold k11_pay1
  dsimp only
  exact kernel_join x0 x1 _

/-- The printed index maps over the 20 grid points: every window is at block row `t`. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

theorem emb0 (t : Fin cfg11.N) : ⇑((cfg11.win 0).blk t).view.emb = up (R := 5000) (N := 100000) (M := 3) t.val (rows_le t) := by
  obtain ⟨e00, e01, -⟩ := idx_facts t
  funext y a; apply Fin.ext
  match a with
  | ⟨0, _⟩ => show win11_0.index t (0 : Fin 2) * 5000 + 1 * (y 0).val = t.val * 5000 + (y 0).val; omega
  | ⟨1, _⟩ => show win11_0.index t (1 : Fin 2) * 3 + 1 * (y 1).val = (y 1).val; omega

theorem emb1 (t : Fin cfg11.N) : ⇑((cfg11.win 1).blk t).view.emb = up (R := 5000) (N := 100000) (M := 3) t.val (rows_le t) := by
  obtain ⟨-, -, e10, e11, -⟩ := idx_facts t
  funext y a; apply Fin.ext
  match a with
  | ⟨0, _⟩ => show win11_1.index t (0 : Fin 2) * 5000 + 1 * (y 0).val = t.val * 5000 + (y 0).val; omega
  | ⟨1, _⟩ => show win11_1.index t (1 : Fin 2) * 3 + 1 * (y 1).val = (y 1).val; omega

theorem emb2 (t : Fin cfg11.N) : ⇑((cfg11.win 2).blk t).view.emb = up (R := 5000) (N := 100000) (M := 3) t.val (rows_le t) := by
  obtain ⟨-, -, -, -, e20, e21⟩ := idx_facts t
  funext y a; apply Fin.ext
  match a with
  | ⟨0, _⟩ => show win11_2.index t (0 : Fin 2) * 5000 + 1 * (y 0).val = t.val * 5000 + (y 0).val; omega
  | ⟨1, _⟩ => show win11_2.index t (1 : Fin 2) * 3 + 1 * (y 1).val = (y 1).val; omega

/-- Point `t` writes block `t` of the combined whole arrays. -/
theorem flushed2_eq (c : Dev nD) (t : Fin cfg11.N) :
    (dat11 V c).flushed 2 t = ((cfg11.win 2).blk t).view.read (Elt Ideal) (join (V c main_v123) (V c main_v110_1)) := by
  show (cfg11.win 2).cut (grid11.coords t) ((dat11 V c).after 2 t) = _
  rw [after11_2]
  unfold out11_2
  rw [View.canon_unit_zero hz]
  simp only [View.ld_unit_zero (S := S5000x3) hz]
  rw [pay1_eq]
  funext j
  show join (fun y => V c main_v123 (((cfg11.win 0).blk t).view.emb y)) (fun y => V c main_v110_1 (((cfg11.win 1).blk t).view.emb y)) j
    = join (V c main_v123) (V c main_v110_1) (((cfg11.win 2).blk t).view.emb j)
  rw [emb0, emb1, emb2]
  exact congrFun (join_up t.val (rows_le t) (V c main_v123) (V c main_v110_1)) j

theorem mem_blk2 (t : Fin cfg11.N) (i : S100000x3.Idx) :
    i ∈ ((cfg11.win 2).blk t).view.set ↔ ∀ a : Fin 2, win11_2.index t a * S5000x3.size a ≤ (i a).val ∧ (i a).val < win11_2.index t a * S5000x3.size a + S5000x3.size a := by
  show i ∈ ((View.whole main_v124).slice (win11_2.rect t)).set ↔ _
  rw [View.set_slice_whole, Rect.mem_set_unit]
  exact Iff.rfl

/-- Row r lies in the block of point r / 5000. -/
theorem cover2 (i : S100000x3.Idx) : ∃ t : Fin cfg11.N, (cfg11.win 2).flush t = true ∧ i ∈ ((cfg11.win 2).blk t).view.set := by
  have hi0 : (i 0).val < 100000 := (i 0).isLt
  have hi1 : (i 1).val < 3 := (i 1).isLt
  obtain ⟨t, htv⟩ : ∃ t : Fin cfg11.N, t.val = (i 0).val / 5000 := ⟨⟨(i 0).val / 5000, by rw [N_eq]; omega⟩, rfl⟩
  obtain ⟨-, -, -, -, e20, e21⟩ := idx_facts t
  refine ⟨t, flush11_2 t, ?_⟩
  rw [mem_blk2]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 3 ≤ (i 1).val ∧ (i 1).val < win11_2.index t (1 : Fin 2) * 3 + 3; omega

/-- The output array after the region. -/
theorem final2 (c : Dev nD) : (dat11 V c).arrAt 2 cfg11.N = join (V c main_v123) (V c main_v110_1) :=
  (dat11 V c).arrAt_eq_of_cover 2 (join (V c main_v123) (V c main_v110_1)) (fun t _ => flushed2_eq V c t) cover2

end Cert.KernelIdeal.Combine11

end
-- ==== Proof.Dense8.lean ====
/-
  The dense region number 8 of the kernel program, as whole-array functions.  The region walks the 100000 node rows in
  20 blocks of 5000.  At block n its body multiplies rows [5000·n, 5000·n + 5000) of the feature matrix (128 columns)
  by the whole 128 × 128 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense8

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg8.N = 20 := N_8

theorem rows_le (t : Fin cfg8.N) : t.val * 5000 + 5000 ≤ 100000 := by
  have h : t.val < 20 := lt_of_lt_of_eq t.isLt N_eq
  omega

/-! ## The product record is a plain [5000,128] × [128,128] product -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's two stored values -/

/-- The first store: the product of the feature block with the weights. -/
theorem pay1_eq (x0 : Vec Ideal S5000x128 .f32) (x1 : Vec Ideal S128x128 .f32) : k8_pay1 x0 x1 = prod x0 x1 := by
  unfold k8_pay1
  dsimp only
  rw [shapeCast_self]
  exact matmul_zero_eq_prod dot_S5000x128_S128x128_S5000x128_1_0_0_1_n_n rfl rfl lhs0 lhs1 rhs0 rhs1 none _ _

/-- The second store: the own term of the block. -/
theorem pay2_eq (x0 : Vec Ideal S5000x128 .f32) (x1 : Vec Ideal S128x128 .f32) (x3 : Vec Ideal S5000x1 .f32) (x2 : Vec Ideal S1x128 .f32) :
    k8_pay2 x0 x1 x3 x2 = own (prod x0 x1) x3 x2 := by
  unfold k8_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

theorem emb0 (t : Fin cfg8.N) : ⇑((cfg8.win 0).blk t).view.emb = up (R := 5000) (N := 100000) (M := 128) t.val (rows_le t) := by
  obtain ⟨e00, e01, -⟩ := idx_facts t
  funext y a; apply Fin.ext
  match a with
  | ⟨0, _⟩ => show win8_0.index t (0 : Fin 2) * 5000 + 1 * (y 0).val = t.val * 5000 + (y 0).val; omega
  | ⟨1, _⟩ => show win8_0.index t (1 : Fin 2) * 128 + 1 * (y 1).val = (y 1).val; omega

theorem emb1 (t : Fin cfg8.N) : ⇑((cfg8.win 1).blk t).view.emb = fun y => y := by
  obtain ⟨-, -, e10, e11, -⟩ := idx_facts t
  funext y a; apply Fin.ext
  match a with
  | ⟨0, _⟩ => show win8_1.index t (0 : Fin 2) * 128 + 1 * (y 0).val = (y 0).val; omega
  | ⟨1, _⟩ => show win8_1.index t (1 : Fin 2) * 128 + 1 * (y 1).val = (y 1).val; omega

theorem emb2 (t : Fin cfg8.N) : ⇑((cfg8.win 2).blk t).view.emb = fun y => y := by
  obtain ⟨-, -, -, -, e20, e21, -⟩ := idx_facts t
  funext y a; apply Fin.ext
  match a with
  | ⟨0, _⟩ => show win8_2.index t (0 : Fin 2) * 1 + 1 * (y 0).val = (y 0).val; omega
  | ⟨1, _⟩ => show win8_2.index t (1 : Fin 2) * 128 + 1 * (y 1).val = (y 1).val; omega

theorem emb3 (t : Fin cfg8.N) : ⇑((cfg8.win 3).blk t).view.emb = up (R := 5000) (N := 100000) (M := 1) t.val (rows_le t) := by
  obtain ⟨-, -, -, -, -, -, e30, e31, -⟩ := idx_facts t
  funext y a; apply Fin.ext
  match a with
  | ⟨0, _⟩ => show win8_3.index t (0 : Fin 2) * 5000 + 1 * (y 0).val = t.val * 5000 + (y 0).val; omega
  | ⟨1, _⟩ => show win8_3.index t (1 : Fin 2) * 1 + 1 * (y 1).val = (y 1).val; omega

theorem emb4 (t : Fin cfg8.N) : ⇑((cfg8.win 4).blk t).view.emb = up (R := 5000) (N := 100000) (M := 128) t.val (rows_le t) := by
  obtain ⟨-, -, -, -, -, -, -, -, e40, e41, -⟩ := idx_facts t
  funext y a; apply Fin.ext
  match a with
  | ⟨0, _⟩ => show win8_4.index t (0 : Fin 2) * 5000 + 1 * (y 0).val = t.val * 5000 + (y 0).val; omega
  | ⟨1, _⟩ => show win8_4.index t (1 : Fin 2) * 128 + 1 * (y 1).val = (y 1).val; omega

theorem emb5 (t : Fin cfg8.N) : ⇑((cfg8.win 5).blk t).view.emb = up (R := 5000) (N := 100000) (M := 128) t.val (rows_le t) := by
  obtain ⟨-, -, -, -, -, -, -, -, -, -, e50, e51⟩ := idx_facts t
  funext y a; apply Fin.ext
  match a with
  | ⟨0, _⟩ => show win8_5.index t (0 : Fin 2) * 5000 + 1 * (y 0).val = t.val * 5000 + (y 0).val; omega
  | ⟨1, _⟩ => show win8_5.index t (1 : Fin 2) * 128 + 1 * (y 1).val = (y 1).val; omega

/-! ## What each point writes back -/

/-- Point `t` writes block `t` of the product of the whole matrices. -/
theorem flushed4_eq (c : Dev nD) (t : Fin cfg8.N) :
    (dat8 V c).flushed 4 t = ((cfg8.win 4).blk t).view.read (Elt Ideal) (prod (V c main_v92) (V c main_arg11)) := by
  show (cfg8.win 4).cut (grid8.coords t) ((dat8 V c).after 4 t) = _
  rw [after8_4]
  unfold out8_4
  rw [View.canon_unit_zero hz]
  simp only [View.ld_unit_zero (S := S5000x128) hz, View.ld_unit_zero (S := S128x128) hz, View.ld_unit_zero (S := S1x128) hz, View.ld_unit_zero (S := S5000x1) hz]
  rw [pay1_eq]
  funext j
  show prod (fun y => V c main_v92 (((cfg8.win 0).blk t).view.emb y)) (fun y => V c main_arg11 (((cfg8.win 1).blk t).view.emb y)) j
    = prod (V c main_v92) (V c main_arg11) (((cfg8.win 4).blk t).view.emb j)
  rw [emb0, emb1, emb4]
  exact congrFun (prod_up t.val (rows_le t) (V c main_v92) (V c main_arg11)) j

/-- Point `t` writes block `t` of the own term over the whole arrays. -/
theorem flushed5_eq (c : Dev nD) (t : Fin cfg8.N) :
    (dat8 V c).flushed 5 t = ((cfg8.win 5).blk t).view.read (Elt Ideal) (own (prod (V c main_v92) (V c main_arg11)) (V c main_v27) (V c main_v93)) := by
  show (cfg8.win 5).cut (grid8.coords t) ((dat8 V c).after 5 t) = _
  rw [after8_5]
  unfold out8_5
  rw [View.canon_unit_zero hz]
  simp only [View.ld_unit_zero (S := S5000x128) hz, View.ld_unit_zero (S := S128x128) hz, View.ld_unit_zero (S := S1x128) hz, View.ld_unit_zero (S := S5000x1) hz]
  rw [pay2_eq]
  funext j
  show own (prod (fun y => V c main_v92 (((cfg8.win 0).blk t).view.emb y)) (fun y => V c main_arg11 (((cfg8.win 1).blk t).view.emb y)))
      (fun y => V c main_v27 (((cfg8.win 3).blk t).view.emb y)) (fun y => V c main_v93 (((cfg8.win 2).blk t).view.emb y)) j
    = own (prod (V c main_v92) (V c main_arg11)) (V c main_v27) (V c main_v93) (((cfg8.win 5).blk t).view.emb j)
  rw [emb0, emb1, emb2, emb3, emb5]
  show own (prod (fun y => V c main_v92 (up (R := 5000) (N := 100000) (M := 128) t.val (rows_le t) y)) (V c main_arg11))
      (fun y => V c main_v27 (up (R := 5000) (N := 100000) (M := 1) t.val (rows_le t) y)) (V c main_v93) j = _
  rw [prod_up t.val (rows_le t) (V c main_v92) (V c main_arg11)]
  exact congrFun (own_up t.val (rows_le t) (prod (V c main_v92) (V c main_arg11)) (V c main_v27) (V c main_v93)) j

/-! ## The blocks tile the arrays -/

theorem mem_blk4 (t : Fin cfg8.N) (i : S100000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v94_0).slice (win8_4.rect t)).set ↔ _
  rw [View.set_slice_whole, Rect.mem_set_unit]
  exact Iff.rfl

/-- Row r lies in the block of point r / 5000. -/
theorem cover4 (i : S100000x128.Idx) : ∃ t : Fin cfg8.N, (cfg8.win 4).flush t = true ∧ i ∈ ((cfg8.win 4).blk t).view.set := by
  have hi0 : (i 0).val < 100000 := (i 0).isLt
  have hi1 : (i 1).val < 128 := (i 1).isLt
  obtain ⟨t, htv⟩ : ∃ t : Fin cfg8.N, t.val = (i 0).val / 5000 := ⟨⟨(i 0).val / 5000, by rw [N_eq]; omega⟩, rfl⟩
  obtain ⟨-, -, -, -, -, -, -, -, e40, e41, -⟩ := idx_facts t
  refine ⟨t, flush8_4 t, ?_⟩
  rw [mem_blk4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 128 ≤ (i 1).val ∧ (i 1).val < win8_4.index t (1 : Fin 2) * 128 + 128; omega

theorem mem_blk5 (t : Fin cfg8.N) (i : S100000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v94_1).slice (win8_5.rect t)).set ↔ _
  rw [View.set_slice_whole, Rect.mem_set_unit]
  exact Iff.rfl

/-- Row r lies in the block of point r / 5000. -/
theorem cover5 (i : S100000x128.Idx) : ∃ t : Fin cfg8.N, (cfg8.win 5).flush t = true ∧ i ∈ ((cfg8.win 5).blk t).view.set := by
  have hi0 : (i 0).val < 100000 := (i 0).isLt
  have hi1 : (i 1).val < 128 := (i 1).isLt
  obtain ⟨t, htv⟩ : ∃ t : Fin cfg8.N, t.val = (i 0).val / 5000 := ⟨⟨(i 0).val / 5000, by rw [N_eq]; omega⟩, rfl⟩
  obtain ⟨-, -, -, -, -, -, -, -, -, -, e50, e51⟩ := idx_facts t
  refine ⟨t, flush8_5 t, ?_⟩
  rw [mem_blk5]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

/-! ## The arrays after the region -/

/-- The first output array after the region: the product of the whole feature matrix with the weights. -/
theorem final4 (c : Dev nD) : (dat8 V c).arrAt 4 cfg8.N = prod (V c main_v92) (V c main_arg11) :=
  (dat8 V c).arrAt_eq_of_cover 4 (prod (V c main_v92) (V c main_arg11)) (fun t _ => flushed4_eq V c t) cover4

/-- The second output array after the region: the own term over the whole arrays. -/
theorem final5 (c : Dev nD) : (dat8 V c).arrAt 5 cfg8.N = own (prod (V c main_v92) (V c main_arg11)) (V c main_v27) (V c main_v93) :=
  (dat8 V c).arrAt_eq_of_cover 5 (own (prod (V c main_v92) (V c main_arg11)) (V c main_v27) (V c main_v93)) (fun t _ => flushed5_eq V c t) cover5

end Cert.KernelIdeal.Dense8

end
-- ==== Proof.Combine9.lean ====
/-
  The combining region number 9 of the kernel program, as a whole-array function.  The region walks the 100000 node
  rows in 20 blocks of 5000; at block n its body adds rows [5000·n, 5000·n + 5000) of the aggregate and of the own
  term and takes the maximum with zero.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine9

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg9.N = 20 := N_9

theorem rows_le (t : Fin cfg9.N) : t.val * 5000 + 5000 ≤ 100000 := by
  have h : t.val < 20 := lt_of_lt_of_eq t.isLt N_eq
  omega

/-- The body's stored value. -/
theorem pay1_eq (x0 x1 : Vec Ideal S5000x128 .f32) : k9_pay1 x0 x1 = joinRelu x0 x1 := by
  unfold k9_pay1
  dsimp only
  exact kernel_joinRelu x0 x1 _

/-- The printed index maps over the 20 grid points: every window is at block row `t`. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

theorem emb0 (t : Fin cfg9.N) : ⇑((cfg9.win 0).blk t).view.emb = up (R := 5000) (N := 100000) (M := 128) t.val (rows_le t) := by
  obtain ⟨e00, e01, -⟩ := idx_facts t
  funext y a; apply Fin.ext
  match a with
  | ⟨0, _⟩ => show win9_0.index t (0 : Fin 2) * 5000 + 1 * (y 0).val = t.val * 5000 + (y 0).val; omega
  | ⟨1, _⟩ => show win9_0.index t (1 : Fin 2) * 128 + 1 * (y 1).val = (y 1).val; omega

theorem emb1 (t : Fin cfg9.N) : ⇑((cfg9.win 1).blk t).view.emb = up (R := 5000) (N := 100000) (M := 128) t.val (rows_le t) := by
  obtain ⟨-, -, e10, e11, -⟩ := idx_facts t
  funext y a; apply Fin.ext
  match a with
  | ⟨0, _⟩ => show win9_1.index t (0 : Fin 2) * 5000 + 1 * (y 0).val = t.val * 5000 + (y 0).val; omega
  | ⟨1, _⟩ => show win9_1.index t (1 : Fin 2) * 128 + 1 * (y 1).val = (y 1).val; omega

theorem emb2 (t : Fin cfg9.N) : ⇑((cfg9.win 2).blk t).view.emb = up (R := 5000) (N := 100000) (M := 128) t.val (rows_le t) := by
  obtain ⟨-, -, -, -, e20, e21⟩ := idx_facts t
  funext y a; apply Fin.ext
  match a with
  | ⟨0, _⟩ => show win9_2.index t (0 : Fin 2) * 5000 + 1 * (y 0).val = t.val * 5000 + (y 0).val; omega
  | ⟨1, _⟩ => show win9_2.index t (1 : Fin 2) * 128 + 1 * (y 1).val = (y 1).val; omega

/-- Point `t` writes block `t` of the combined whole arrays. -/
theorem flushed2_eq (c : Dev nD) (t : Fin cfg9.N) :
    (dat9 V c).flushed 2 t = ((cfg9.win 2).blk t).view.read (Elt Ideal) (joinRelu (V c main_v107) (V c main_v94_1)) := by
  show (cfg9.win 2).cut (grid9.coords t) ((dat9 V c).after 2 t) = _
  rw [after9_2]
  unfold out9_2
  rw [View.canon_unit_zero hz]
  simp only [View.ld_unit_zero (S := S5000x128) hz]
  rw [pay1_eq]
  funext j
  show joinRelu (fun y => V c main_v107 (((cfg9.win 0).blk t).view.emb y)) (fun y => V c main_v94_1 (((cfg9.win 1).blk t).view.emb y)) j
    = joinRelu (V c main_v107) (V c main_v94_1) (((cfg9.win 2).blk t).view.emb j)
  rw [emb0, emb1, emb2]
  exact congrFun (joinRelu_up t.val (rows_le t) (V c main_v107) (V c main_v94_1)) j

theorem mem_blk2 (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v108).slice (win9_2.rect t)).set ↔ _
  rw [View.set_slice_whole, Rect.mem_set_unit]
  exact Iff.rfl

/-- Row r lies in the block of point r / 5000. -/
theorem cover2 (i : S100000x128.Idx) : ∃ t : Fin cfg9.N, (cfg9.win 2).flush t = true ∧ i ∈ ((cfg9.win 2).blk t).view.set := by
  have hi0 : (i 0).val < 100000 := (i 0).isLt
  have hi1 : (i 1).val < 128 := (i 1).isLt
  obtain ⟨t, htv⟩ : ∃ t : Fin cfg9.N, t.val = (i 0).val / 5000 := ⟨⟨(i 0).val / 5000, by rw [N_eq]; omega⟩, rfl⟩
  obtain ⟨-, -, -, -, e20, e21⟩ := idx_facts t
  refine ⟨t, flush9_2 t, ?_⟩
  rw [mem_blk2]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- The output array after the region. -/
theorem final2 (c : Dev nD) : (dat9 V c).arrAt 2 cfg9.N = joinRelu (V c main_v107) (V c main_v94_1) :=
  (dat9 V c).arrAt_eq_of_cover 2 (joinRelu (V c main_v107) (V c main_v94_1)) (fun t _ => flushed2_eq V c t) cover2

end Cert.KernelIdeal.Combine9

end
-- ==== Proof.Dense6.lean ====
/-
  The dense region number 6 of the kernel program, as whole-array functions.  The region walks the 100000 node rows in
  20 blocks of 5000.  At block n its body multiplies rows [5000·n, 5000·n + 5000) of the feature matrix (128 columns)
  by the whole 128 × 128 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense6

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg6.N = 20 := N_6

theorem rows_le (t : Fin cfg6.N) : t.val * 5000 + 5000 ≤ 100000 := by
  have h : t.val < 20 := lt_of_lt_of_eq t.isLt N_eq
  omega

/-! ## The product record is a plain [5000,128] × [128,128] product -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's two stored values -/

/-- The first store: the product of the feature block with the weights. -/
theorem pay1_eq (x0 : Vec Ideal S5000x128 .f32) (x1 : Vec Ideal S128x128 .f32) : k6_pay1 x0 x1 = prod x0 x1 := by
  unfold k6_pay1
  dsimp only
  rw [shapeCast_self]
  exact matmul_zero_eq_prod dot_S5000x128_S128x128_S5000x128_1_0_0_1_n_n rfl rfl lhs0 lhs1 rhs0 rhs1 none _ _

/-- The second store: the own term of the block. -/
theorem pay2_eq (x0 : Vec Ideal S5000x128 .f32) (x1 : Vec Ideal S128x128 .f32) (x3 : Vec Ideal S5000x1 .f32) (x2 : Vec Ideal S1x128 .f32) :
    k6_pay2 x0 x1 x3 x2 = own (prod x0 x1) x3 x2 := by
  unfold k6_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

theorem emb0 (t : Fin cfg6.N) : ⇑((cfg6.win 0).blk t).view.emb = up (R := 5000) (N := 100000) (M := 128) t.val (rows_le t) := by
  obtain ⟨e00, e01, -⟩ := idx_facts t
  funext y a; apply Fin.ext
  match a with
  | ⟨0, _⟩ => show win6_0.index t (0 : Fin 2) * 5000 + 1 * (y 0).val = t.val * 5000 + (y 0).val; omega
  | ⟨1, _⟩ => show win6_0.index t (1 : Fin 2) * 128 + 1 * (y 1).val = (y 1).val; omega

theorem emb1 (t : Fin cfg6.N) : ⇑((cfg6.win 1).blk t).view.emb = fun y => y := by
  obtain ⟨-, -, e10, e11, -⟩ := idx_facts t
  funext y a; apply Fin.ext
  match a with
  | ⟨0, _⟩ => show win6_1.index t (0 : Fin 2) * 128 + 1 * (y 0).val = (y 0).val; omega
  | ⟨1, _⟩ => show win6_1.index t (1 : Fin 2) * 128 + 1 * (y 1).val = (y 1).val; omega

theorem emb2 (t : Fin cfg6.N) : ⇑((cfg6.win 2).blk t).view.emb = fun y => y := by
  obtain ⟨-, -, -, -, e20, e21, -⟩ := idx_facts t
  funext y a; apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

theorem emb3 (t : Fin cfg6.N) : ⇑((cfg6.win 3).blk t).view.emb = up (R := 5000) (N := 100000) (M := 1) t.val (rows_le t) := by
  obtain ⟨-, -, -, -, -, -, e30, e31, -⟩ := idx_facts t
  funext y a; apply Fin.ext
  match a with
  | ⟨0, _⟩ => show win6_3.index t (0 : Fin 2) * 5000 + 1 * (y 0).val = t.val * 5000 + (y 0).val; omega
  | ⟨1, _⟩ => show win6_3.index t (1 : Fin 2) * 1 + 1 * (y 1).val = (y 1).val; omega

theorem emb4 (t : Fin cfg6.N) : ⇑((cfg6.win 4).blk t).view.emb = up (R := 5000) (N := 100000) (M := 128) t.val (rows_le t) := by
  obtain ⟨-, -, -, -, -, -, -, -, e40, e41, -⟩ := idx_facts t
  funext y a; apply Fin.ext
  match a with
  | ⟨0, _⟩ => show win6_4.index t (0 : Fin 2) * 5000 + 1 * (y 0).val = t.val * 5000 + (y 0).val; omega
  | ⟨1, _⟩ => show win6_4.index t (1 : Fin 2) * 128 + 1 * (y 1).val = (y 1).val; omega

theorem emb5 (t : Fin cfg6.N) : ⇑((cfg6.win 5).blk t).view.emb = up (R := 5000) (N := 100000) (M := 128) t.val (rows_le t) := by
  obtain ⟨-, -, -, -, -, -, -, -, -, -, e50, e51⟩ := idx_facts t
  funext y a; apply Fin.ext
  match a with
  | ⟨0, _⟩ => show win6_5.index t (0 : Fin 2) * 5000 + 1 * (y 0).val = t.val * 5000 + (y 0).val; omega
  | ⟨1, _⟩ => show win6_5.index t (1 : Fin 2) * 128 + 1 * (y 1).val = (y 1).val; omega

/-! ## What each point writes back -/

/-- Point `t` writes block `t` of the product of the whole matrices. -/
theorem flushed4_eq (c : Dev nD) (t : Fin cfg6.N) :
    (dat6 V c).flushed 4 t = ((cfg6.win 4).blk t).view.read (Elt Ideal) (prod (V c main_v76) (V c main_arg9)) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x128) hz, View.ld_unit_zero (S := S1x128) hz, View.ld_unit_zero (S := S5000x1) hz]
  rw [pay1_eq]
  funext j
  show prod (fun y => V c main_v76 (((cfg6.win 0).blk t).view.emb y)) (fun y => V c main_arg9 (((cfg6.win 1).blk t).view.emb y)) j
    = prod (V c main_v76) (V c main_arg9) (((cfg6.win 4).blk t).view.emb j)
  rw [emb0, emb1, emb4]
  exact congrFun (prod_up t.val (rows_le t) (V c main_v76) (V c main_arg9)) j

/-- Point `t` writes block `t` of the own term over the whole arrays. -/
theorem flushed5_eq (c : Dev nD) (t : Fin cfg6.N) :
    (dat6 V c).flushed 5 t = ((cfg6.win 5).blk t).view.read (Elt Ideal) (own (prod (V c main_v76) (V c main_arg9)) (V c main_v27) (V c main_v77)) := by
  show (cfg6.win 5).cut (grid6.coords t) ((dat6 V c).after 5 t) = _
  rw [after6_5]
  unfold out6_5
  rw [View.canon_unit_zero hz]
  simp only [View.ld_unit_zero (S := S5000x128) hz, View.ld_unit_zero (S := S128x128) hz, View.ld_unit_zero (S := S1x128) hz, View.ld_unit_zero (S := S5000x1) hz]
  rw [pay2_eq]
  funext j
  show own (prod (fun y => V c main_v76 (((cfg6.win 0).blk t).view.emb y)) (fun y => V c main_arg9 (((cfg6.win 1).blk t).view.emb y)))
      (fun y => V c main_v27 (((cfg6.win 3).blk t).view.emb y)) (fun y => V c main_v77 (((cfg6.win 2).blk t).view.emb y)) j
    = own (prod (V c main_v76) (V c main_arg9)) (V c main_v27) (V c main_v77) (((cfg6.win 5).blk t).view.emb j)
  rw [emb0, emb1, emb2, emb3, emb5]
  show own (prod (fun y => V c main_v76 (up (R := 5000) (N := 100000) (M := 128) t.val (rows_le t) y)) (V c main_arg9))
      (fun y => V c main_v27 (up (R := 5000) (N := 100000) (M := 1) t.val (rows_le t) y)) (V c main_v77) j = _
  rw [prod_up t.val (rows_le t) (V c main_v76) (V c main_arg9)]
  exact congrFun (own_up t.val (rows_le t) (prod (V c main_v76) (V c main_arg9)) (V c main_v27) (V c main_v77)) j

/-! ## The blocks tile the arrays -/

theorem mem_blk4 (t : Fin cfg6.N) (i : S100000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v78_0).slice (win6_4.rect t)).set ↔ _
  rw [View.set_slice_whole, Rect.mem_set_unit]
  exact Iff.rfl

/-- Row r lies in the block of point r / 5000. -/
theorem cover4 (i : S100000x128.Idx) : ∃ t : Fin cfg6.N, (cfg6.win 4).flush t = true ∧ i ∈ ((cfg6.win 4).blk t).view.set := by
  have hi0 : (i 0).val < 100000 := (i 0).isLt
  have hi1 : (i 1).val < 128 := (i 1).isLt
  obtain ⟨t, htv⟩ : ∃ t : Fin cfg6.N, t.val = (i 0).val / 5000 := ⟨⟨(i 0).val / 5000, by rw [N_eq]; omega⟩, rfl⟩
  obtain ⟨-, -, -, -, -, -, -, -, e40, e41, -⟩ := idx_facts t
  refine ⟨t, flush6_4 t, ?_⟩
  rw [mem_blk4]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

theorem mem_blk5 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v78_1).slice (win6_5.rect t)).set ↔ _
  rw [View.set_slice_whole, Rect.mem_set_unit]
  exact Iff.rfl

/-- Row r lies in the block of point r / 5000. -/
theorem cover5 (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  obtain ⟨t, htv⟩ : ∃ t : Fin cfg6.N, t.val = (i 0).val / 5000 := ⟨⟨(i 0).val / 5000, by rw [N_eq]; omega⟩, rfl⟩
  obtain ⟨-, -, -, -, -, -, -, -, -, -, e50, e51⟩ := idx_facts t
  refine ⟨t, flush6_5 t, ?_⟩
  rw [mem_blk5]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-! ## The arrays after the region -/

/-- The first output array after the region: the product of the whole feature matrix with the weights. -/
theorem final4 (c : Dev nD) : (dat6 V c).arrAt 4 cfg6.N = prod (V c main_v76) (V c main_arg9) :=
  (dat6 V c).arrAt_eq_of_cover 4 (prod (V c main_v76) (V c main_arg9)) (fun t _ => flushed4_eq V c t) cover4

/-- The second output array after the region: the own term over the whole arrays. -/
theorem final5 (c : Dev nD) : (dat6 V c).arrAt 5 cfg6.N = own (prod (V c main_v76) (V c main_arg9)) (V c main_v27) (V c main_v77) :=
  (dat6 V c).arrAt_eq_of_cover 5 (own (prod (V c main_v76) (V c main_arg9)) (V c main_v27) (V c main_v77)) (fun t _ => flushed5_eq V c t) cover5

end Cert.KernelIdeal.Dense6

end
-- ==== Proof.Combine7.lean ====
/-
  The combining region number 7 of the kernel program, as a whole-array function.  The region walks the 100000 node
  rows in 20 blocks of 5000; at block n its body adds rows [5000·n, 5000·n + 5000) of the aggregate and of the own
  term and takes the maximum with zero.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine7

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg7.N = 20 := N_7

theorem rows_le (t : Fin cfg7.N) : t.val * 5000 + 5000 ≤ 100000 := by
  have h : t.val < 20 := lt_of_lt_of_eq t.isLt N_eq
  omega

/-- The body's stored value. -/
theorem pay1_eq (x0 x1 : Vec Ideal S5000x128 .f32) : k7_pay1 x0 x1 = joinRelu x0 x1 := by
  unfold k7_pay1
  dsimp only
  exact kernel_joinRelu x0 x1 _

/-- The printed index maps over the 20 grid points: every window is at block row `t`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem emb0 (t : Fin cfg7.N) : ⇑((cfg7.win 0).blk t).view.emb = up (R := 5000) (N := 100000) (M := 128) t.val (rows_le t) := by
  obtain ⟨e00, e01, -⟩ := idx_facts t
  funext y a; apply Fin.ext
  match a with
  | ⟨0, _⟩ => show win7_0.index t (0 : Fin 2) * 5000 + 1 * (y 0).val = t.val * 5000 + (y 0).val; omega
  | ⟨1, _⟩ => show win7_0.index t (1 : Fin 2) * 128 + 1 * (y 1).val = (y 1).val; omega

theorem emb1 (t : Fin cfg7.N) : ⇑((cfg7.win 1).blk t).view.emb = up (R := 5000) (N := 100000) (M := 128) t.val (rows_le t) := by
  obtain ⟨-, -, e10, e11, -⟩ := idx_facts t
  funext y a; apply Fin.ext
  match a with
  | ⟨0, _⟩ => show win7_1.index t (0 : Fin 2) * 5000 + 1 * (y 0).val = t.val * 5000 + (y 0).val; omega
  | ⟨1, _⟩ => show win7_1.index t (1 : Fin 2) * 128 + 1 * (y 1).val = (y 1).val; omega

theorem emb2 (t : Fin cfg7.N) : ⇑((cfg7.win 2).blk t).view.emb = up (R := 5000) (N := 100000) (M := 128) t.val (rows_le t) := by
  obtain ⟨-, -, -, -, e20, e21⟩ := idx_facts t
  funext y a; apply Fin.ext
  match a with
  | ⟨0, _⟩ => show win7_2.index t (0 : Fin 2) * 5000 + 1 * (y 0).val = t.val * 5000 + (y 0).val; omega
  | ⟨1, _⟩ => show win7_2.index t (1 : Fin 2) * 128 + 1 * (y 1).val = (y 1).val; omega

/-- Point `t` writes block `t` of the combined whole arrays. -/
theorem flushed2_eq (c : Dev nD) (t : Fin cfg7.N) :
    (dat7 V c).flushed 2 t = ((cfg7.win 2).blk t).view.read (Elt Ideal) (joinRelu (V c main_v91) (V c main_v78_1)) := by
  show (cfg7.win 2).cut (grid7.coords t) ((dat7 V c).after 2 t) = _
  rw [after7_2]
  unfold out7_2
  rw [View.canon_unit_zero hz]
  simp only [View.ld_unit_zero (S := S5000x128) hz]
  rw [pay1_eq]
  funext j
  show joinRelu (fun y => V c main_v91 (((cfg7.win 0).blk t).view.emb y)) (fun y => V c main_v78_1 (((cfg7.win 1).blk t).view.emb y)) j
    = joinRelu (V c main_v91) (V c main_v78_1) (((cfg7.win 2).blk t).view.emb j)
  rw [emb0, emb1, emb2]
  exact congrFun (joinRelu_up t.val (rows_le t) (V c main_v91) (V c main_v78_1)) j

theorem mem_blk2 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v92).slice (win7_2.rect t)).set ↔ _
  rw [View.set_slice_whole, Rect.mem_set_unit]
  exact Iff.rfl

/-- Row r lies in the block of point r / 5000. -/
theorem cover2 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, htv⟩ : ∃ t : Fin cfg7.N, t.val = (i 0).val / 5000 := ⟨⟨(i 0).val / 5000, by rw [N_eq]; omega⟩, rfl⟩
  obtain ⟨-, -, -, -, e20, e21⟩ := idx_facts t
  refine ⟨t, flush7_2 t, ?_⟩
  rw [mem_blk2]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- The output array after the region. -/
theorem final2 (c : Dev nD) : (dat7 V c).arrAt 2 cfg7.N = joinRelu (V c main_v91) (V c main_v78_1) :=
  (dat7 V c).arrAt_eq_of_cover 2 (joinRelu (V c main_v91) (V c main_v78_1)) (fun t _ => flushed2_eq V c t) cover2

end Cert.KernelIdeal.Combine7

end
-- ==== Proof.Dense4.lean ====
/-
  The dense region number 4 of the kernel program, as whole-array functions.  The region walks the 100000 node rows in
  20 blocks of 5000.  At block n its body multiplies rows [5000·n, 5000·n + 5000) of the feature matrix (128 columns)
  by the whole 128 × 128 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense4

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg4.N = 20 := N_4

theorem rows_le (t : Fin cfg4.N) : t.val * 5000 + 5000 ≤ 100000 := by
  have h : t.val < 20 := lt_of_lt_of_eq t.isLt N_eq
  omega

/-! ## The product record is a plain [5000,128] × [128,128] product -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's two stored values -/

/-- The first store: the product of the feature block with the weights. -/
theorem pay1_eq (x0 : Vec Ideal S5000x128 .f32) (x1 : Vec Ideal S128x128 .f32) : k4_pay1 x0 x1 = prod x0 x1 := by
  unfold k4_pay1
  dsimp only
  rw [shapeCast_self]
  exact matmul_zero_eq_prod dot_S5000x128_S128x128_S5000x128_1_0_0_1_n_n rfl rfl lhs0 lhs1 rhs0 rhs1 none _ _

/-- The second store: the own term of the block. -/
theorem pay2_eq (x0 : Vec Ideal S5000x128 .f32) (x1 : Vec Ideal S128x128 .f32) (x3 : Vec Ideal S5000x1 .f32) (x2 : Vec Ideal S1x128 .f32) :
    k4_pay2 x0 x1 x3 x2 = own (prod x0 x1) x3 x2 := by
  unfold k4_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem emb0 (t : Fin cfg4.N) : ⇑((cfg4.win 0).blk t).view.emb = up (R := 5000) (N := 100000) (M := 128) t.val (rows_le t) := by
  obtain ⟨e00, e01, -⟩ := idx_facts t
  funext y a; apply Fin.ext
  match a with
  | ⟨0, _⟩ => show win4_0.index t (0 : Fin 2) * 5000 + 1 * (y 0).val = t.val * 5000 + (y 0).val; omega
  | ⟨1, _⟩ => show win4_0.index t (1 : Fin 2) * 128 + 1 * (y 1).val = (y 1).val; omega

theorem emb1 (t : Fin cfg4.N) : ⇑((cfg4.win 1).blk t).view.emb = fun y => y := by
  obtain ⟨-, -, e10, e11, -⟩ := idx_facts t
  funext y a; apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem emb2 (t : Fin cfg4.N) : ⇑((cfg4.win 2).blk t).view.emb = fun y => y := by
  obtain ⟨-, -, -, -, e20, e21, -⟩ := idx_facts t
  funext y a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem emb3 (t : Fin cfg4.N) : ⇑((cfg4.win 3).blk t).view.emb = up (R := 5000) (N := 100000) (M := 1) t.val (rows_le t) := by
  obtain ⟨-, -, -, -, -, -, e30, e31, -⟩ := idx_facts t
  funext y a; apply Fin.ext
  match a with
  | ⟨0, _⟩ => show win4_3.index t (0 : Fin 2) * 5000 + 1 * (y 0).val = t.val * 5000 + (y 0).val; omega
  | ⟨1, _⟩ => show win4_3.index t (1 : Fin 2) * 1 + 1 * (y 1).val = (y 1).val; omega

theorem emb4 (t : Fin cfg4.N) : ⇑((cfg4.win 4).blk t).view.emb = up (R := 5000) (N := 100000) (M := 128) t.val (rows_le t) := by
  obtain ⟨-, -, -, -, -, -, -, -, e40, e41, -⟩ := idx_facts t
  funext y a; apply Fin.ext
  match a with
  | ⟨0, _⟩ => show win4_4.index t (0 : Fin 2) * 5000 + 1 * (y 0).val = t.val * 5000 + (y 0).val; omega
  | ⟨1, _⟩ => show win4_4.index t (1 : Fin 2) * 128 + 1 * (y 1).val = (y 1).val; omega

theorem emb5 (t : Fin cfg4.N) : ⇑((cfg4.win 5).blk t).view.emb = up (R := 5000) (N := 100000) (M := 128) t.val (rows_le t) := by
  obtain ⟨-, -, -, -, -, -, -, -, -, -, e50, e51⟩ := idx_facts t
  funext y a; apply Fin.ext
  match a with
  | ⟨0, _⟩ => show win4_5.index t (0 : Fin 2) * 5000 + 1 * (y 0).val = t.val * 5000 + (y 0).val; omega
  | ⟨1, _⟩ => show win4_5.index t (1 : Fin 2) * 128 + 1 * (y 1).val = (y 1).val; omega

/-! ## What each point writes back -/

/-- Point `t` writes block `t` of the product of the whole matrices. -/
theorem flushed4_eq (c : Dev nD) (t : Fin cfg4.N) :
    (dat4 V c).flushed 4 t = ((cfg4.win 4).blk t).view.read (Elt Ideal) (prod (V c main_v60) (V c main_arg7)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz, View.ld_unit_zero (S := S5000x1) hz]
  rw [pay1_eq]
  funext j
  show prod (fun y => V c main_v60 (((cfg4.win 0).blk t).view.emb y)) (fun y => V c main_arg7 (((cfg4.win 1).blk t).view.emb y)) j
    = prod (V c main_v60) (V c main_arg7) (((cfg4.win 4).blk t).view.emb j)
  rw [emb0, emb1, emb4]
  exact congrFun (prod_up t.val (rows_le t) (V c main_v60) (V c main_arg7)) j

/-- Point `t` writes block `t` of the own term over the whole arrays. -/
theorem flushed5_eq (c : Dev nD) (t : Fin cfg4.N) :
    (dat4 V c).flushed 5 t = ((cfg4.win 5).blk t).view.read (Elt Ideal) (own (prod (V c main_v60) (V c main_arg7)) (V c main_v27) (V c main_v61)) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz, View.ld_unit_zero (S := S5000x1) hz]
  rw [pay2_eq]
  funext j
  show own (prod (fun y => V c main_v60 (((cfg4.win 0).blk t).view.emb y)) (fun y => V c main_arg7 (((cfg4.win 1).blk t).view.emb y)))
      (fun y => V c main_v27 (((cfg4.win 3).blk t).view.emb y)) (fun y => V c main_v61 (((cfg4.win 2).blk t).view.emb y)) j
    = own (prod (V c main_v60) (V c main_arg7)) (V c main_v27) (V c main_v61) (((cfg4.win 5).blk t).view.emb j)
  rw [emb0, emb1, emb2, emb3, emb5]
  show own (prod (fun y => V c main_v60 (up (R := 5000) (N := 100000) (M := 128) t.val (rows_le t) y)) (V c main_arg7))
      (fun y => V c main_v27 (up (R := 5000) (N := 100000) (M := 1) t.val (rows_le t) y)) (V c main_v61) j = _
  rw [prod_up t.val (rows_le t) (V c main_v60) (V c main_arg7)]
  exact congrFun (own_up t.val (rows_le t) (prod (V c main_v60) (V c main_arg7)) (V c main_v27) (V c main_v61)) j

/-! ## The blocks tile the arrays -/

theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v62_0).slice (win4_4.rect t)).set ↔ _
  rw [View.set_slice_whole, Rect.mem_set_unit]
  exact Iff.rfl

/-- Row r lies in the block of point r / 5000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, htv⟩ : ∃ t : Fin cfg4.N, t.val = (i 0).val / 5000 := ⟨⟨(i 0).val / 5000, by rw [N_eq]; omega⟩, rfl⟩
  obtain ⟨-, -, -, -, -, -, -, -, e40, e41, -⟩ := idx_facts t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

theorem mem_blk5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v62_1).slice (win4_5.rect t)).set ↔ _
  rw [View.set_slice_whole, Rect.mem_set_unit]
  exact Iff.rfl

/-- Row r lies in the block of point r / 5000. -/
theorem cover5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, htv⟩ : ∃ t : Fin cfg4.N, t.val = (i 0).val / 5000 := ⟨⟨(i 0).val / 5000, by rw [N_eq]; omega⟩, rfl⟩
  obtain ⟨-, -, -, -, -, -, -, -, -, -, e50, e51⟩ := idx_facts t
  refine ⟨t, flush4_5 t, ?_⟩
  rw [mem_blk5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-! ## The arrays after the region -/

/-- The first output array after the region: the product of the whole feature matrix with the weights. -/
theorem final4 (c : Dev nD) : (dat4 V c).arrAt 4 cfg4.N = prod (V c main_v60) (V c main_arg7) :=
  (dat4 V c).arrAt_eq_of_cover 4 (prod (V c main_v60) (V c main_arg7)) (fun t _ => flushed4_eq V c t) cover4

/-- The second output array after the region: the own term over the whole arrays. -/
theorem final5 (c : Dev nD) : (dat4 V c).arrAt 5 cfg4.N = own (prod (V c main_v60) (V c main_arg7)) (V c main_v27) (V c main_v61) :=
  (dat4 V c).arrAt_eq_of_cover 5 (own (prod (V c main_v60) (V c main_arg7)) (V c main_v27) (V c main_v61)) (fun t _ => flushed5_eq V c t) cover5

end Cert.KernelIdeal.Dense4

end
-- ==== Proof.Combine5.lean ====
/-
  The combining region number 5 of the kernel program, as a whole-array function.  The region walks the 100000 node
  rows in 20 blocks of 5000; at block n its body adds rows [5000·n, 5000·n + 5000) of the aggregate and of the own
  term and takes the maximum with zero.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine5

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg5.N = 20 := N_5

theorem rows_le (t : Fin cfg5.N) : t.val * 5000 + 5000 ≤ 100000 := by
  have h : t.val < 20 := lt_of_lt_of_eq t.isLt N_eq
  omega

/-- The body's stored value. -/
theorem pay1_eq (x0 x1 : Vec Ideal S5000x128 .f32) : k5_pay1 x0 x1 = joinRelu x0 x1 := by
  unfold k5_pay1
  dsimp only
  exact kernel_joinRelu x0 x1 _

/-- The printed index maps over the 20 grid points: every window is at block row `t`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

theorem emb0 (t : Fin cfg5.N) : ⇑((cfg5.win 0).blk t).view.emb = up (R := 5000) (N := 100000) (M := 128) t.val (rows_le t) := by
  obtain ⟨e00, e01, -⟩ := idx_facts t
  funext y a; apply Fin.ext
  match a with
  | ⟨0, _⟩ => show win5_0.index t (0 : Fin 2) * 5000 + 1 * (y 0).val = t.val * 5000 + (y 0).val; omega
  | ⟨1, _⟩ => show win5_0.index t (1 : Fin 2) * 128 + 1 * (y 1).val = (y 1).val; omega

theorem emb1 (t : Fin cfg5.N) : ⇑((cfg5.win 1).blk t).view.emb = up (R := 5000) (N := 100000) (M := 128) t.val (rows_le t) := by
  obtain ⟨-, -, e10, e11, -⟩ := idx_facts t
  funext y a; apply Fin.ext
  match a with
  | ⟨0, _⟩ => show win5_1.index t (0 : Fin 2) * 5000 + 1 * (y 0).val = t.val * 5000 + (y 0).val; omega
  | ⟨1, _⟩ => show win5_1.index t (1 : Fin 2) * 128 + 1 * (y 1).val = (y 1).val; omega

theorem emb2 (t : Fin cfg5.N) : ⇑((cfg5.win 2).blk t).view.emb = up (R := 5000) (N := 100000) (M := 128) t.val (rows_le t) := by
  obtain ⟨-, -, -, -, e20, e21⟩ := idx_facts t
  funext y a; apply Fin.ext
  match a with
  | ⟨0, _⟩ => show win5_2.index t (0 : Fin 2) * 5000 + 1 * (y 0).val = t.val * 5000 + (y 0).val; omega
  | ⟨1, _⟩ => show win5_2.index t (1 : Fin 2) * 128 + 1 * (y 1).val = (y 1).val; omega

/-- Point `t` writes block `t` of the combined whole arrays. -/
theorem flushed2_eq (c : Dev nD) (t : Fin cfg5.N) :
    (dat5 V c).flushed 2 t = ((cfg5.win 2).blk t).view.read (Elt Ideal) (joinRelu (V c main_v75) (V c main_v62_1)) := by
  show (cfg5.win 2).cut (grid5.coords t) ((dat5 V c).after 2 t) = _
  rw [after5_2]
  unfold out5_2
  rw [View.canon_unit_zero hz]
  simp only [View.ld_unit_zero (S := S5000x128) hz]
  rw [pay1_eq]
  funext j
  show joinRelu (fun y => V c main_v75 (((cfg5.win 0).blk t).view.emb y)) (fun y => V c main_v62_1 (((cfg5.win 1).blk t).view.emb y)) j
    = joinRelu (V c main_v75) (V c main_v62_1) (((cfg5.win 2).blk t).view.emb j)
  rw [emb0, emb1, emb2]
  exact congrFun (joinRelu_up t.val (rows_le t) (V c main_v75) (V c main_v62_1)) j

theorem mem_blk2 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v76).slice (win5_2.rect t)).set ↔ _
  rw [View.set_slice_whole, Rect.mem_set_unit]
  exact Iff.rfl

/-- Row r lies in the block of point r / 5000. -/
theorem cover2 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, htv⟩ : ∃ t : Fin cfg5.N, t.val = (i 0).val / 5000 := ⟨⟨(i 0).val / 5000, by rw [N_eq]; omega⟩, rfl⟩
  obtain ⟨-, -, -, -, e20, e21⟩ := idx_facts t
  refine ⟨t, flush5_2 t, ?_⟩
  rw [mem_blk2]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region. -/
theorem final2 (c : Dev nD) : (dat5 V c).arrAt 2 cfg5.N = joinRelu (V c main_v75) (V c main_v62_1) :=
  (dat5 V c).arrAt_eq_of_cover 2 (joinRelu (V c main_v75) (V c main_v62_1)) (fun t _ => flushed2_eq V c t) cover2

end Cert.KernelIdeal.Combine5

end
-- ==== Proof.Dense2.lean ====
/-
  The dense region number 2 of the kernel program, as whole-array functions.  The region walks the 100000 node rows in
  20 blocks of 5000.  At block n its body multiplies rows [5000·n, 5000·n + 5000) of the feature matrix (128 columns)
  by the whole 128 × 128 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg2.N = 20 := N_2

theorem rows_le (t : Fin cfg2.N) : t.val * 5000 + 5000 ≤ 100000 := by
  have h : t.val < 20 := lt_of_lt_of_eq t.isLt N_eq
  omega

/-! ## The product record is a plain [5000,128] × [128,128] product -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's two stored values -/

/-- The first store: the product of the feature block with the weights. -/
theorem pay1_eq (x0 : Vec Ideal S5000x128 .f32) (x1 : Vec Ideal S128x128 .f32) : k2_pay1 x0 x1 = prod x0 x1 := by
  unfold k2_pay1
  dsimp only
  rw [shapeCast_self]
  exact matmul_zero_eq_prod dot_S5000x128_S128x128_S5000x128_1_0_0_1_n_n rfl rfl lhs0 lhs1 rhs0 rhs1 none _ _

/-- The second store: the own term of the block. -/
theorem pay2_eq (x0 : Vec Ideal S5000x128 .f32) (x1 : Vec Ideal S128x128 .f32) (x3 : Vec Ideal S5000x1 .f32) (x2 : Vec Ideal S1x128 .f32) :
    k2_pay2 x0 x1 x3 x2 = own (prod x0 x1) x3 x2 := by
  unfold k2_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem emb0 (t : Fin cfg2.N) : ⇑((cfg2.win 0).blk t).view.emb = up (R := 5000) (N := 100000) (M := 128) t.val (rows_le t) := by
  obtain ⟨e00, e01, -⟩ := idx_facts t
  funext y a; apply Fin.ext
  match a with
  | ⟨0, _⟩ => show win2_0.index t (0 : Fin 2) * 5000 + 1 * (y 0).val = t.val * 5000 + (y 0).val; omega
  | ⟨1, _⟩ => show win2_0.index t (1 : Fin 2) * 128 + 1 * (y 1).val = (y 1).val; omega

theorem emb1 (t : Fin cfg2.N) : ⇑((cfg2.win 1).blk t).view.emb = fun y => y := by
  obtain ⟨-, -, e10, e11, -⟩ := idx_facts t
  funext y a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem emb2 (t : Fin cfg2.N) : ⇑((cfg2.win 2).blk t).view.emb = fun y => y := by
  obtain ⟨-, -, -, -, e20, e21, -⟩ := idx_facts t
  funext y a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem emb3 (t : Fin cfg2.N) : ⇑((cfg2.win 3).blk t).view.emb = up (R := 5000) (N := 100000) (M := 1) t.val (rows_le t) := by
  obtain ⟨-, -, -, -, -, -, e30, e31, -⟩ := idx_facts t
  funext y a; apply Fin.ext
  match a with
  | ⟨0, _⟩ => show win2_3.index t (0 : Fin 2) * 5000 + 1 * (y 0).val = t.val * 5000 + (y 0).val; omega
  | ⟨1, _⟩ => show win2_3.index t (1 : Fin 2) * 1 + 1 * (y 1).val = (y 1).val; omega

theorem emb4 (t : Fin cfg2.N) : ⇑((cfg2.win 4).blk t).view.emb = up (R := 5000) (N := 100000) (M := 128) t.val (rows_le t) := by
  obtain ⟨-, -, -, -, -, -, -, -, e40, e41, -⟩ := idx_facts t
  funext y a; apply Fin.ext
  match a with
  | ⟨0, _⟩ => show win2_4.index t (0 : Fin 2) * 5000 + 1 * (y 0).val = t.val * 5000 + (y 0).val; omega
  | ⟨1, _⟩ => show win2_4.index t (1 : Fin 2) * 128 + 1 * (y 1).val = (y 1).val; omega

theorem emb5 (t : Fin cfg2.N) : ⇑((cfg2.win 5).blk t).view.emb = up (R := 5000) (N := 100000) (M := 128) t.val (rows_le t) := by
  obtain ⟨-, -, -, -, -, -, -, -, -, -, e50, e51⟩ := idx_facts t
  funext y a; apply Fin.ext
  match a with
  | ⟨0, _⟩ => show win2_5.index t (0 : Fin 2) * 5000 + 1 * (y 0).val = t.val * 5000 + (y 0).val; omega
  | ⟨1, _⟩ => show win2_5.index t (1 : Fin 2) * 128 + 1 * (y 1).val = (y 1).val; omega

/-! ## What each point writes back -/

/-- Point `t` writes block `t` of the product of the whole matrices. -/
theorem flushed4_eq (c : Dev nD) (t : Fin cfg2.N) :
    (dat2 V c).flushed 4 t = ((cfg2.win 4).blk t).view.read (Elt Ideal) (prod (V c main_v44) (V c main_arg5)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz, View.ld_unit_zero (S := S5000x1) hz]
  rw [pay1_eq]
  funext j
  show prod (fun y => V c main_v44 (((cfg2.win 0).blk t).view.emb y)) (fun y => V c main_arg5 (((cfg2.win 1).blk t).view.emb y)) j
    = prod (V c main_v44) (V c main_arg5) (((cfg2.win 4).blk t).view.emb j)
  rw [emb0, emb1, emb4]
  exact congrFun (prod_up t.val (rows_le t) (V c main_v44) (V c main_arg5)) j

/-- Point `t` writes block `t` of the own term over the whole arrays. -/
theorem flushed5_eq (c : Dev nD) (t : Fin cfg2.N) :
    (dat2 V c).flushed 5 t = ((cfg2.win 5).blk t).view.read (Elt Ideal) (own (prod (V c main_v44) (V c main_arg5)) (V c main_v27) (V c main_v45)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz, View.ld_unit_zero (S := S5000x1) hz]
  rw [pay2_eq]
  funext j
  show own (prod (fun y => V c main_v44 (((cfg2.win 0).blk t).view.emb y)) (fun y => V c main_arg5 (((cfg2.win 1).blk t).view.emb y)))
      (fun y => V c main_v27 (((cfg2.win 3).blk t).view.emb y)) (fun y => V c main_v45 (((cfg2.win 2).blk t).view.emb y)) j
    = own (prod (V c main_v44) (V c main_arg5)) (V c main_v27) (V c main_v45) (((cfg2.win 5).blk t).view.emb j)
  rw [emb0, emb1, emb2, emb3, emb5]
  show own (prod (fun y => V c main_v44 (up (R := 5000) (N := 100000) (M := 128) t.val (rows_le t) y)) (V c main_arg5))
      (fun y => V c main_v27 (up (R := 5000) (N := 100000) (M := 1) t.val (rows_le t) y)) (V c main_v45) j = _
  rw [prod_up t.val (rows_le t) (V c main_v44) (V c main_arg5)]
  exact congrFun (own_up t.val (rows_le t) (prod (V c main_v44) (V c main_arg5)) (V c main_v27) (V c main_v45)) j

/-! ## The blocks tile the arrays -/

theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v46_0).slice (win2_4.rect t)).set ↔ _
  rw [View.set_slice_whole, Rect.mem_set_unit]
  exact Iff.rfl

/-- Row r lies in the block of point r / 5000. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, htv⟩ : ∃ t : Fin cfg2.N, t.val = (i 0).val / 5000 := ⟨⟨(i 0).val / 5000, by rw [N_eq]; omega⟩, rfl⟩
  obtain ⟨-, -, -, -, -, -, -, -, e40, e41, -⟩ := idx_facts t
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v46_1).slice (win2_5.rect t)).set ↔ _
  rw [View.set_slice_whole, Rect.mem_set_unit]
  exact Iff.rfl

/-- Row r lies in the block of point r / 5000. -/
theorem cover5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, htv⟩ : ∃ t : Fin cfg2.N, t.val = (i 0).val / 5000 := ⟨⟨(i 0).val / 5000, by rw [N_eq]; omega⟩, rfl⟩
  obtain ⟨-, -, -, -, -, -, -, -, -, -, e50, e51⟩ := idx_facts t
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-! ## The arrays after the region -/

/-- The first output array after the region: the product of the whole feature matrix with the weights. -/
theorem final4 (c : Dev nD) : (dat2 V c).arrAt 4 cfg2.N = prod (V c main_v44) (V c main_arg5) :=
  (dat2 V c).arrAt_eq_of_cover 4 (prod (V c main_v44) (V c main_arg5)) (fun t _ => flushed4_eq V c t) cover4

/-- The second output array after the region: the own term over the whole arrays. -/
theorem final5 (c : Dev nD) : (dat2 V c).arrAt 5 cfg2.N = own (prod (V c main_v44) (V c main_arg5)) (V c main_v27) (V c main_v45) :=
  (dat2 V c).arrAt_eq_of_cover 5 (own (prod (V c main_v44) (V c main_arg5)) (V c main_v27) (V c main_v45)) (fun t _ => flushed5_eq V c t) cover5

end Cert.KernelIdeal.Dense2

end
-- ==== Proof.Combine3.lean ====
/-
  The combining region number 3 of the kernel program, as a whole-array function.  The region walks the 100000 node
  rows in 20 blocks of 5000; at block n its body adds rows [5000·n, 5000·n + 5000) of the aggregate and of the own
  term and takes the maximum with zero.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine3

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg3.N = 20 := N_3

theorem rows_le (t : Fin cfg3.N) : t.val * 5000 + 5000 ≤ 100000 := by
  have h : t.val < 20 := lt_of_lt_of_eq t.isLt N_eq
  omega

/-- The body's stored value. -/
theorem pay1_eq (x0 x1 : Vec Ideal S5000x128 .f32) : k3_pay1 x0 x1 = joinRelu x0 x1 := by
  unfold k3_pay1
  dsimp only
  exact kernel_joinRelu x0 x1 _

/-- The printed index maps over the 20 grid points: every window is at block row `t`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem emb0 (t : Fin cfg3.N) : ⇑((cfg3.win 0).blk t).view.emb = up (R := 5000) (N := 100000) (M := 128) t.val (rows_le t) := by
  obtain ⟨e00, e01, -⟩ := idx_facts t
  funext y a; apply Fin.ext
  match a with
  | ⟨0, _⟩ => show win3_0.index t (0 : Fin 2) * 5000 + 1 * (y 0).val = t.val * 5000 + (y 0).val; omega
  | ⟨1, _⟩ => show win3_0.index t (1 : Fin 2) * 128 + 1 * (y 1).val = (y 1).val; omega

theorem emb1 (t : Fin cfg3.N) : ⇑((cfg3.win 1).blk t).view.emb = up (R := 5000) (N := 100000) (M := 128) t.val (rows_le t) := by
  obtain ⟨-, -, e10, e11, -⟩ := idx_facts t
  funext y a; apply Fin.ext
  match a with
  | ⟨0, _⟩ => show win3_1.index t (0 : Fin 2) * 5000 + 1 * (y 0).val = t.val * 5000 + (y 0).val; omega
  | ⟨1, _⟩ => show win3_1.index t (1 : Fin 2) * 128 + 1 * (y 1).val = (y 1).val; omega

theorem emb2 (t : Fin cfg3.N) : ⇑((cfg3.win 2).blk t).view.emb = up (R := 5000) (N := 100000) (M := 128) t.val (rows_le t) := by
  obtain ⟨-, -, -, -, e20, e21⟩ := idx_facts t
  funext y a; apply Fin.ext
  match a with
  | ⟨0, _⟩ => show win3_2.index t (0 : Fin 2) * 5000 + 1 * (y 0).val = t.val * 5000 + (y 0).val; omega
  | ⟨1, _⟩ => show win3_2.index t (1 : Fin 2) * 128 + 1 * (y 1).val = (y 1).val; omega

/-- Point `t` writes block `t` of the combined whole arrays. -/
theorem flushed2_eq (c : Dev nD) (t : Fin cfg3.N) :
    (dat3 V c).flushed 2 t = ((cfg3.win 2).blk t).view.read (Elt Ideal) (joinRelu (V c main_v59) (V c main_v46_1)) := by
  show (cfg3.win 2).cut (grid3.coords t) ((dat3 V c).after 2 t) = _
  rw [after3_2]
  unfold out3_2
  rw [View.canon_unit_zero hz]
  simp only [View.ld_unit_zero (S := S5000x128) hz]
  rw [pay1_eq]
  funext j
  show joinRelu (fun y => V c main_v59 (((cfg3.win 0).blk t).view.emb y)) (fun y => V c main_v46_1 (((cfg3.win 1).blk t).view.emb y)) j
    = joinRelu (V c main_v59) (V c main_v46_1) (((cfg3.win 2).blk t).view.emb j)
  rw [emb0, emb1, emb2]
  exact congrFun (joinRelu_up t.val (rows_le t) (V c main_v59) (V c main_v46_1)) j

theorem mem_blk2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Row r lies in the block of point r / 5000. -/
theorem cover2 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, htv⟩ : ∃ t : Fin cfg3.N, t.val = (i 0).val / 5000 := ⟨⟨(i 0).val / 5000, by rw [N_eq]; omega⟩, rfl⟩
  obtain ⟨-, -, -, -, e20, e21⟩ := idx_facts t
  refine ⟨t, flush3_2 t, ?_⟩
  rw [mem_blk2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region. -/
theorem final2 (c : Dev nD) : (dat3 V c).arrAt 2 cfg3.N = joinRelu (V c main_v59) (V c main_v46_1) :=
  (dat3 V c).arrAt_eq_of_cover 2 (joinRelu (V c main_v59) (V c main_v46_1)) (fun t _ => flushed2_eq V c t) cover2

end Cert.KernelIdeal.Combine3

end
-- ==== Proof.Dense0.lean ====
/-
  The dense region number 0 of the kernel program, as whole-array functions.  The region walks the 100000 node rows in
  20 blocks of 5000.  At block n its body multiplies rows [5000·n, 5000·n + 5000) of the feature matrix (6 columns)
  by the whole 6 × 128 weight matrix — a matrix-unit product into a zero accumulator, the change of float format the
  identity on the extended reals — and writes the product block; it also writes the node's own term
  product · (factor column) + (bias row) for the same rows.  A block of rows of a product is the product of the block of
  rows, and likewise for the own term, and the 20 blocks tile the arrays; so after the region the first output array
  is the matrix product of the whole feature matrix with the weights, and the second is the own term over the whole
  arrays, whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg0.N = 20 := N_0

theorem rows_le (t : Fin cfg0.N) : t.val * 5000 + 5000 ≤ 100000 := by
  have h : t.val < 20 := lt_of_lt_of_eq t.isLt N_eq
  omega

/-! ## The product record is a plain [5000,6] × [6,128] product -/

theorem lhs0 (i : S5000x128.Idx) (q : dot_S5000x6_S6x128_S5000x128_1_0_0_1_n_n.contr.Idx) : (dot_S5000x6_S6x128_S5000x128_1_0_0_1_n_n.lhsIdx i q 0).val = (i 0).val := by
  unfold DotDims.lhsIdx
  rw [dif_neg (show ¬(0 : Fin S5000x6.rank) ∈ dot_S5000x6_S6x128_S5000x128_1_0_0_1_n_n.lhsBatch by decide), dif_pos (show (0 : Fin S5000x6.rank) ∈ dot_S5000x6_S6x128_S5000x128_1_0_0_1_n_n.lhsNonContracting by decide)]
  rfl
theorem lhs1 (i : S5000x128.Idx) (q : dot_S5000x6_S6x128_S5000x128_1_0_0_1_n_n.contr.Idx) : (dot_S5000x6_S6x128_S5000x128_1_0_0_1_n_n.lhsIdx i q 1).val = (q ⟨0, by decide⟩).val :=
  dot_S5000x6_S6x128_S5000x128_1_0_0_1_n_n.lhsIdx_val_of_single rfl i q
theorem rhs0 (i : S5000x128.Idx) (q : dot_S5000x6_S6x128_S5000x128_1_0_0_1_n_n.contr.Idx) : (dot_S5000x6_S6x128_S5000x128_1_0_0_1_n_n.rhsIdx i q 0).val = (q ⟨0, by decide⟩).val :=
  dot_S5000x6_S6x128_S5000x128_1_0_0_1_n_n.rhsIdx_val_of_single rfl i q
theorem rhs1 (i : S5000x128.Idx) (q : dot_S5000x6_S6x128_S5000x128_1_0_0_1_n_n.contr.Idx) : (dot_S5000x6_S6x128_S5000x128_1_0_0_1_n_n.rhsIdx i q 1).val = (i 1).val := by
  unfold DotDims.rhsIdx
  rw [dif_neg (show ¬(1 : Fin S6x128.rank) ∈ dot_S5000x6_S6x128_S5000x128_1_0_0_1_n_n.rhsBatch by decide), dif_pos (show (1 : Fin S6x128.rank) ∈ dot_S5000x6_S6x128_S5000x128_1_0_0_1_n_n.rhsNonContracting by decide)]
  rfl

/-! ## The body's two stored values -/

/-- The first store: the product of the feature block with the weights. -/
theorem pay1_eq (x0 : Vec Ideal S5000x6 .f32) (x1 : Vec Ideal S6x128 .f32) : k0_pay1 x0 x1 = prod x0 x1 := by
  unfold k0_pay1
  dsimp only
  rw [shapeCast_self]
  exact matmul_zero_eq_prod dot_S5000x6_S6x128_S5000x128_1_0_0_1_n_n rfl rfl lhs0 lhs1 rhs0 rhs1 none _ _

/-- The second store: the own term of the block. -/
theorem pay2_eq (x0 : Vec Ideal S5000x6 .f32) (x1 : Vec Ideal S6x128 .f32) (x3 : Vec Ideal S5000x1 .f32) (x2 : Vec Ideal S1x128 .f32) :
    k0_pay2 x0 x1 x3 x2 = own (prod x0 x1) x3 x2 := by
  unfold k0_pay2
  dsimp only
  rw [pay1_eq]
  exact kernel_own (prod x0 x1) x3 x2 _ _ _ _

/-! ## Where each window's block sits -/

/-- The printed index maps over the 20 grid points: the row-blocked windows are at block row `t`, the weight and
    bias windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem emb0 (t : Fin cfg0.N) : ⇑((cfg0.win 0).blk t).view.emb = up (R := 5000) (N := 100000) (M := 6) t.val (rows_le t) := by
  obtain ⟨e00, e01, -⟩ := idx_facts t
  funext y a; apply Fin.ext
  match a with
  | ⟨0, _⟩ => show win0_0.index t (0 : Fin 2) * 5000 + 1 * (y 0).val = t.val * 5000 + (y 0).val; omega
  | ⟨1, _⟩ => show win0_0.index t (1 : Fin 2) * 6 + 1 * (y 1).val = (y 1).val; omega

theorem emb1 (t : Fin cfg0.N) : ⇑((cfg0.win 1).blk t).view.emb = fun y => y := by
  obtain ⟨-, -, e10, e11, -⟩ := idx_facts t
  funext y a; apply Fin.ext
  match a with
  | ⟨0, _⟩ => show win0_1.index t (0 : Fin 2) * 6 + 1 * (y 0).val = (y 0).val; omega
  | ⟨1, _⟩ => show win0_1.index t (1 : Fin 2) * 128 + 1 * (y 1).val = (y 1).val; omega

theorem emb2 (t : Fin cfg0.N) : ⇑((cfg0.win 2).blk t).view.emb = fun y => y := by
  obtain ⟨-, -, -, -, e20, e21, -⟩ := idx_facts t
  funext y a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem emb3 (t : Fin cfg0.N) : ⇑((cfg0.win 3).blk t).view.emb = up (R := 5000) (N := 100000) (M := 1) t.val (rows_le t) := by
  obtain ⟨-, -, -, -, -, -, e30, e31, -⟩ := idx_facts t
  funext y a; apply Fin.ext
  match a with
  | ⟨0, _⟩ => show win0_3.index t (0 : Fin 2) * 5000 + 1 * (y 0).val = t.val * 5000 + (y 0).val; omega
  | ⟨1, _⟩ => show win0_3.index t (1 : Fin 2) * 1 + 1 * (y 1).val = (y 1).val; omega

theorem emb4 (t : Fin cfg0.N) : ⇑((cfg0.win 4).blk t).view.emb = up (R := 5000) (N := 100000) (M := 128) t.val (rows_le t) := by
  obtain ⟨-, -, -, -, -, -, -, -, e40, e41, -⟩ := idx_facts t
  funext y a; apply Fin.ext
  match a with
  | ⟨0, _⟩ => show win0_4.index t (0 : Fin 2) * 5000 + 1 * (y 0).val = t.val * 5000 + (y 0).val; omega
  | ⟨1, _⟩ => show win0_4.index t (1 : Fin 2) * 128 + 1 * (y 1).val = (y 1).val; omega

theorem emb5 (t : Fin cfg0.N) : ⇑((cfg0.win 5).blk t).view.emb = up (R := 5000) (N := 100000) (M := 128) t.val (rows_le t) := by
  obtain ⟨-, -, -, -, -, -, -, -, -, -, e50, e51⟩ := idx_facts t
  funext y a; apply Fin.ext
  match a with
  | ⟨0, _⟩ => show win0_5.index t (0 : Fin 2) * 5000 + 1 * (y 0).val = t.val * 5000 + (y 0).val; omega
  | ⟨1, _⟩ => show win0_5.index t (1 : Fin 2) * 128 + 1 * (y 1).val = (y 1).val; omega

/-! ## What each point writes back -/

/-- Point `t` writes block `t` of the product of the whole matrices. -/
theorem flushed4_eq (c : Dev nD) (t : Fin cfg0.N) :
    (dat0 V c).flushed 4 t = ((cfg0.win 4).blk t).view.read (Elt Ideal) (prod (V c main_v28) (V c main_arg3)) := by
  show (cfg0.win 4).cut (grid0.coords t) ((dat0 V c).after 4 t) = _
  rw [after0_4]
  unfold out0_4
  rw [View.canon_unit_zero hz]
  simp only [View.ld_unit_zero (S := S5000x6) hz, View.ld_unit_zero (S := S6x128) hz, View.ld_unit_zero (S := S1x128) hz, View.ld_unit_zero (S := S5000x1) hz, View.ld_unit_zero (S := S5000x128) hz]
  rw [pay1_eq]
  funext j
  show prod (fun y => V c main_v28 (((cfg0.win 0).blk t).view.emb y)) (fun y => V c main_arg3 (((cfg0.win 1).blk t).view.emb y)) j
    = prod (V c main_v28) (V c main_arg3) (((cfg0.win 4).blk t).view.emb j)
  rw [emb0, emb1, emb4]
  exact congrFun (prod_up t.val (rows_le t) (V c main_v28) (V c main_arg3)) j

/-- Point `t` writes block `t` of the own term over the whole arrays. -/
theorem flushed5_eq (c : Dev nD) (t : Fin cfg0.N) :
    (dat0 V c).flushed 5 t = ((cfg0.win 5).blk t).view.read (Elt Ideal) (own (prod (V c main_v28) (V c main_arg3)) (V c main_v27) (V c main_v29)) := by
  show (cfg0.win 5).cut (grid0.coords t) ((dat0 V c).after 5 t) = _
  rw [after0_5]
  unfold out0_5
  rw [View.canon_unit_zero hz]
  simp only [View.ld_unit_zero (S := S5000x6) hz, View.ld_unit_zero (S := S6x128) hz, View.ld_unit_zero (S := S1x128) hz, View.ld_unit_zero (S := S5000x1) hz, View.ld_unit_zero (S := S5000x128) hz]
  rw [pay2_eq]
  funext j
  show own (prod (fun y => V c main_v28 (((cfg0.win 0).blk t).view.emb y)) (fun y => V c main_arg3 (((cfg0.win 1).blk t).view.emb y)))
      (fun y => V c main_v27 (((cfg0.win 3).blk t).view.emb y)) (fun y => V c main_v29 (((cfg0.win 2).blk t).view.emb y)) j
    = own (prod (V c main_v28) (V c main_arg3)) (V c main_v27) (V c main_v29) (((cfg0.win 5).blk t).view.emb j)
  rw [emb0, emb1, emb2, emb3, emb5]
  show own (prod (fun y => V c main_v28 (up (R := 5000) (N := 100000) (M := 6) t.val (rows_le t) y)) (V c main_arg3))
      (fun y => V c main_v27 (up (R := 5000) (N := 100000) (M := 1) t.val (rows_le t) y)) (V c main_v29) j = _
  rw [prod_up t.val (rows_le t) (V c main_v28) (V c main_arg3)]
  exact congrFun (own_up t.val (rows_le t) (prod (V c main_v28) (V c main_arg3)) (V c main_v27) (V c main_v29)) j

/-! ## The blocks tile the arrays -/

theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_0).slice (win0_4.rect t)).set ↔ _
  rw [View.set_slice_whole, Rect.mem_set_unit]
  exact Iff.rfl

/-- Row r lies in the block of point r / 5000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, htv⟩ : ∃ t : Fin cfg0.N, t.val = (i 0).val / 5000 := ⟨⟨(i 0).val / 5000, by rw [N_eq]; omega⟩, rfl⟩
  obtain ⟨-, -, -, -, -, -, -, -, e40, e41, -⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30_1).slice (win0_5.rect t)).set ↔ _
  rw [View.set_slice_whole, Rect.mem_set_unit]
  exact Iff.rfl

/-- Row r lies in the block of point r / 5000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, htv⟩ : ∃ t : Fin cfg0.N, t.val = (i 0).val / 5000 := ⟨⟨(i 0).val / 5000, by rw [N_eq]; omega⟩, rfl⟩
  obtain ⟨-, -, -, -, -, -, -, -, -, -, e50, e51⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The arrays after the region -/

/-- The first output array after the region: the product of the whole feature matrix with the weights. -/
theorem final4 (c : Dev nD) : (dat0 V c).arrAt 4 cfg0.N = prod (V c main_v28) (V c main_arg3) :=
  (dat0 V c).arrAt_eq_of_cover 4 (prod (V c main_v28) (V c main_arg3)) (fun t _ => flushed4_eq V c t) cover4

/-- The second output array after the region: the own term over the whole arrays. -/
theorem final5 (c : Dev nD) : (dat0 V c).arrAt 5 cfg0.N = own (prod (V c main_v28) (V c main_arg3)) (V c main_v27) (V c main_v29) :=
  (dat0 V c).arrAt_eq_of_cover 5 (own (prod (V c main_v28) (V c main_arg3)) (V c main_v27) (V c main_v29)) (fun t _ => flushed5_eq V c t) cover5

end Cert.KernelIdeal.Dense0

end
-- ==== Proof.Combine1.lean ====
/-
  The combining region number 1 of the kernel program, as a whole-array function.  The region walks the 100000 node
  rows in 20 blocks of 5000; at block n its body adds rows [5000·n, 5000·n + 5000) of the aggregate and of the own
  term and takes the maximum with zero.  The operation is entry by entry, so a block of rows of the result is the result on the blocks of rows,
  and the 20 blocks tile the array: after the region the output array is that function of the two whole arrays,
  whatever the buffers held when the region was entered (`V`).
-/
import proofs.«111918_j80633716015488_1_alg».proof.Proof.Gen.KernelIdeal.Frame
import proofs.«111918_j80633716015488_1_alg».proof.Proof.LibGcnTail

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.ValueIdx Cert.Dense Cert.RowBlocks Cert.GcnTail
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem N_eq : cfg1.N = 20 := N_1

theorem rows_le (t : Fin cfg1.N) : t.val * 5000 + 5000 ≤ 100000 := by
  have h : t.val < 20 := lt_of_lt_of_eq t.isLt N_eq
  omega

/-- The body's stored value. -/
theorem pay1_eq (x0 x1 : Vec Ideal S5000x128 .f32) : k1_pay1 x0 x1 = joinRelu x0 x1 := by
  unfold k1_pay1
  dsimp only
  exact kernel_joinRelu x0 x1 _

/-- The printed index maps over the 20 grid points: every window is at block row `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem emb0 (t : Fin cfg1.N) : ⇑((cfg1.win 0).blk t).view.emb = up (R := 5000) (N := 100000) (M := 128) t.val (rows_le t) := by
  obtain ⟨e00, e01, -⟩ := idx_facts t
  funext y a; apply Fin.ext
  match a with
  | ⟨0, _⟩ => show win1_0.index t (0 : Fin 2) * 5000 + 1 * (y 0).val = t.val * 5000 + (y 0).val; omega
  | ⟨1, _⟩ => show win1_0.index t (1 : Fin 2) * 128 + 1 * (y 1).val = (y 1).val; omega

theorem emb1 (t : Fin cfg1.N) : ⇑((cfg1.win 1).blk t).view.emb = up (R := 5000) (N := 100000) (M := 128) t.val (rows_le t) := by
  obtain ⟨-, -, e10, e11, -⟩ := idx_facts t
  funext y a; apply Fin.ext
  match a with
  | ⟨0, _⟩ => show win1_1.index t (0 : Fin 2) * 5000 + 1 * (y 0).val = t.val * 5000 + (y 0).val; omega
  | ⟨1, _⟩ => show win1_1.index t (1 : Fin 2) * 128 + 1 * (y 1).val = (y 1).val; omega

theorem emb2 (t : Fin cfg1.N) : ⇑((cfg1.win 2).blk t).view.emb = up (R := 5000) (N := 100000) (M := 128) t.val (rows_le t) := by
  obtain ⟨-, -, -, -, e20, e21⟩ := idx_facts t
  funext y a; apply Fin.ext
  match a with
  | ⟨0, _⟩ => show win1_2.index t (0 : Fin 2) * 5000 + 1 * (y 0).val = t.val * 5000 + (y 0).val; omega
  | ⟨1, _⟩ => show win1_2.index t (1 : Fin 2) * 128 + 1 * (y 1).val = (y 1).val; omega

/-- Point `t` writes block `t` of the combined whole arrays. -/
theorem flushed2_eq (c : Dev nD) (t : Fin cfg1.N) :
    (dat1 V c).flushed 2 t = ((cfg1.win 2).blk t).view.read (Elt Ideal) (joinRelu (V c main_v43) (V c main_v30_1)) := by
  show (cfg1.win 2).cut (grid1.coords t) ((dat1 V c).after 2 t) = _
  rw [after1_2]
  unfold out1_2
  rw [View.canon_unit_zero hz]
  simp only [View.ld_unit_zero (S := S5000x128) hz]
  rw [pay1_eq]
  funext j
  show joinRelu (fun y => V c main_v43 (((cfg1.win 0).blk t).view.emb y)) (fun y => V c main_v30_1 (((cfg1.win 1).blk t).view.emb y)) j
    = joinRelu (V c main_v43) (V c main_v30_1) (((cfg1.win 2).blk t).view.emb j)
  rw [emb0, emb1, emb2]
  exact congrFun (joinRelu_up t.val (rows_le t) (V c main_v43) (V c main_v30_1)) j

theorem mem_blk2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r lies in the block of point r / 5000. -/
theorem cover2 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, htv⟩ : ∃ t : Fin cfg1.N, t.val = (i 0).val / 5000 := ⟨⟨(i 0).val / 5000, by rw [N_eq]; omega⟩, rfl⟩
  obtain ⟨-, -, -, -, e20, e21⟩ := idx_facts t
  refine ⟨t, flush1_2 t, ?_⟩
  rw [mem_blk2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region. -/
theorem final2 (c : Dev nD) : (dat1 V c).arrAt 2 cfg1.N = joinRelu (V c main_v43) (V c main_v30_1) :=
  (dat1 V c).arrAt_eq_of_cover 2 (joinRelu (V c main_v43) (V c main_v30_1)) (fun t _ => flushed2_eq V c t) cover2

end Cert.KernelIdeal.Combine1

end
-- ==== Proof.Chain0.lean ====
/-
  Layer 0 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense0
import proofs.«111918_j80633716015488_1_alg».proof.Proof.Combine1
import proofs.«111918_j80633716015488_1_alg».proof.Proof.Gen.ReferenceIdeal.Read

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## The argument arrays at launch -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)
abbrev x13 := m ((c : Thread nD τ).loc main_arg13)
abbrev x14 := m ((c : Thread nD τ).loc main_arg14)

/-! ## After the host operations before the dense region -/

theorem k1_main_v1 : W1 m ρ c (Proc.devRef .tc main_v1) = (Cert.ReferenceIdeal.Read.val_main_v1 (F := Ideal) (x2 m c)) := by
  show StableHlo.after hostOps0 (W0 m ρ c) (Proc.devRef .tc main_v1) = _
  after_results_simp <;> rfl
theorem k1_main_v3 : W1 m ρ c (Proc.devRef .tc main_v3) = (Cert.ReferenceIdeal.Read.val_main_v3 (F := Ideal) (x2 m c)) := by
  show StableHlo.after hostOps0 (W0 m ρ c) (Proc.devRef .tc main_v3) = _
  after_results_simp <;> rfl
theorem k1_main_v25 : W1 m ρ c (Proc.devRef .tc main_v25) = (Cert.ReferenceIdeal.Read.val_main_v25 (F := Ideal) (x2 m c)) := by
  show StableHlo.after hostOps0 (W0 m ρ c) (Proc.devRef .tc main_v25) = _
  after_results_simp <;> rfl
theorem k1_main_v27 : W1 m ρ c (Proc.devRef .tc main_v27) = (shapeCast S100000x1 (Cert.ReferenceIdeal.Read.val_main_v26 (F := Ideal) (x2 m c)) shapeCasts_S100000_S100000x1) := by
  show StableHlo.after hostOps0 (W0 m ρ c) (Proc.devRef .tc main_v27) = _
  after_results_simp <;> rfl
theorem v1_h : W1 m ρ c (Proc.devRef .tc main_v28) = (Cert.ReferenceIdeal.Read.val_main_v27 (F := Ideal) (x0 m c) (x1 m c)) := by
  show StableHlo.after hostOps0 (W0 m ρ c) (Proc.devRef .tc main_v28) = _
  after_results_simp <;> rfl
theorem v1_brow : W1 m ρ c (Proc.devRef .tc main_v29) = (shapeCast S1x128 (x4 m c) shapeCasts_S128_S1x128) := by
  show StableHlo.after hostOps0 (W0 m ρ c) (Proc.devRef .tc main_v29) = _
  after_results_simp <;> rfl
theorem k1_main_arg3 : W1 m ρ c (Proc.devRef .tc main_arg3) = (x3 m c) := by
  show StableHlo.after hostOps0 (W0 m ρ c) (Proc.devRef .tc main_arg3) = _
  after_results_simp <;> rfl
theorem k1_main_arg5 : W1 m ρ c (Proc.devRef .tc main_arg5) = (x5 m c) := by
  show StableHlo.after hostOps0 (W0 m ρ c) (Proc.devRef .tc main_arg5) = _
  after_results_simp <;> rfl
theorem k1_main_arg6 : W1 m ρ c (Proc.devRef .tc main_arg6) = (x6 m c) := by
  show StableHlo.after hostOps0 (W0 m ρ c) (Proc.devRef .tc main_arg6) = _
  after_results_simp <;> rfl
theorem k1_main_arg7 : W1 m ρ c (Proc.devRef .tc main_arg7) = (x7 m c) := by
  show StableHlo.after hostOps0 (W0 m ρ c) (Proc.devRef .tc main_arg7) = _
  after_results_simp <;> rfl
theorem k1_main_arg8 : W1 m ρ c (Proc.devRef .tc main_arg8) = (x8 m c) := by
  show StableHlo.after hostOps0 (W0 m ρ c) (Proc.devRef .tc main_arg8) = _
  after_results_simp <;> rfl
theorem k1_main_arg9 : W1 m ρ c (Proc.devRef .tc main_arg9) = (x9 m c) := by
  show StableHlo.after hostOps0 (W0 m ρ c) (Proc.devRef .tc main_arg9) = _
  after_results_simp <;> rfl
theorem k1_main_arg10 : W1 m ρ c (Proc.devRef .tc main_arg10) = (x10 m c) := by
  show StableHlo.after hostOps0 (W0 m ρ c) (Proc.devRef .tc main_arg10) = _
  after_results_simp <;> rfl
theorem k1_main_arg11 : W1 m ρ c (Proc.devRef .tc main_arg11) = (x11 m c) := by
  show StableHlo.after hostOps0 (W0 m ρ c) (Proc.devRef .tc main_arg11) = _
  after_results_simp <;> rfl
theorem k1_main_arg12 : W1 m ρ c (Proc.devRef .tc main_arg12) = (x12 m c) := by
  show StableHlo.after hostOps0 (W0 m ρ c) (Proc.devRef .tc main_arg12) = _
  after_results_simp <;> rfl
theorem k1_main_arg13 : W1 m ρ c (Proc.devRef .tc main_arg13) = (x13 m c) := by
  show StableHlo.after hostOps0 (W0 m ρ c) (Proc.devRef .tc main_arg13) = _
  after_results_simp <;> rfl
theorem k1_main_arg14 : W1 m ρ c (Proc.devRef .tc main_arg14) = (x14 m c) := by
  show StableHlo.after hostOps0 (W0 m ρ c) (Proc.devRef .tc main_arg14) = _
  after_results_simp <;> rfl

/-! ## After the dense region -/

theorem k2_main_v1 : W2 m ρ c (Proc.devRef .tc main_v1) = (Cert.ReferenceIdeal.Read.val_main_v1 (F := Ideal) (x2 m c)) :=
  (W2_of_ne m ρ c main_v1 (by decide)).trans (k1_main_v1 m ρ c)
theorem k2_main_v3 : W2 m ρ c (Proc.devRef .tc main_v3) = (Cert.ReferenceIdeal.Read.val_main_v3 (F := Ideal) (x2 m c)) :=
  (W2_of_ne m ρ c main_v3 (by decide)).trans (k1_main_v3 m ρ c)
theorem k2_main_v25 : W2 m ρ c (Proc.devRef .tc main_v25) = (Cert.ReferenceIdeal.Read.val_main_v25 (F := Ideal) (x2 m c)) :=
  (W2_of_ne m ρ c main_v25 (by decide)).trans (k1_main_v25 m ρ c)
theorem k2_main_v27 : W2 m ρ c (Proc.devRef .tc main_v27) = (shapeCast S100000x1 (Cert.ReferenceIdeal.Read.val_main_v26 (F := Ideal) (x2 m c)) shapeCasts_S100000_S100000x1) :=
  (W2_arr m ρ c 3).trans (((dat0 (V1 m ρ) c).arrAt_in 3 rfl _).trans ((A_eq0 (V1 m ρ) c 3).trans (k1_main_v27 m ρ c)))
theorem k2_main_arg5 : W2 m ρ c (Proc.devRef .tc main_arg5) = (x5 m c) :=
  (W2_of_ne m ρ c main_arg5 (by decide)).trans (k1_main_arg5 m ρ c)
theorem k2_main_arg6 : W2 m ρ c (Proc.devRef .tc main_arg6) = (x6 m c) :=
  (W2_of_ne m ρ c main_arg6 (by decide)).trans (k1_main_arg6 m ρ c)
theorem k2_main_arg7 : W2 m ρ c (Proc.devRef .tc main_arg7) = (x7 m c) :=
  (W2_of_ne m ρ c main_arg7 (by decide)).trans (k1_main_arg7 m ρ c)
theorem k2_main_arg8 : W2 m ρ c (Proc.devRef .tc main_arg8) = (x8 m c) :=
  (W2_of_ne m ρ c main_arg8 (by decide)).trans (k1_main_arg8 m ρ c)
theorem k2_main_arg9 : W2 m ρ c (Proc.devRef .tc main_arg9) = (x9 m c) :=
  (W2_of_ne m ρ c main_arg9 (by decide)).trans (k1_main_arg9 m ρ c)
theorem k2_main_arg10 : W2 m ρ c (Proc.devRef .tc main_arg10) = (x10 m c) :=
  (W2_of_ne m ρ c main_arg10 (by decide)).trans (k1_main_arg10 m ρ c)
theorem k2_main_arg11 : W2 m ρ c (Proc.devRef .tc main_arg11) = (x11 m c) :=
  (W2_of_ne m ρ c main_arg11 (by decide)).trans (k1_main_arg11 m ρ c)
theorem k2_main_arg12 : W2 m ρ c (Proc.devRef .tc main_arg12) = (x12 m c) :=
  (W2_of_ne m ρ c main_arg12 (by decide)).trans (k1_main_arg12 m ρ c)
theorem k2_main_arg13 : W2 m ρ c (Proc.devRef .tc main_arg13) = (x13 m c) :=
  (W2_of_ne m ρ c main_arg13 (by decide)).trans (k1_main_arg13 m ρ c)
theorem k2_main_arg14 : W2 m ρ c (Proc.devRef .tc main_arg14) = (x14 m c) :=
  (W2_of_ne m ρ c main_arg14 (by decide)).trans (k1_main_arg14 m ρ c)
/-- The host's dot_general of this layer is the product. -/
theorem dot0_eq : (Cert.ReferenceIdeal.Read.val_main_v28 (F := Ideal) (x0 m c) (x1 m c) (x3 m c)) = prod (Cert.ReferenceIdeal.Read.val_main_v27 (F := Ideal) (x0 m c) (x1 m c)) (x3 m c) :=
  dotGeneral_eq_prod Cert.ReferenceIdeal.dot_S100000x6_S6x128_S100000x128_1_0_0_1_n_n rfl rfl Cert.ReferenceIdeal.Read.lhs_main_v28_0 Cert.ReferenceIdeal.Read.lhs_main_v28_1 Cert.ReferenceIdeal.Read.rhs_main_v28_0 Cert.ReferenceIdeal.Read.rhs_main_v28_1 none _ _

theorem v2_xw : W2 m ρ c (Proc.devRef .tc main_v30_0) = (Cert.ReferenceIdeal.Read.val_main_v28 (F := Ideal) (x0 m c) (x1 m c) (x3 m c)) := by
  refine (W2_arr m ρ c 4).trans ((Cert.KernelIdeal.Dense0.final4 (V1 m ρ) c).trans ?_)
  show prod (W1 m ρ c (Proc.devRef .tc main_v28)) (W1 m ρ c (Proc.devRef .tc main_arg3)) = _
  rw [v1_h, k1_main_arg3, ← dot0_eq]

theorem v2_t : W2 m ρ c (Proc.devRef .tc main_v30_1) = own (Cert.ReferenceIdeal.Read.val_main_v28 (F := Ideal) (x0 m c) (x1 m c) (x3 m c)) (shapeCast S100000x1 (Cert.ReferenceIdeal.Read.val_main_v26 (F := Ideal) (x2 m c)) shapeCasts_S100000_S100000x1) (shapeCast S1x128 (x4 m c) shapeCasts_S128_S1x128) := by
  refine (W2_arr m ρ c 5).trans ((Cert.KernelIdeal.Dense0.final5 (V1 m ρ) c).trans ?_)
  show own (prod (W1 m ρ c (Proc.devRef .tc main_v28)) (W1 m ρ c (Proc.devRef .tc main_arg3))) (W1 m ρ c (Proc.devRef .tc main_v27)) (W1 m ρ c (Proc.devRef .tc main_v29)) = _
  rw [v1_h, k1_main_arg3, k1_main_v27, v1_brow, ← dot0_eq]

/-! ## After the gather, the scaling by the edge factors and the scatter-add -/

theorem k3_main_v1 : W3 m ρ c (Proc.devRef .tc main_v1) = (Cert.ReferenceIdeal.Read.val_main_v1 (F := Ideal) (x2 m c)) := by
  show StableHlo.after hostOps1 (W2 m ρ c) (Proc.devRef .tc main_v1) = _
  after_results_simp
  exact k2_main_v1 m ρ c
theorem k3_main_v3 : W3 m ρ c (Proc.devRef .tc main_v3) = (Cert.ReferenceIdeal.Read.val_main_v3 (F := Ideal) (x2 m c)) := by
  show StableHlo.after hostOps1 (W2 m ρ c) (Proc.devRef .tc main_v3) = _
  after_results_simp
  exact k2_main_v3 m ρ c
theorem k3_main_v25 : W3 m ρ c (Proc.devRef .tc main_v25) = (Cert.ReferenceIdeal.Read.val_main_v25 (F := Ideal) (x2 m c)) := by
  show StableHlo.after hostOps1 (W2 m ρ c) (Proc.devRef .tc main_v25) = _
  after_results_simp
  exact k2_main_v25 m ρ c
theorem k3_main_v27 : W3 m ρ c (Proc.devRef .tc main_v27) = (shapeCast S100000x1 (Cert.ReferenceIdeal.Read.val_main_v26 (F := Ideal) (x2 m c)) shapeCasts_S100000_S100000x1) := by
  show StableHlo.after hostOps1 (W2 m ρ c) (Proc.devRef .tc main_v27) = _
  after_results_simp
  exact k2_main_v27 m ρ c
theorem k3_main_arg5 : W3 m ρ c (Proc.devRef .tc main_arg5) = (x5 m c) := by
  show StableHlo.after hostOps1 (W2 m ρ c) (Proc.devRef .tc main_arg5) = _
  after_results_simp
  exact k2_main_arg5 m ρ c
theorem k3_main_arg6 : W3 m ρ c (Proc.devRef .tc main_arg6) = (x6 m c) := by
  show StableHlo.after hostOps1 (W2 m ρ c) (Proc.devRef .tc main_arg6) = _
  after_results_simp
  exact k2_main_arg6 m ρ c
theorem k3_main_arg7 : W3 m ρ c (Proc.devRef .tc main_arg7) = (x7 m c) := by
  show StableHlo.after hostOps1 (W2 m ρ c) (Proc.devRef .tc main_arg7) = _
  after_results_simp
  exact k2_main_arg7 m ρ c
theorem k3_main_arg8 : W3 m ρ c (Proc.devRef .tc main_arg8) = (x8 m c) := by
  show StableHlo.after hostOps1 (W2 m ρ c) (Proc.devRef .tc main_arg8) = _
  after_results_simp
  exact k2_main_arg8 m ρ c
theorem k3_main_arg9 : W3 m ρ c (Proc.devRef .tc main_arg9) = (x9 m c) := by
  show StableHlo.after hostOps1 (W2 m ρ c) (Proc.devRef .tc main_arg9) = _
  after_results_simp
  exact k2_main_arg9 m ρ c
theorem k3_main_arg10 : W3 m ρ c (Proc.devRef .tc main_arg10) = (x10 m c) := by
  show StableHlo.after hostOps1 (W2 m ρ c) (Proc.devRef .tc main_arg10) = _
  after_results_simp
  exact k2_main_arg10 m ρ c
theorem k3_main_arg11 : W3 m ρ c (Proc.devRef .tc main_arg11) = (x11 m c) := by
  show StableHlo.after hostOps1 (W2 m ρ c) (Proc.devRef .tc main_arg11) = _
  after_results_simp
  exact k2_main_arg11 m ρ c
theorem k3_main_arg12 : W3 m ρ c (Proc.devRef .tc main_arg12) = (x12 m c) := by
  show StableHlo.after hostOps1 (W2 m ρ c) (Proc.devRef .tc main_arg12) = _
  after_results_simp
  exact k2_main_arg12 m ρ c
theorem k3_main_arg13 : W3 m ρ c (Proc.devRef .tc main_arg13) = (x13 m c) := by
  show StableHlo.after hostOps1 (W2 m ρ c) (Proc.devRef .tc main_arg13) = _
  after_results_simp
  exact k2_main_arg13 m ρ c
theorem k3_main_arg14 : W3 m ρ c (Proc.devRef .tc main_arg14) = (x14 m c) := by
  show StableHlo.after hostOps1 (W2 m ρ c) (Proc.devRef .tc main_arg14) = _
  after_results_simp
  exact k2_main_arg14 m ρ c
theorem k3_t : W3 m ρ c (Proc.devRef .tc main_v30_1) = own (Cert.ReferenceIdeal.Read.val_main_v28 (F := Ideal) (x0 m c) (x1 m c) (x3 m c)) (shapeCast S100000x1 (Cert.ReferenceIdeal.Read.val_main_v26 (F := Ideal) (x2 m c)) shapeCasts_S100000_S100000x1) (shapeCast S1x128 (x4 m c) shapeCasts_S128_S1x128) := by
  show StableHlo.after hostOps1 (W2 m ρ c) (Proc.devRef .tc main_v30_1) = _
  after_results_simp
  exact v2_t m ρ c

theorem v3_agg : W3 m ρ c (Proc.devRef .tc main_v43) = (Cert.ReferenceIdeal.Read.val_main_v41 (F := Ideal) (x0 m c) (x1 m c) (x2 m c) (x3 m c)) := by
  show StableHlo.after hostOps1 (W2 m ρ c) (Proc.devRef .tc main_v43) = _
  after_results_simp
  rw [k2_main_v1, k2_main_v3, k2_main_v25, v2_xw]
  rfl

/-! ## After the combining region -/

theorem k4_main_v1 : W4 m ρ c (Proc.devRef .tc main_v1) = (Cert.ReferenceIdeal.Read.val_main_v1 (F := Ideal) (x2 m c)) :=
  (W4_of_ne m ρ c main_v1 (by decide)).trans (k3_main_v1 m ρ c)
theorem k4_main_v3 : W4 m ρ c (Proc.devRef .tc main_v3) = (Cert.ReferenceIdeal.Read.val_main_v3 (F := Ideal) (x2 m c)) :=
  (W4_of_ne m ρ c main_v3 (by decide)).trans (k3_main_v3 m ρ c)
theorem k4_main_v25 : W4 m ρ c (Proc.devRef .tc main_v25) = (Cert.ReferenceIdeal.Read.val_main_v25 (F := Ideal) (x2 m c)) :=
  (W4_of_ne m ρ c main_v25 (by decide)).trans (k3_main_v25 m ρ c)
theorem k4_main_v27 : W4 m ρ c (Proc.devRef .tc main_v27) = (shapeCast S100000x1 (Cert.ReferenceIdeal.Read.val_main_v26 (F := Ideal) (x2 m c)) shapeCasts_S100000_S100000x1) :=
  (W4_of_ne m ρ c main_v27 (by decide)).trans (k3_main_v27 m ρ c)
theorem k4_main_arg5 : W4 m ρ c (Proc.devRef .tc main_arg5) = (x5 m c) :=
  (W4_of_ne m ρ c main_arg5 (by decide)).trans (k3_main_arg5 m ρ c)
theorem k4_main_arg6 : W4 m ρ c (Proc.devRef .tc main_arg6) = (x6 m c) :=
  (W4_of_ne m ρ c main_arg6 (by decide)).trans (k3_main_arg6 m ρ c)
theorem k4_main_arg7 : W4 m ρ c (Proc.devRef .tc main_arg7) = (x7 m c) :=
  (W4_of_ne m ρ c main_arg7 (by decide)).trans (k3_main_arg7 m ρ c)
theorem k4_main_arg8 : W4 m ρ c (Proc.devRef .tc main_arg8) = (x8 m c) :=
  (W4_of_ne m ρ c main_arg8 (by decide)).trans (k3_main_arg8 m ρ c)
theorem k4_main_arg9 : W4 m ρ c (Proc.devRef .tc main_arg9) = (x9 m c) :=
  (W4_of_ne m ρ c main_arg9 (by decide)).trans (k3_main_arg9 m ρ c)
theorem k4_main_arg10 : W4 m ρ c (Proc.devRef .tc main_arg10) = (x10 m c) :=
  (W4_of_ne m ρ c main_arg10 (by decide)).trans (k3_main_arg10 m ρ c)
theorem k4_main_arg11 : W4 m ρ c (Proc.devRef .tc main_arg11) = (x11 m c) :=
  (W4_of_ne m ρ c main_arg11 (by decide)).trans (k3_main_arg11 m ρ c)
theorem k4_main_arg12 : W4 m ρ c (Proc.devRef .tc main_arg12) = (x12 m c) :=
  (W4_of_ne m ρ c main_arg12 (by decide)).trans (k3_main_arg12 m ρ c)
theorem k4_main_arg13 : W4 m ρ c (Proc.devRef .tc main_arg13) = (x13 m c) :=
  (W4_of_ne m ρ c main_arg13 (by decide)).trans (k3_main_arg13 m ρ c)
theorem k4_main_arg14 : W4 m ρ c (Proc.devRef .tc main_arg14) = (x14 m c) :=
  (W4_of_ne m ρ c main_arg14 (by decide)).trans (k3_main_arg14 m ρ c)
theorem v4_out : W4 m ρ c (Proc.devRef .tc main_v44) = (Cert.ReferenceIdeal.Read.val_main_v49 (F := Ideal) (x0 m c) (x1 m c) (x2 m c) (x3 m c) (x4 m c)) := by
  refine (W4_arr m ρ c 2).trans ((Cert.KernelIdeal.Combine1.final2 (V3 m ρ) c).trans ?_)
  show joinRelu (W3 m ρ c (Proc.devRef .tc main_v43)) (W3 m ρ c (Proc.devRef .tc main_v30_1)) = _
  rw [v3_agg, k3_t]
  unfold Cert.ReferenceIdeal.Read.val_main_v49 Cert.ReferenceIdeal.Read.val_main_v48 Cert.ReferenceIdeal.Read.val_main_v45 Cert.ReferenceIdeal.Read.val_main_v44 Cert.ReferenceIdeal.Read.val_main_v43 Cert.ReferenceIdeal.Read.val_main_v42 Cert.ReferenceIdeal.Read.val_main_v47 Cert.ReferenceIdeal.Read.val_main_v46 Cert.ReferenceIdeal.Read.val_main_call0_v0 Cert.ReferenceIdeal.Read.val_main_call0_cst
  exact (host_layerRelu (Cert.ReferenceIdeal.Read.val_main_v41 (F := Ideal) (x0 m c) (x1 m c) (x2 m c) (x3 m c)) (Cert.ReferenceIdeal.Read.val_main_v28 (F := Ideal) (x0 m c) (x1 m c) (x3 m c)) (Cert.ReferenceIdeal.Read.val_main_v26 (F := Ideal) (x2 m c)) (x4 m c) _ _ _ _ _ _ _).symm

end Cert.KernelIdeal.Chain

end
-- ==== Proof.Chain1.lean ====
/-
  Layer 1 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense2
import proofs.«111918_j80633716015488_1_alg».proof.Proof.Combine3
import proofs.«111918_j80633716015488_1_alg».proof.Proof.Chain0

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## After the host operations before the dense region -/

theorem k5_main_v1 : W5 m ρ c (Proc.devRef .tc main_v1) = (Cert.ReferenceIdeal.Read.val_main_v1 (F := Ideal) (x2 m c)) := by
  show StableHlo.after hostOps2 (W4 m ρ c) (Proc.devRef .tc main_v1) = _
  after_results_simp
  exact k4_main_v1 m ρ c
theorem k5_main_v3 : W5 m ρ c (Proc.devRef .tc main_v3) = (Cert.ReferenceIdeal.Read.val_main_v3 (F := Ideal) (x2 m c)) := by
  show StableHlo.after hostOps2 (W4 m ρ c) (Proc.devRef .tc main_v3) = _
  after_results_simp
  exact k4_main_v3 m ρ c
theorem k5_main_v25 : W5 m ρ c (Proc.devRef .tc main_v25) = (Cert.ReferenceIdeal.Read.val_main_v25 (F := Ideal) (x2 m c)) := by
  show StableHlo.after hostOps2 (W4 m ρ c) (Proc.devRef .tc main_v25) = _
  after_results_simp
  exact k4_main_v25 m ρ c
theorem k5_main_v27 : W5 m ρ c (Proc.devRef .tc main_v27) = (shapeCast S100000x1 (Cert.ReferenceIdeal.Read.val_main_v26 (F := Ideal) (x2 m c)) shapeCasts_S100000_S100000x1) := by
  show StableHlo.after hostOps2 (W4 m ρ c) (Proc.devRef .tc main_v27) = _
  after_results_simp
  exact k4_main_v27 m ρ c
theorem k5_main_arg5 : W5 m ρ c (Proc.devRef .tc main_arg5) = (x5 m c) := by
  show StableHlo.after hostOps2 (W4 m ρ c) (Proc.devRef .tc main_arg5) = _
  after_results_simp
  exact k4_main_arg5 m ρ c
theorem k5_main_arg7 : W5 m ρ c (Proc.devRef .tc main_arg7) = (x7 m c) := by
  show StableHlo.after hostOps2 (W4 m ρ c) (Proc.devRef .tc main_arg7) = _
  after_results_simp
  exact k4_main_arg7 m ρ c
theorem k5_main_arg8 : W5 m ρ c (Proc.devRef .tc main_arg8) = (x8 m c) := by
  show StableHlo.after hostOps2 (W4 m ρ c) (Proc.devRef .tc main_arg8) = _
  after_results_simp
  exact k4_main_arg8 m ρ c
theorem k5_main_arg9 : W5 m ρ c (Proc.devRef .tc main_arg9) = (x9 m c) := by
  show StableHlo.after hostOps2 (W4 m ρ c) (Proc.devRef .tc main_arg9) = _
  after_results_simp
  exact k4_main_arg9 m ρ c
theorem k5_main_arg10 : W5 m ρ c (Proc.devRef .tc main_arg10) = (x10 m c) := by
  show StableHlo.after hostOps2 (W4 m ρ c) (Proc.devRef .tc main_arg10) = _
  after_results_simp
  exact k4_main_arg10 m ρ c
theorem k5_main_arg11 : W5 m ρ c (Proc.devRef .tc main_arg11) = (x11 m c) := by
  show StableHlo.after hostOps2 (W4 m ρ c) (Proc.devRef .tc main_arg11) = _
  after_results_simp
  exact k4_main_arg11 m ρ c
theorem k5_main_arg12 : W5 m ρ c (Proc.devRef .tc main_arg12) = (x12 m c) := by
  show StableHlo.after hostOps2 (W4 m ρ c) (Proc.devRef .tc main_arg12) = _
  after_results_simp
  exact k4_main_arg12 m ρ c
theorem k5_main_arg13 : W5 m ρ c (Proc.devRef .tc main_arg13) = (x13 m c) := by
  show StableHlo.after hostOps2 (W4 m ρ c) (Proc.devRef .tc main_arg13) = _
  after_results_simp
  exact k4_main_arg13 m ρ c
theorem k5_main_arg14 : W5 m ρ c (Proc.devRef .tc main_arg14) = (x14 m c) := by
  show StableHlo.after hostOps2 (W4 m ρ c) (Proc.devRef .tc main_arg14) = _
  after_results_simp
  exact k4_main_arg14 m ρ c
theorem v5_h : W5 m ρ c (Proc.devRef .tc main_v44) = (Cert.ReferenceIdeal.Read.val_main_v49 (F := Ideal) (x0 m c) (x1 m c) (x2 m c) (x3 m c) (x4 m c)) := by
  show StableHlo.after hostOps2 (W4 m ρ c) (Proc.devRef .tc main_v44) = _
  after_results_simp
  exact v4_out m ρ c
theorem v5_brow : W5 m ρ c (Proc.devRef .tc main_v45) = (shapeCast S1x128 (x6 m c) shapeCasts_S128_S1x128) := by
  show StableHlo.after hostOps2 (W4 m ρ c) (Proc.devRef .tc main_v45) = _
  after_results_simp
  rw [k4_main_arg6]
  rfl

/-! ## After the dense region -/

theorem k6_main_v1 : W6 m ρ c (Proc.devRef .tc main_v1) = (Cert.ReferenceIdeal.Read.val_main_v1 (F := Ideal) (x2 m c)) :=
  (W6_of_ne m ρ c main_v1 (by decide)).trans (k5_main_v1 m ρ c)
theorem k6_main_v3 : W6 m ρ c (Proc.devRef .tc main_v3) = (Cert.ReferenceIdeal.Read.val_main_v3 (F := Ideal) (x2 m c)) :=
  (W6_of_ne m ρ c main_v3 (by decide)).trans (k5_main_v3 m ρ c)
theorem k6_main_v25 : W6 m ρ c (Proc.devRef .tc main_v25) = (Cert.ReferenceIdeal.Read.val_main_v25 (F := Ideal) (x2 m c)) :=
  (W6_of_ne m ρ c main_v25 (by decide)).trans (k5_main_v25 m ρ c)
theorem k6_main_v27 : W6 m ρ c (Proc.devRef .tc main_v27) = (shapeCast S100000x1 (Cert.ReferenceIdeal.Read.val_main_v26 (F := Ideal) (x2 m c)) shapeCasts_S100000_S100000x1) :=
  (W6_arr m ρ c 3).trans (((dat2 (V5 m ρ) c).arrAt_in 3 rfl _).trans ((A_eq2 (V5 m ρ) c 3).trans (k5_main_v27 m ρ c)))
theorem k6_main_arg7 : W6 m ρ c (Proc.devRef .tc main_arg7) = (x7 m c) :=
  (W6_of_ne m ρ c main_arg7 (by decide)).trans (k5_main_arg7 m ρ c)
theorem k6_main_arg8 : W6 m ρ c (Proc.devRef .tc main_arg8) = (x8 m c) :=
  (W6_of_ne m ρ c main_arg8 (by decide)).trans (k5_main_arg8 m ρ c)
theorem k6_main_arg9 : W6 m ρ c (Proc.devRef .tc main_arg9) = (x9 m c) :=
  (W6_of_ne m ρ c main_arg9 (by decide)).trans (k5_main_arg9 m ρ c)
theorem k6_main_arg10 : W6 m ρ c (Proc.devRef .tc main_arg10) = (x10 m c) :=
  (W6_of_ne m ρ c main_arg10 (by decide)).trans (k5_main_arg10 m ρ c)
theorem k6_main_arg11 : W6 m ρ c (Proc.devRef .tc main_arg11) = (x11 m c) :=
  (W6_of_ne m ρ c main_arg11 (by decide)).trans (k5_main_arg11 m ρ c)
theorem k6_main_arg12 : W6 m ρ c (Proc.devRef .tc main_arg12) = (x12 m c) :=
  (W6_of_ne m ρ c main_arg12 (by decide)).trans (k5_main_arg12 m ρ c)
theorem k6_main_arg13 : W6 m ρ c (Proc.devRef .tc main_arg13) = (x13 m c) :=
  (W6_of_ne m ρ c main_arg13 (by decide)).trans (k5_main_arg13 m ρ c)
theorem k6_main_arg14 : W6 m ρ c (Proc.devRef .tc main_arg14) = (x14 m c) :=
  (W6_of_ne m ρ c main_arg14 (by decide)).trans (k5_main_arg14 m ρ c)
/-- The host's dot_general of this layer is the product. -/
theorem dot1_eq : (Cert.ReferenceIdeal.Read.val_main_v50 (F := Ideal) (x0 m c) (x1 m c) (x2 m c) (x3 m c) (x4 m c) (x5 m c)) = prod (Cert.ReferenceIdeal.Read.val_main_v49 (F := Ideal) (x0 m c) (x1 m c) (x2 m c) (x3 m c) (x4 m c)) (x5 m c) :=
  dotGeneral_eq_prod Cert.ReferenceIdeal.dot_S100000x128_S128x128_S100000x128_1_0_0_1_n_n rfl rfl Cert.ReferenceIdeal.Read.lhs_main_v50_0 Cert.ReferenceIdeal.Read.lhs_main_v50_1 Cert.ReferenceIdeal.Read.rhs_main_v50_0 Cert.ReferenceIdeal.Read.rhs_main_v50_1 none _ _

theorem v6_xw : W6 m ρ c (Proc.devRef .tc main_v46_0) = (Cert.ReferenceIdeal.Read.val_main_v50 (F := Ideal) (x0 m c) (x1 m c) (x2 m c) (x3 m c) (x4 m c) (x5 m c)) := by
  refine (W6_arr m ρ c 4).trans ((Cert.KernelIdeal.Dense2.final4 (V5 m ρ) c).trans ?_)
  show prod (W5 m ρ c (Proc.devRef .tc main_v44)) (W5 m ρ c (Proc.devRef .tc main_arg5)) = _
  rw [v5_h, k5_main_arg5, ← dot1_eq]

theorem v6_t : W6 m ρ c (Proc.devRef .tc main_v46_1) = own (Cert.ReferenceIdeal.Read.val_main_v50 (F := Ideal) (x0 m c) (x1 m c) (x2 m c) (x3 m c) (x4 m c) (x5 m c)) (shapeCast S100000x1 (Cert.ReferenceIdeal.Read.val_main_v26 (F := Ideal) (x2 m c)) shapeCasts_S100000_S100000x1) (shapeCast S1x128 (x6 m c) shapeCasts_S128_S1x128) := by
  refine (W6_arr m ρ c 5).trans ((Cert.KernelIdeal.Dense2.final5 (V5 m ρ) c).trans ?_)
  show own (prod (W5 m ρ c (Proc.devRef .tc main_v44)) (W5 m ρ c (Proc.devRef .tc main_arg5))) (W5 m ρ c (Proc.devRef .tc main_v27)) (W5 m ρ c (Proc.devRef .tc main_v45)) = _
  rw [v5_h, k5_main_arg5, k5_main_v27, v5_brow, ← dot1_eq]

/-! ## After the gather, the scaling by the edge factors and the scatter-add -/

theorem k7_main_v1 : W7 m ρ c (Proc.devRef .tc main_v1) = (Cert.ReferenceIdeal.Read.val_main_v1 (F := Ideal) (x2 m c)) := by
  show StableHlo.after hostOps3 (W6 m ρ c) (Proc.devRef .tc main_v1) = _
  after_results_simp
  exact k6_main_v1 m ρ c
theorem k7_main_v3 : W7 m ρ c (Proc.devRef .tc main_v3) = (Cert.ReferenceIdeal.Read.val_main_v3 (F := Ideal) (x2 m c)) := by
  show StableHlo.after hostOps3 (W6 m ρ c) (Proc.devRef .tc main_v3) = _
  after_results_simp
  exact k6_main_v3 m ρ c
theorem k7_main_v25 : W7 m ρ c (Proc.devRef .tc main_v25) = (Cert.ReferenceIdeal.Read.val_main_v25 (F := Ideal) (x2 m c)) := by
  show StableHlo.after hostOps3 (W6 m ρ c) (Proc.devRef .tc main_v25) = _
  after_results_simp
  exact k6_main_v25 m ρ c
theorem k7_main_v27 : W7 m ρ c (Proc.devRef .tc main_v27) = (shapeCast S100000x1 (Cert.ReferenceIdeal.Read.val_main_v26 (F := Ideal) (x2 m c)) shapeCasts_S100000_S100000x1) := by
  show StableHlo.after hostOps3 (W6 m ρ c) (Proc.devRef .tc main_v27) = _
  after_results_simp
  exact k6_main_v27 m ρ c
theorem k7_main_arg7 : W7 m ρ c (Proc.devRef .tc main_arg7) = (x7 m c) := by
  show StableHlo.after hostOps3 (W6 m ρ c) (Proc.devRef .tc main_arg7) = _
  after_results_simp
  exact k6_main_arg7 m ρ c
theorem k7_main_arg8 : W7 m ρ c (Proc.devRef .tc main_arg8) = (x8 m c) := by
  show StableHlo.after hostOps3 (W6 m ρ c) (Proc.devRef .tc main_arg8) = _
  after_results_simp
  exact k6_main_arg8 m ρ c
theorem k7_main_arg9 : W7 m ρ c (Proc.devRef .tc main_arg9) = (x9 m c) := by
  show StableHlo.after hostOps3 (W6 m ρ c) (Proc.devRef .tc main_arg9) = _
  after_results_simp
  exact k6_main_arg9 m ρ c
theorem k7_main_arg10 : W7 m ρ c (Proc.devRef .tc main_arg10) = (x10 m c) := by
  show StableHlo.after hostOps3 (W6 m ρ c) (Proc.devRef .tc main_arg10) = _
  after_results_simp
  exact k6_main_arg10 m ρ c
theorem k7_main_arg11 : W7 m ρ c (Proc.devRef .tc main_arg11) = (x11 m c) := by
  show StableHlo.after hostOps3 (W6 m ρ c) (Proc.devRef .tc main_arg11) = _
  after_results_simp
  exact k6_main_arg11 m ρ c
theorem k7_main_arg12 : W7 m ρ c (Proc.devRef .tc main_arg12) = (x12 m c) := by
  show StableHlo.after hostOps3 (W6 m ρ c) (Proc.devRef .tc main_arg12) = _
  after_results_simp
  exact k6_main_arg12 m ρ c
theorem k7_main_arg13 : W7 m ρ c (Proc.devRef .tc main_arg13) = (x13 m c) := by
  show StableHlo.after hostOps3 (W6 m ρ c) (Proc.devRef .tc main_arg13) = _
  after_results_simp
  exact k6_main_arg13 m ρ c
theorem k7_main_arg14 : W7 m ρ c (Proc.devRef .tc main_arg14) = (x14 m c) := by
  show StableHlo.after hostOps3 (W6 m ρ c) (Proc.devRef .tc main_arg14) = _
  after_results_simp
  exact k6_main_arg14 m ρ c
theorem k7_t : W7 m ρ c (Proc.devRef .tc main_v46_1) = own (Cert.ReferenceIdeal.Read.val_main_v50 (F := Ideal) (x0 m c) (x1 m c) (x2 m c) (x3 m c) (x4 m c) (x5 m c)) (shapeCast S100000x1 (Cert.ReferenceIdeal.Read.val_main_v26 (F := Ideal) (x2 m c)) shapeCasts_S100000_S100000x1) (shapeCast S1x128 (x6 m c) shapeCasts_S128_S1x128) := by
  show StableHlo.after hostOps3 (W6 m ρ c) (Proc.devRef .tc main_v46_1) = _
  after_results_simp
  exact v6_t m ρ c

theorem v7_agg : W7 m ρ c (Proc.devRef .tc main_v59) = (Cert.ReferenceIdeal.Read.val_main_v63 (F := Ideal) (x0 m c) (x1 m c) (x2 m c) (x3 m c) (x4 m c) (x5 m c)) := by
  show StableHlo.after hostOps3 (W6 m ρ c) (Proc.devRef .tc main_v59) = _
  after_results_simp
  rw [k6_main_v1, k6_main_v3, k6_main_v25, v6_xw]
  rfl

/-! ## After the combining region -/

theorem k8_main_v1 : W8 m ρ c (Proc.devRef .tc main_v1) = (Cert.ReferenceIdeal.Read.val_main_v1 (F := Ideal) (x2 m c)) :=
  (W8_of_ne m ρ c main_v1 (by decide)).trans (k7_main_v1 m ρ c)
theorem k8_main_v3 : W8 m ρ c (Proc.devRef .tc main_v3) = (Cert.ReferenceIdeal.Read.val_main_v3 (F := Ideal) (x2 m c)) :=
  (W8_of_ne m ρ c main_v3 (by decide)).trans (k7_main_v3 m ρ c)
theorem k8_main_v25 : W8 m ρ c (Proc.devRef .tc main_v25) = (Cert.ReferenceIdeal.Read.val_main_v25 (F := Ideal) (x2 m c)) :=
  (W8_of_ne m ρ c main_v25 (by decide)).trans (k7_main_v25 m ρ c)
theorem k8_main_v27 : W8 m ρ c (Proc.devRef .tc main_v27) = (shapeCast S100000x1 (Cert.ReferenceIdeal.Read.val_main_v26 (F := Ideal) (x2 m c)) shapeCasts_S100000_S100000x1) :=
  (W8_of_ne m ρ c main_v27 (by decide)).trans (k7_main_v27 m ρ c)
theorem k8_main_arg7 : W8 m ρ c (Proc.devRef .tc main_arg7) = (x7 m c) :=
  (W8_of_ne m ρ c main_arg7 (by decide)).trans (k7_main_arg7 m ρ c)
theorem k8_main_arg8 : W8 m ρ c (Proc.devRef .tc main_arg8) = (x8 m c) :=
  (W8_of_ne m ρ c main_arg8 (by decide)).trans (k7_main_arg8 m ρ c)
theorem k8_main_arg9 : W8 m ρ c (Proc.devRef .tc main_arg9) = (x9 m c) :=
  (W8_of_ne m ρ c main_arg9 (by decide)).trans (k7_main_arg9 m ρ c)
theorem k8_main_arg10 : W8 m ρ c (Proc.devRef .tc main_arg10) = (x10 m c) :=
  (W8_of_ne m ρ c main_arg10 (by decide)).trans (k7_main_arg10 m ρ c)
theorem k8_main_arg11 : W8 m ρ c (Proc.devRef .tc main_arg11) = (x11 m c) :=
  (W8_of_ne m ρ c main_arg11 (by decide)).trans (k7_main_arg11 m ρ c)
theorem k8_main_arg12 : W8 m ρ c (Proc.devRef .tc main_arg12) = (x12 m c) :=
  (W8_of_ne m ρ c main_arg12 (by decide)).trans (k7_main_arg12 m ρ c)
theorem k8_main_arg13 : W8 m ρ c (Proc.devRef .tc main_arg13) = (x13 m c) :=
  (W8_of_ne m ρ c main_arg13 (by decide)).trans (k7_main_arg13 m ρ c)
theorem k8_main_arg14 : W8 m ρ c (Proc.devRef .tc main_arg14) = (x14 m c) :=
  (W8_of_ne m ρ c main_arg14 (by decide)).trans (k7_main_arg14 m ρ c)
theorem v8_out : W8 m ρ c (Proc.devRef .tc main_v60) = (Cert.ReferenceIdeal.Read.val_main_v71 (F := Ideal) (x0 m c) (x1 m c) (x2 m c) (x3 m c) (x4 m c) (x5 m c) (x6 m c)) := by
  refine (W8_arr m ρ c 2).trans ((Cert.KernelIdeal.Combine3.final2 (V7 m ρ) c).trans ?_)
  show joinRelu (W7 m ρ c (Proc.devRef .tc main_v59)) (W7 m ρ c (Proc.devRef .tc main_v46_1)) = _
  rw [v7_agg, k7_t]
  unfold Cert.ReferenceIdeal.Read.val_main_v71 Cert.ReferenceIdeal.Read.val_main_v70 Cert.ReferenceIdeal.Read.val_main_v67 Cert.ReferenceIdeal.Read.val_main_v66 Cert.ReferenceIdeal.Read.val_main_v65 Cert.ReferenceIdeal.Read.val_main_v64 Cert.ReferenceIdeal.Read.val_main_v69 Cert.ReferenceIdeal.Read.val_main_v68 Cert.ReferenceIdeal.Read.val_main_call1_v0 Cert.ReferenceIdeal.Read.val_main_call1_cst
  exact (host_layerRelu (Cert.ReferenceIdeal.Read.val_main_v63 (F := Ideal) (x0 m c) (x1 m c) (x2 m c) (x3 m c) (x4 m c) (x5 m c)) (Cert.ReferenceIdeal.Read.val_main_v50 (F := Ideal) (x0 m c) (x1 m c) (x2 m c) (x3 m c) (x4 m c) (x5 m c)) (Cert.ReferenceIdeal.Read.val_main_v26 (F := Ideal) (x2 m c)) (x6 m c) _ _ _ _ _ _ _).symm

end Cert.KernelIdeal.Chain

end
-- ==== Proof.Chain2.lean ====
/-
  Layer 2 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense4
import proofs.«111918_j80633716015488_1_alg».proof.Proof.Combine5
import proofs.«111918_j80633716015488_1_alg».proof.Proof.Chain1

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## After the host operations before the dense region -/

theorem k9_main_v1 : W9 m ρ c (Proc.devRef .tc main_v1) = (Cert.ReferenceIdeal.Read.val_main_v1 (F := Ideal) (x2 m c)) := by
  show StableHlo.after hostOps4 (W8 m ρ c) (Proc.devRef .tc main_v1) = _
  after_results_simp
  exact k8_main_v1 m ρ c
theorem k9_main_v3 : W9 m ρ c (Proc.devRef .tc main_v3) = (Cert.ReferenceIdeal.Read.val_main_v3 (F := Ideal) (x2 m c)) := by
  show StableHlo.after hostOps4 (W8 m ρ c) (Proc.devRef .tc main_v3) = _
  after_results_simp
  exact k8_main_v3 m ρ c
theorem k9_main_v25 : W9 m ρ c (Proc.devRef .tc main_v25) = (Cert.ReferenceIdeal.Read.val_main_v25 (F := Ideal) (x2 m c)) := by
  show StableHlo.after hostOps4 (W8 m ρ c) (Proc.devRef .tc main_v25) = _
  after_results_simp
  exact k8_main_v25 m ρ c
theorem k9_main_v27 : W9 m ρ c (Proc.devRef .tc main_v27) = (shapeCast S100000x1 (Cert.ReferenceIdeal.Read.val_main_v26 (F := Ideal) (x2 m c)) shapeCasts_S100000_S100000x1) := by
  show StableHlo.after hostOps4 (W8 m ρ c) (Proc.devRef .tc main_v27) = _
  after_results_simp
  exact k8_main_v27 m ρ c
theorem k9_main_arg7 : W9 m ρ c (Proc.devRef .tc main_arg7) = (x7 m c) := by
  show StableHlo.after hostOps4 (W8 m ρ c) (Proc.devRef .tc main_arg7) = _
  after_results_simp
  exact k8_main_arg7 m ρ c
theorem k9_main_arg9 : W9 m ρ c (Proc.devRef .tc main_arg9) = (x9 m c) := by
  show StableHlo.after hostOps4 (W8 m ρ c) (Proc.devRef .tc main_arg9) = _
  after_results_simp
  exact k8_main_arg9 m ρ c
theorem k9_main_arg10 : W9 m ρ c (Proc.devRef .tc main_arg10) = (x10 m c) := by
  show StableHlo.after hostOps4 (W8 m ρ c) (Proc.devRef .tc main_arg10) = _
  after_results_simp
  exact k8_main_arg10 m ρ c
theorem k9_main_arg11 : W9 m ρ c (Proc.devRef .tc main_arg11) = (x11 m c) := by
  show StableHlo.after hostOps4 (W8 m ρ c) (Proc.devRef .tc main_arg11) = _
  after_results_simp
  exact k8_main_arg11 m ρ c
theorem k9_main_arg12 : W9 m ρ c (Proc.devRef .tc main_arg12) = (x12 m c) := by
  show StableHlo.after hostOps4 (W8 m ρ c) (Proc.devRef .tc main_arg12) = _
  after_results_simp
  exact k8_main_arg12 m ρ c
theorem k9_main_arg13 : W9 m ρ c (Proc.devRef .tc main_arg13) = (x13 m c) := by
  show StableHlo.after hostOps4 (W8 m ρ c) (Proc.devRef .tc main_arg13) = _
  after_results_simp
  exact k8_main_arg13 m ρ c
theorem k9_main_arg14 : W9 m ρ c (Proc.devRef .tc main_arg14) = (x14 m c) := by
  show StableHlo.after hostOps4 (W8 m ρ c) (Proc.devRef .tc main_arg14) = _
  after_results_simp
  exact k8_main_arg14 m ρ c
theorem v9_h : W9 m ρ c (Proc.devRef .tc main_v60) = (Cert.ReferenceIdeal.Read.val_main_v71 (F := Ideal) (x0 m c) (x1 m c) (x2 m c) (x3 m c) (x4 m c) (x5 m c) (x6 m c)) := by
  show StableHlo.after hostOps4 (W8 m ρ c) (Proc.devRef .tc main_v60) = _
  after_results_simp
  exact v8_out m ρ c
theorem v9_brow : W9 m ρ c (Proc.devRef .tc main_v61) = (shapeCast S1x128 (x8 m c) shapeCasts_S128_S1x128) := by
  show StableHlo.after hostOps4 (W8 m ρ c) (Proc.devRef .tc main_v61) = _
  after_results_simp
  rw [k8_main_arg8]
  rfl

/-! ## After the dense region -/

theorem k10_main_v1 : W10 m ρ c (Proc.devRef .tc main_v1) = (Cert.ReferenceIdeal.Read.val_main_v1 (F := Ideal) (x2 m c)) :=
  (W10_of_ne m ρ c main_v1 (by decide)).trans (k9_main_v1 m ρ c)
theorem k10_main_v3 : W10 m ρ c (Proc.devRef .tc main_v3) = (Cert.ReferenceIdeal.Read.val_main_v3 (F := Ideal) (x2 m c)) :=
  (W10_of_ne m ρ c main_v3 (by decide)).trans (k9_main_v3 m ρ c)
theorem k10_main_v25 : W10 m ρ c (Proc.devRef .tc main_v25) = (Cert.ReferenceIdeal.Read.val_main_v25 (F := Ideal) (x2 m c)) :=
  (W10_of_ne m ρ c main_v25 (by decide)).trans (k9_main_v25 m ρ c)
theorem k10_main_v27 : W10 m ρ c (Proc.devRef .tc main_v27) = (shapeCast S100000x1 (Cert.ReferenceIdeal.Read.val_main_v26 (F := Ideal) (x2 m c)) shapeCasts_S100000_S100000x1) :=
  (W10_arr m ρ c 3).trans (((dat4 (V9 m ρ) c).arrAt_in 3 rfl _).trans ((A_eq4 (V9 m ρ) c 3).trans (k9_main_v27 m ρ c)))
theorem k10_main_arg9 : W10 m ρ c (Proc.devRef .tc main_arg9) = (x9 m c) :=
  (W10_of_ne m ρ c main_arg9 (by decide)).trans (k9_main_arg9 m ρ c)
theorem k10_main_arg10 : W10 m ρ c (Proc.devRef .tc main_arg10) = (x10 m c) :=
  (W10_of_ne m ρ c main_arg10 (by decide)).trans (k9_main_arg10 m ρ c)
theorem k10_main_arg11 : W10 m ρ c (Proc.devRef .tc main_arg11) = (x11 m c) :=
  (W10_of_ne m ρ c main_arg11 (by decide)).trans (k9_main_arg11 m ρ c)
theorem k10_main_arg12 : W10 m ρ c (Proc.devRef .tc main_arg12) = (x12 m c) :=
  (W10_of_ne m ρ c main_arg12 (by decide)).trans (k9_main_arg12 m ρ c)
theorem k10_main_arg13 : W10 m ρ c (Proc.devRef .tc main_arg13) = (x13 m c) :=
  (W10_of_ne m ρ c main_arg13 (by decide)).trans (k9_main_arg13 m ρ c)
theorem k10_main_arg14 : W10 m ρ c (Proc.devRef .tc main_arg14) = (x14 m c) :=
  (W10_of_ne m ρ c main_arg14 (by decide)).trans (k9_main_arg14 m ρ c)
/-- The host's dot_general of this layer is the product. -/
theorem dot2_eq : (Cert.ReferenceIdeal.Read.val_main_v72 (F := Ideal) (x0 m c) (x1 m c) (x2 m c) (x3 m c) (x4 m c) (x5 m c) (x6 m c) (x7 m c)) = prod (Cert.ReferenceIdeal.Read.val_main_v71 (F := Ideal) (x0 m c) (x1 m c) (x2 m c) (x3 m c) (x4 m c) (x5 m c) (x6 m c)) (x7 m c) :=
  dotGeneral_eq_prod Cert.ReferenceIdeal.dot_S100000x128_S128x128_S100000x128_1_0_0_1_n_n rfl rfl Cert.ReferenceIdeal.Read.lhs_main_v72_0 Cert.ReferenceIdeal.Read.lhs_main_v72_1 Cert.ReferenceIdeal.Read.rhs_main_v72_0 Cert.ReferenceIdeal.Read.rhs_main_v72_1 none _ _

theorem v10_xw : W10 m ρ c (Proc.devRef .tc main_v62_0) = (Cert.ReferenceIdeal.Read.val_main_v72 (F := Ideal) (x0 m c) (x1 m c) (x2 m c) (x3 m c) (x4 m c) (x5 m c) (x6 m c) (x7 m c)) := by
  refine (W10_arr m ρ c 4).trans ((Cert.KernelIdeal.Dense4.final4 (V9 m ρ) c).trans ?_)
  show prod (W9 m ρ c (Proc.devRef .tc main_v60)) (W9 m ρ c (Proc.devRef .tc main_arg7)) = _
  rw [v9_h, k9_main_arg7, ← dot2_eq]

theorem v10_t : W10 m ρ c (Proc.devRef .tc main_v62_1) = own (Cert.ReferenceIdeal.Read.val_main_v72 (F := Ideal) (x0 m c) (x1 m c) (x2 m c) (x3 m c) (x4 m c) (x5 m c) (x6 m c) (x7 m c)) (shapeCast S100000x1 (Cert.ReferenceIdeal.Read.val_main_v26 (F := Ideal) (x2 m c)) shapeCasts_S100000_S100000x1) (shapeCast S1x128 (x8 m c) shapeCasts_S128_S1x128) := by
  refine (W10_arr m ρ c 5).trans ((Cert.KernelIdeal.Dense4.final5 (V9 m ρ) c).trans ?_)
  show own (prod (W9 m ρ c (Proc.devRef .tc main_v60)) (W9 m ρ c (Proc.devRef .tc main_arg7))) (W9 m ρ c (Proc.devRef .tc main_v27)) (W9 m ρ c (Proc.devRef .tc main_v61)) = _
  rw [v9_h, k9_main_arg7, k9_main_v27, v9_brow, ← dot2_eq]

/-! ## After the gather, the scaling by the edge factors and the scatter-add -/

theorem k11_main_v1 : W11 m ρ c (Proc.devRef .tc main_v1) = (Cert.ReferenceIdeal.Read.val_main_v1 (F := Ideal) (x2 m c)) := by
  show StableHlo.after hostOps5 (W10 m ρ c) (Proc.devRef .tc main_v1) = _
  after_results_simp
  exact k10_main_v1 m ρ c
theorem k11_main_v3 : W11 m ρ c (Proc.devRef .tc main_v3) = (Cert.ReferenceIdeal.Read.val_main_v3 (F := Ideal) (x2 m c)) := by
  show StableHlo.after hostOps5 (W10 m ρ c) (Proc.devRef .tc main_v3) = _
  after_results_simp
  exact k10_main_v3 m ρ c
theorem k11_main_v25 : W11 m ρ c (Proc.devRef .tc main_v25) = (Cert.ReferenceIdeal.Read.val_main_v25 (F := Ideal) (x2 m c)) := by
  show StableHlo.after hostOps5 (W10 m ρ c) (Proc.devRef .tc main_v25) = _
  after_results_simp
  exact k10_main_v25 m ρ c
theorem k11_main_v27 : W11 m ρ c (Proc.devRef .tc main_v27) = (shapeCast S100000x1 (Cert.ReferenceIdeal.Read.val_main_v26 (F := Ideal) (x2 m c)) shapeCasts_S100000_S100000x1) := by
  show StableHlo.after hostOps5 (W10 m ρ c) (Proc.devRef .tc main_v27) = _
  after_results_simp
  exact k10_main_v27 m ρ c
theorem k11_main_arg9 : W11 m ρ c (Proc.devRef .tc main_arg9) = (x9 m c) := by
  show StableHlo.after hostOps5 (W10 m ρ c) (Proc.devRef .tc main_arg9) = _
  after_results_simp
  exact k10_main_arg9 m ρ c
theorem k11_main_arg10 : W11 m ρ c (Proc.devRef .tc main_arg10) = (x10 m c) := by
  show StableHlo.after hostOps5 (W10 m ρ c) (Proc.devRef .tc main_arg10) = _
  after_results_simp
  exact k10_main_arg10 m ρ c
theorem k11_main_arg11 : W11 m ρ c (Proc.devRef .tc main_arg11) = (x11 m c) := by
  show StableHlo.after hostOps5 (W10 m ρ c) (Proc.devRef .tc main_arg11) = _
  after_results_simp
  exact k10_main_arg11 m ρ c
theorem k11_main_arg12 : W11 m ρ c (Proc.devRef .tc main_arg12) = (x12 m c) := by
  show StableHlo.after hostOps5 (W10 m ρ c) (Proc.devRef .tc main_arg12) = _
  after_results_simp
  exact k10_main_arg12 m ρ c
theorem k11_main_arg13 : W11 m ρ c (Proc.devRef .tc main_arg13) = (x13 m c) := by
  show StableHlo.after hostOps5 (W10 m ρ c) (Proc.devRef .tc main_arg13) = _
  after_results_simp
  exact k10_main_arg13 m ρ c
theorem k11_main_arg14 : W11 m ρ c (Proc.devRef .tc main_arg14) = (x14 m c) := by
  show StableHlo.after hostOps5 (W10 m ρ c) (Proc.devRef .tc main_arg14) = _
  after_results_simp
  exact k10_main_arg14 m ρ c
theorem k11_t : W11 m ρ c (Proc.devRef .tc main_v62_1) = own (Cert.ReferenceIdeal.Read.val_main_v72 (F := Ideal) (x0 m c) (x1 m c) (x2 m c) (x3 m c) (x4 m c) (x5 m c) (x6 m c) (x7 m c)) (shapeCast S100000x1 (Cert.ReferenceIdeal.Read.val_main_v26 (F := Ideal) (x2 m c)) shapeCasts_S100000_S100000x1) (shapeCast S1x128 (x8 m c) shapeCasts_S128_S1x128) := by
  show StableHlo.after hostOps5 (W10 m ρ c) (Proc.devRef .tc main_v62_1) = _
  after_results_simp
  exact v10_t m ρ c

theorem v11_agg : W11 m ρ c (Proc.devRef .tc main_v75) = (Cert.ReferenceIdeal.Read.val_main_v85 (F := Ideal) (x0 m c) (x1 m c) (x2 m c) (x3 m c) (x4 m c) (x5 m c) (x6 m c) (x7 m c)) := by
  show StableHlo.after hostOps5 (W10 m ρ c) (Proc.devRef .tc main_v75) = _
  after_results_simp
  rw [k10_main_v1, k10_main_v3, k10_main_v25, v10_xw]
  rfl

/-! ## After the combining region -/

theorem k12_main_v1 : W12 m ρ c (Proc.devRef .tc main_v1) = (Cert.ReferenceIdeal.Read.val_main_v1 (F := Ideal) (x2 m c)) :=
  (W12_of_ne m ρ c main_v1 (by decide)).trans (k11_main_v1 m ρ c)
theorem k12_main_v3 : W12 m ρ c (Proc.devRef .tc main_v3) = (Cert.ReferenceIdeal.Read.val_main_v3 (F := Ideal) (x2 m c)) :=
  (W12_of_ne m ρ c main_v3 (by decide)).trans (k11_main_v3 m ρ c)
theorem k12_main_v25 : W12 m ρ c (Proc.devRef .tc main_v25) = (Cert.ReferenceIdeal.Read.val_main_v25 (F := Ideal) (x2 m c)) :=
  (W12_of_ne m ρ c main_v25 (by decide)).trans (k11_main_v25 m ρ c)
theorem k12_main_v27 : W12 m ρ c (Proc.devRef .tc main_v27) = (shapeCast S100000x1 (Cert.ReferenceIdeal.Read.val_main_v26 (F := Ideal) (x2 m c)) shapeCasts_S100000_S100000x1) :=
  (W12_of_ne m ρ c main_v27 (by decide)).trans (k11_main_v27 m ρ c)
theorem k12_main_arg9 : W12 m ρ c (Proc.devRef .tc main_arg9) = (x9 m c) :=
  (W12_of_ne m ρ c main_arg9 (by decide)).trans (k11_main_arg9 m ρ c)
theorem k12_main_arg10 : W12 m ρ c (Proc.devRef .tc main_arg10) = (x10 m c) :=
  (W12_of_ne m ρ c main_arg10 (by decide)).trans (k11_main_arg10 m ρ c)
theorem k12_main_arg11 : W12 m ρ c (Proc.devRef .tc main_arg11) = (x11 m c) :=
  (W12_of_ne m ρ c main_arg11 (by decide)).trans (k11_main_arg11 m ρ c)
theorem k12_main_arg12 : W12 m ρ c (Proc.devRef .tc main_arg12) = (x12 m c) :=
  (W12_of_ne m ρ c main_arg12 (by decide)).trans (k11_main_arg12 m ρ c)
theorem k12_main_arg13 : W12 m ρ c (Proc.devRef .tc main_arg13) = (x13 m c) :=
  (W12_of_ne m ρ c main_arg13 (by decide)).trans (k11_main_arg13 m ρ c)
theorem k12_main_arg14 : W12 m ρ c (Proc.devRef .tc main_arg14) = (x14 m c) :=
  (W12_of_ne m ρ c main_arg14 (by decide)).trans (k11_main_arg14 m ρ c)
theorem v12_out : W12 m ρ c (Proc.devRef .tc main_v76) = (Cert.ReferenceIdeal.Read.val_main_v93 (F := Ideal) (x0 m c) (x1 m c) (x2 m c) (x3 m c) (x4 m c) (x5 m c) (x6 m c) (x7 m c) (x8 m c)) := by
  refine (W12_arr m ρ c 2).trans ((Cert.KernelIdeal.Combine5.final2 (V11 m ρ) c).trans ?_)
  show joinRelu (W11 m ρ c (Proc.devRef .tc main_v75)) (W11 m ρ c (Proc.devRef .tc main_v62_1)) = _
  rw [v11_agg, k11_t]
  unfold Cert.ReferenceIdeal.Read.val_main_v93 Cert.ReferenceIdeal.Read.val_main_v92 Cert.ReferenceIdeal.Read.val_main_v89 Cert.ReferenceIdeal.Read.val_main_v88 Cert.ReferenceIdeal.Read.val_main_v87 Cert.ReferenceIdeal.Read.val_main_v86 Cert.ReferenceIdeal.Read.val_main_v91 Cert.ReferenceIdeal.Read.val_main_v90 Cert.ReferenceIdeal.Read.val_main_call2_v0 Cert.ReferenceIdeal.Read.val_main_call2_cst
  exact (host_layerRelu (Cert.ReferenceIdeal.Read.val_main_v85 (F := Ideal) (x0 m c) (x1 m c) (x2 m c) (x3 m c) (x4 m c) (x5 m c) (x6 m c) (x7 m c)) (Cert.ReferenceIdeal.Read.val_main_v72 (F := Ideal) (x0 m c) (x1 m c) (x2 m c) (x3 m c) (x4 m c) (x5 m c) (x6 m c) (x7 m c)) (Cert.ReferenceIdeal.Read.val_main_v26 (F := Ideal) (x2 m c)) (x8 m c) _ _ _ _ _ _ _).symm

end Cert.KernelIdeal.Chain

end
-- ==== Proof.Chain3.lean ====
/-
  Layer 3 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense6
import proofs.«111918_j80633716015488_1_alg».proof.Proof.Combine7
import proofs.«111918_j80633716015488_1_alg».proof.Proof.Chain2

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## After the host operations before the dense region -/

theorem k13_main_v1 : W13 m ρ c (Proc.devRef .tc main_v1) = (Cert.ReferenceIdeal.Read.val_main_v1 (F := Ideal) (x2 m c)) := by
  show StableHlo.after hostOps6 (W12 m ρ c) (Proc.devRef .tc main_v1) = _
  after_results_simp
  exact k12_main_v1 m ρ c
theorem k13_main_v3 : W13 m ρ c (Proc.devRef .tc main_v3) = (Cert.ReferenceIdeal.Read.val_main_v3 (F := Ideal) (x2 m c)) := by
  show StableHlo.after hostOps6 (W12 m ρ c) (Proc.devRef .tc main_v3) = _
  after_results_simp
  exact k12_main_v3 m ρ c
theorem k13_main_v25 : W13 m ρ c (Proc.devRef .tc main_v25) = (Cert.ReferenceIdeal.Read.val_main_v25 (F := Ideal) (x2 m c)) := by
  show StableHlo.after hostOps6 (W12 m ρ c) (Proc.devRef .tc main_v25) = _
  after_results_simp
  exact k12_main_v25 m ρ c
theorem k13_main_v27 : W13 m ρ c (Proc.devRef .tc main_v27) = (shapeCast S100000x1 (Cert.ReferenceIdeal.Read.val_main_v26 (F := Ideal) (x2 m c)) shapeCasts_S100000_S100000x1) := by
  show StableHlo.after hostOps6 (W12 m ρ c) (Proc.devRef .tc main_v27) = _
  after_results_simp
  exact k12_main_v27 m ρ c
theorem k13_main_arg9 : W13 m ρ c (Proc.devRef .tc main_arg9) = (x9 m c) := by
  show StableHlo.after hostOps6 (W12 m ρ c) (Proc.devRef .tc main_arg9) = _
  after_results_simp
  exact k12_main_arg9 m ρ c
theorem k13_main_arg11 : W13 m ρ c (Proc.devRef .tc main_arg11) = (x11 m c) := by
  show StableHlo.after hostOps6 (W12 m ρ c) (Proc.devRef .tc main_arg11) = _
  after_results_simp
  exact k12_main_arg11 m ρ c
theorem k13_main_arg12 : W13 m ρ c (Proc.devRef .tc main_arg12) = (x12 m c) := by
  show StableHlo.after hostOps6 (W12 m ρ c) (Proc.devRef .tc main_arg12) = _
  after_results_simp
  exact k12_main_arg12 m ρ c
theorem k13_main_arg13 : W13 m ρ c (Proc.devRef .tc main_arg13) = (x13 m c) := by
  show StableHlo.after hostOps6 (W12 m ρ c) (Proc.devRef .tc main_arg13) = _
  after_results_simp
  exact k12_main_arg13 m ρ c
theorem k13_main_arg14 : W13 m ρ c (Proc.devRef .tc main_arg14) = (x14 m c) := by
  show StableHlo.after hostOps6 (W12 m ρ c) (Proc.devRef .tc main_arg14) = _
  after_results_simp
  exact k12_main_arg14 m ρ c
theorem v13_h : W13 m ρ c (Proc.devRef .tc main_v76) = (Cert.ReferenceIdeal.Read.val_main_v93 (F := Ideal) (x0 m c) (x1 m c) (x2 m c) (x3 m c) (x4 m c) (x5 m c) (x6 m c) (x7 m c) (x8 m c)) := by
  show StableHlo.after hostOps6 (W12 m ρ c) (Proc.devRef .tc main_v76) = _
  after_results_simp
  exact v12_out m ρ c
theorem v13_brow : W13 m ρ c (Proc.devRef .tc main_v77) = (shapeCast S1x128 (x10 m c) shapeCasts_S128_S1x128) := by
  show StableHlo.after hostOps6 (W12 m ρ c) (Proc.devRef .tc main_v77) = _
  after_results_simp
  rw [k12_main_arg10]
  rfl

/-! ## After the dense region -/

theorem k14_main_v1 : W14 m ρ c (Proc.devRef .tc main_v1) = (Cert.ReferenceIdeal.Read.val_main_v1 (F := Ideal) (x2 m c)) :=
  (W14_of_ne m ρ c main_v1 (by decide)).trans (k13_main_v1 m ρ c)
theorem k14_main_v3 : W14 m ρ c (Proc.devRef .tc main_v3) = (Cert.ReferenceIdeal.Read.val_main_v3 (F := Ideal) (x2 m c)) :=
  (W14_of_ne m ρ c main_v3 (by decide)).trans (k13_main_v3 m ρ c)
theorem k14_main_v25 : W14 m ρ c (Proc.devRef .tc main_v25) = (Cert.ReferenceIdeal.Read.val_main_v25 (F := Ideal) (x2 m c)) :=
  (W14_of_ne m ρ c main_v25 (by decide)).trans (k13_main_v25 m ρ c)
theorem k14_main_v27 : W14 m ρ c (Proc.devRef .tc main_v27) = (shapeCast S100000x1 (Cert.ReferenceIdeal.Read.val_main_v26 (F := Ideal) (x2 m c)) shapeCasts_S100000_S100000x1) :=
  (W14_arr m ρ c 3).trans (((dat6 (V13 m ρ) c).arrAt_in 3 rfl _).trans ((A_eq6 (V13 m ρ) c 3).trans (k13_main_v27 m ρ c)))
theorem k14_main_arg11 : W14 m ρ c (Proc.devRef .tc main_arg11) = (x11 m c) :=
  (W14_of_ne m ρ c main_arg11 (by decide)).trans (k13_main_arg11 m ρ c)
theorem k14_main_arg12 : W14 m ρ c (Proc.devRef .tc main_arg12) = (x12 m c) :=
  (W14_of_ne m ρ c main_arg12 (by decide)).trans (k13_main_arg12 m ρ c)
theorem k14_main_arg13 : W14 m ρ c (Proc.devRef .tc main_arg13) = (x13 m c) :=
  (W14_of_ne m ρ c main_arg13 (by decide)).trans (k13_main_arg13 m ρ c)
theorem k14_main_arg14 : W14 m ρ c (Proc.devRef .tc main_arg14) = (x14 m c) :=
  (W14_of_ne m ρ c main_arg14 (by decide)).trans (k13_main_arg14 m ρ c)
/-- The host's dot_general of this layer is the product. -/
theorem dot3_eq : (Cert.ReferenceIdeal.Read.val_main_v94 (F := Ideal) (x0 m c) (x1 m c) (x2 m c) (x3 m c) (x4 m c) (x5 m c) (x6 m c) (x7 m c) (x8 m c) (x9 m c)) = prod (Cert.ReferenceIdeal.Read.val_main_v93 (F := Ideal) (x0 m c) (x1 m c) (x2 m c) (x3 m c) (x4 m c) (x5 m c) (x6 m c) (x7 m c) (x8 m c)) (x9 m c) :=
  dotGeneral_eq_prod Cert.ReferenceIdeal.dot_S100000x128_S128x128_S100000x128_1_0_0_1_n_n rfl rfl Cert.ReferenceIdeal.Read.lhs_main_v94_0 Cert.ReferenceIdeal.Read.lhs_main_v94_1 Cert.ReferenceIdeal.Read.rhs_main_v94_0 Cert.ReferenceIdeal.Read.rhs_main_v94_1 none _ _

theorem v14_xw : W14 m ρ c (Proc.devRef .tc main_v78_0) = (Cert.ReferenceIdeal.Read.val_main_v94 (F := Ideal) (x0 m c) (x1 m c) (x2 m c) (x3 m c) (x4 m c) (x5 m c) (x6 m c) (x7 m c) (x8 m c) (x9 m c)) := by
  refine (W14_arr m ρ c 4).trans ((Cert.KernelIdeal.Dense6.final4 (V13 m ρ) c).trans ?_)
  show prod (W13 m ρ c (Proc.devRef .tc main_v76)) (W13 m ρ c (Proc.devRef .tc main_arg9)) = _
  rw [v13_h, k13_main_arg9, ← dot3_eq]

theorem v14_t : W14 m ρ c (Proc.devRef .tc main_v78_1) = own (Cert.ReferenceIdeal.Read.val_main_v94 (F := Ideal) (x0 m c) (x1 m c) (x2 m c) (x3 m c) (x4 m c) (x5 m c) (x6 m c) (x7 m c) (x8 m c) (x9 m c)) (shapeCast S100000x1 (Cert.ReferenceIdeal.Read.val_main_v26 (F := Ideal) (x2 m c)) shapeCasts_S100000_S100000x1) (shapeCast S1x128 (x10 m c) shapeCasts_S128_S1x128) := by
  refine (W14_arr m ρ c 5).trans ((Cert.KernelIdeal.Dense6.final5 (V13 m ρ) c).trans ?_)
  show own (prod (W13 m ρ c (Proc.devRef .tc main_v76)) (W13 m ρ c (Proc.devRef .tc main_arg9))) (W13 m ρ c (Proc.devRef .tc main_v27)) (W13 m ρ c (Proc.devRef .tc main_v77)) = _
  rw [v13_h, k13_main_arg9, k13_main_v27, v13_brow, ← dot3_eq]

/-! ## After the gather, the scaling by the edge factors and the scatter-add -/

theorem k15_main_v1 : W15 m ρ c (Proc.devRef .tc main_v1) = (Cert.ReferenceIdeal.Read.val_main_v1 (F := Ideal) (x2 m c)) := by
  show StableHlo.after hostOps7 (W14 m ρ c) (Proc.devRef .tc main_v1) = _
  after_results_simp
  exact k14_main_v1 m ρ c
theorem k15_main_v3 : W15 m ρ c (Proc.devRef .tc main_v3) = (Cert.ReferenceIdeal.Read.val_main_v3 (F := Ideal) (x2 m c)) := by
  show StableHlo.after hostOps7 (W14 m ρ c) (Proc.devRef .tc main_v3) = _
  after_results_simp
  exact k14_main_v3 m ρ c
theorem k15_main_v25 : W15 m ρ c (Proc.devRef .tc main_v25) = (Cert.ReferenceIdeal.Read.val_main_v25 (F := Ideal) (x2 m c)) := by
  show StableHlo.after hostOps7 (W14 m ρ c) (Proc.devRef .tc main_v25) = _
  after_results_simp
  exact k14_main_v25 m ρ c
theorem k15_main_v27 : W15 m ρ c (Proc.devRef .tc main_v27) = (shapeCast S100000x1 (Cert.ReferenceIdeal.Read.val_main_v26 (F := Ideal) (x2 m c)) shapeCasts_S100000_S100000x1) := by
  show StableHlo.after hostOps7 (W14 m ρ c) (Proc.devRef .tc main_v27) = _
  after_results_simp
  exact k14_main_v27 m ρ c
theorem k15_main_arg11 : W15 m ρ c (Proc.devRef .tc main_arg11) = (x11 m c) := by
  show StableHlo.after hostOps7 (W14 m ρ c) (Proc.devRef .tc main_arg11) = _
  after_results_simp
  exact k14_main_arg11 m ρ c
theorem k15_main_arg12 : W15 m ρ c (Proc.devRef .tc main_arg12) = (x12 m c) := by
  show StableHlo.after hostOps7 (W14 m ρ c) (Proc.devRef .tc main_arg12) = _
  after_results_simp
  exact k14_main_arg12 m ρ c
theorem k15_main_arg13 : W15 m ρ c (Proc.devRef .tc main_arg13) = (x13 m c) := by
  show StableHlo.after hostOps7 (W14 m ρ c) (Proc.devRef .tc main_arg13) = _
  after_results_simp
  exact k14_main_arg13 m ρ c
theorem k15_main_arg14 : W15 m ρ c (Proc.devRef .tc main_arg14) = (x14 m c) := by
  show StableHlo.after hostOps7 (W14 m ρ c) (Proc.devRef .tc main_arg14) = _
  after_results_simp
  exact k14_main_arg14 m ρ c
theorem k15_t : W15 m ρ c (Proc.devRef .tc main_v78_1) = own (Cert.ReferenceIdeal.Read.val_main_v94 (F := Ideal) (x0 m c) (x1 m c) (x2 m c) (x3 m c) (x4 m c) (x5 m c) (x6 m c) (x7 m c) (x8 m c) (x9 m c)) (shapeCast S100000x1 (Cert.ReferenceIdeal.Read.val_main_v26 (F := Ideal) (x2 m c)) shapeCasts_S100000_S100000x1) (shapeCast S1x128 (x10 m c) shapeCasts_S128_S1x128) := by
  show StableHlo.after hostOps7 (W14 m ρ c) (Proc.devRef .tc main_v78_1) = _
  after_results_simp
  exact v14_t m ρ c

theorem v15_agg : W15 m ρ c (Proc.devRef .tc main_v91) = (Cert.ReferenceIdeal.Read.val_main_v107 (F := Ideal) (x0 m c) (x1 m c) (x2 m c) (x3 m c) (x4 m c) (x5 m c) (x6 m c) (x7 m c) (x8 m c) (x9 m c)) := by
  show StableHlo.after hostOps7 (W14 m ρ c) (Proc.devRef .tc main_v91) = _
  after_results_simp
  rw [k14_main_v1, k14_main_v3, k14_main_v25, v14_xw]
  rfl

/-! ## After the combining region -/

theorem k16_main_v1 : W16 m ρ c (Proc.devRef .tc main_v1) = (Cert.ReferenceIdeal.Read.val_main_v1 (F := Ideal) (x2 m c)) :=
  (W16_of_ne m ρ c main_v1 (by decide)).trans (k15_main_v1 m ρ c)
theorem k16_main_v3 : W16 m ρ c (Proc.devRef .tc main_v3) = (Cert.ReferenceIdeal.Read.val_main_v3 (F := Ideal) (x2 m c)) :=
  (W16_of_ne m ρ c main_v3 (by decide)).trans (k15_main_v3 m ρ c)
theorem k16_main_v25 : W16 m ρ c (Proc.devRef .tc main_v25) = (Cert.ReferenceIdeal.Read.val_main_v25 (F := Ideal) (x2 m c)) :=
  (W16_of_ne m ρ c main_v25 (by decide)).trans (k15_main_v25 m ρ c)
theorem k16_main_v27 : W16 m ρ c (Proc.devRef .tc main_v27) = (shapeCast S100000x1 (Cert.ReferenceIdeal.Read.val_main_v26 (F := Ideal) (x2 m c)) shapeCasts_S100000_S100000x1) :=
  (W16_of_ne m ρ c main_v27 (by decide)).trans (k15_main_v27 m ρ c)
theorem k16_main_arg11 : W16 m ρ c (Proc.devRef .tc main_arg11) = (x11 m c) :=
  (W16_of_ne m ρ c main_arg11 (by decide)).trans (k15_main_arg11 m ρ c)
theorem k16_main_arg12 : W16 m ρ c (Proc.devRef .tc main_arg12) = (x12 m c) :=
  (W16_of_ne m ρ c main_arg12 (by decide)).trans (k15_main_arg12 m ρ c)
theorem k16_main_arg13 : W16 m ρ c (Proc.devRef .tc main_arg13) = (x13 m c) :=
  (W16_of_ne m ρ c main_arg13 (by decide)).trans (k15_main_arg13 m ρ c)
theorem k16_main_arg14 : W16 m ρ c (Proc.devRef .tc main_arg14) = (x14 m c) :=
  (W16_of_ne m ρ c main_arg14 (by decide)).trans (k15_main_arg14 m ρ c)
theorem v16_out : W16 m ρ c (Proc.devRef .tc main_v92) = (Cert.ReferenceIdeal.Read.val_main_v115 (F := Ideal) (x0 m c) (x1 m c) (x2 m c) (x3 m c) (x4 m c) (x5 m c) (x6 m c) (x7 m c) (x8 m c) (x9 m c) (x10 m c)) := by
  refine (W16_arr m ρ c 2).trans ((Cert.KernelIdeal.Combine7.final2 (V15 m ρ) c).trans ?_)
  show joinRelu (W15 m ρ c (Proc.devRef .tc main_v91)) (W15 m ρ c (Proc.devRef .tc main_v78_1)) = _
  rw [v15_agg, k15_t]
  unfold Cert.ReferenceIdeal.Read.val_main_v115 Cert.ReferenceIdeal.Read.val_main_v114 Cert.ReferenceIdeal.Read.val_main_v111 Cert.ReferenceIdeal.Read.val_main_v110 Cert.ReferenceIdeal.Read.val_main_v109 Cert.ReferenceIdeal.Read.val_main_v108 Cert.ReferenceIdeal.Read.val_main_v113 Cert.ReferenceIdeal.Read.val_main_v112 Cert.ReferenceIdeal.Read.val_main_call3_v0 Cert.ReferenceIdeal.Read.val_main_call3_cst
  exact (host_layerRelu (Cert.ReferenceIdeal.Read.val_main_v107 (F := Ideal) (x0 m c) (x1 m c) (x2 m c) (x3 m c) (x4 m c) (x5 m c) (x6 m c) (x7 m c) (x8 m c) (x9 m c)) (Cert.ReferenceIdeal.Read.val_main_v94 (F := Ideal) (x0 m c) (x1 m c) (x2 m c) (x3 m c) (x4 m c) (x5 m c) (x6 m c) (x7 m c) (x8 m c) (x9 m c)) (Cert.ReferenceIdeal.Read.val_main_v26 (F := Ideal) (x2 m c)) (x10 m c) _ _ _ _ _ _ _).symm

end Cert.KernelIdeal.Chain

end
-- ==== Proof.Chain4.lean ====
/-
  Layer 4 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense8
import proofs.«111918_j80633716015488_1_alg».proof.Proof.Combine9
import proofs.«111918_j80633716015488_1_alg».proof.Proof.Chain3

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## After the host operations before the dense region -/

theorem k17_main_v1 : W17 m ρ c (Proc.devRef .tc main_v1) = (Cert.ReferenceIdeal.Read.val_main_v1 (F := Ideal) (x2 m c)) := by
  show StableHlo.after hostOps8 (W16 m ρ c) (Proc.devRef .tc main_v1) = _
  after_results_simp
  exact k16_main_v1 m ρ c
theorem k17_main_v3 : W17 m ρ c (Proc.devRef .tc main_v3) = (Cert.ReferenceIdeal.Read.val_main_v3 (F := Ideal) (x2 m c)) := by
  show StableHlo.after hostOps8 (W16 m ρ c) (Proc.devRef .tc main_v3) = _
  after_results_simp
  exact k16_main_v3 m ρ c
theorem k17_main_v25 : W17 m ρ c (Proc.devRef .tc main_v25) = (Cert.ReferenceIdeal.Read.val_main_v25 (F := Ideal) (x2 m c)) := by
  show StableHlo.after hostOps8 (W16 m ρ c) (Proc.devRef .tc main_v25) = _
  after_results_simp
  exact k16_main_v25 m ρ c
theorem k17_main_v27 : W17 m ρ c (Proc.devRef .tc main_v27) = (shapeCast S100000x1 (Cert.ReferenceIdeal.Read.val_main_v26 (F := Ideal) (x2 m c)) shapeCasts_S100000_S100000x1) := by
  show StableHlo.after hostOps8 (W16 m ρ c) (Proc.devRef .tc main_v27) = _
  after_results_simp
  exact k16_main_v27 m ρ c
theorem k17_main_arg11 : W17 m ρ c (Proc.devRef .tc main_arg11) = (x11 m c) := by
  show StableHlo.after hostOps8 (W16 m ρ c) (Proc.devRef .tc main_arg11) = _
  after_results_simp
  exact k16_main_arg11 m ρ c
theorem k17_main_arg13 : W17 m ρ c (Proc.devRef .tc main_arg13) = (x13 m c) := by
  show StableHlo.after hostOps8 (W16 m ρ c) (Proc.devRef .tc main_arg13) = _
  after_results_simp
  exact k16_main_arg13 m ρ c
theorem k17_main_arg14 : W17 m ρ c (Proc.devRef .tc main_arg14) = (x14 m c) := by
  show StableHlo.after hostOps8 (W16 m ρ c) (Proc.devRef .tc main_arg14) = _
  after_results_simp
  exact k16_main_arg14 m ρ c
theorem v17_h : W17 m ρ c (Proc.devRef .tc main_v92) = (Cert.ReferenceIdeal.Read.val_main_v115 (F := Ideal) (x0 m c) (x1 m c) (x2 m c) (x3 m c) (x4 m c) (x5 m c) (x6 m c) (x7 m c) (x8 m c) (x9 m c) (x10 m c)) := by
  show StableHlo.after hostOps8 (W16 m ρ c) (Proc.devRef .tc main_v92) = _
  after_results_simp
  exact v16_out m ρ c
theorem v17_brow : W17 m ρ c (Proc.devRef .tc main_v93) = (shapeCast S1x128 (x12 m c) shapeCasts_S128_S1x128) := by
  show StableHlo.after hostOps8 (W16 m ρ c) (Proc.devRef .tc main_v93) = _
  after_results_simp
  rw [k16_main_arg12]
  rfl

/-! ## After the dense region -/

theorem k18_main_v1 : W18 m ρ c (Proc.devRef .tc main_v1) = (Cert.ReferenceIdeal.Read.val_main_v1 (F := Ideal) (x2 m c)) :=
  (W18_of_ne m ρ c main_v1 (by decide)).trans (k17_main_v1 m ρ c)
theorem k18_main_v3 : W18 m ρ c (Proc.devRef .tc main_v3) = (Cert.ReferenceIdeal.Read.val_main_v3 (F := Ideal) (x2 m c)) :=
  (W18_of_ne m ρ c main_v3 (by decide)).trans (k17_main_v3 m ρ c)
theorem k18_main_v25 : W18 m ρ c (Proc.devRef .tc main_v25) = (Cert.ReferenceIdeal.Read.val_main_v25 (F := Ideal) (x2 m c)) :=
  (W18_of_ne m ρ c main_v25 (by decide)).trans (k17_main_v25 m ρ c)
theorem k18_main_v27 : W18 m ρ c (Proc.devRef .tc main_v27) = (shapeCast S100000x1 (Cert.ReferenceIdeal.Read.val_main_v26 (F := Ideal) (x2 m c)) shapeCasts_S100000_S100000x1) :=
  (W18_arr m ρ c 3).trans (((dat8 (V17 m ρ) c).arrAt_in 3 rfl _).trans ((A_eq8 (V17 m ρ) c 3).trans (k17_main_v27 m ρ c)))
theorem k18_main_arg13 : W18 m ρ c (Proc.devRef .tc main_arg13) = (x13 m c) :=
  (W18_of_ne m ρ c main_arg13 (by decide)).trans (k17_main_arg13 m ρ c)
theorem k18_main_arg14 : W18 m ρ c (Proc.devRef .tc main_arg14) = (x14 m c) :=
  (W18_of_ne m ρ c main_arg14 (by decide)).trans (k17_main_arg14 m ρ c)
/-- The host's dot_general of this layer is the product. -/
theorem dot4_eq : (Cert.ReferenceIdeal.Read.val_main_v116 (F := Ideal) (x0 m c) (x1 m c) (x2 m c) (x3 m c) (x4 m c) (x5 m c) (x6 m c) (x7 m c) (x8 m c) (x9 m c) (x10 m c) (x11 m c)) = prod (Cert.ReferenceIdeal.Read.val_main_v115 (F := Ideal) (x0 m c) (x1 m c) (x2 m c) (x3 m c) (x4 m c) (x5 m c) (x6 m c) (x7 m c) (x8 m c) (x9 m c) (x10 m c)) (x11 m c) :=
  dotGeneral_eq_prod Cert.ReferenceIdeal.dot_S100000x128_S128x128_S100000x128_1_0_0_1_n_n rfl rfl Cert.ReferenceIdeal.Read.lhs_main_v116_0 Cert.ReferenceIdeal.Read.lhs_main_v116_1 Cert.ReferenceIdeal.Read.rhs_main_v116_0 Cert.ReferenceIdeal.Read.rhs_main_v116_1 none _ _

theorem v18_xw : W18 m ρ c (Proc.devRef .tc main_v94_0) = (Cert.ReferenceIdeal.Read.val_main_v116 (F := Ideal) (x0 m c) (x1 m c) (x2 m c) (x3 m c) (x4 m c) (x5 m c) (x6 m c) (x7 m c) (x8 m c) (x9 m c) (x10 m c) (x11 m c)) := by
  refine (W18_arr m ρ c 4).trans ((Cert.KernelIdeal.Dense8.final4 (V17 m ρ) c).trans ?_)
  show prod (W17 m ρ c (Proc.devRef .tc main_v92)) (W17 m ρ c (Proc.devRef .tc main_arg11)) = _
  rw [v17_h, k17_main_arg11, ← dot4_eq]

theorem v18_t : W18 m ρ c (Proc.devRef .tc main_v94_1) = own (Cert.ReferenceIdeal.Read.val_main_v116 (F := Ideal) (x0 m c) (x1 m c) (x2 m c) (x3 m c) (x4 m c) (x5 m c) (x6 m c) (x7 m c) (x8 m c) (x9 m c) (x10 m c) (x11 m c)) (shapeCast S100000x1 (Cert.ReferenceIdeal.Read.val_main_v26 (F := Ideal) (x2 m c)) shapeCasts_S100000_S100000x1) (shapeCast S1x128 (x12 m c) shapeCasts_S128_S1x128) := by
  refine (W18_arr m ρ c 5).trans ((Cert.KernelIdeal.Dense8.final5 (V17 m ρ) c).trans ?_)
  show own (prod (W17 m ρ c (Proc.devRef .tc main_v92)) (W17 m ρ c (Proc.devRef .tc main_arg11))) (W17 m ρ c (Proc.devRef .tc main_v27)) (W17 m ρ c (Proc.devRef .tc main_v93)) = _
  rw [v17_h, k17_main_arg11, k17_main_v27, v17_brow, ← dot4_eq]

/-! ## After the gather, the scaling by the edge factors and the scatter-add -/

theorem k19_main_v1 : W19 m ρ c (Proc.devRef .tc main_v1) = (Cert.ReferenceIdeal.Read.val_main_v1 (F := Ideal) (x2 m c)) := by
  show StableHlo.after hostOps9 (W18 m ρ c) (Proc.devRef .tc main_v1) = _
  after_results_simp
  exact k18_main_v1 m ρ c
theorem k19_main_v3 : W19 m ρ c (Proc.devRef .tc main_v3) = (Cert.ReferenceIdeal.Read.val_main_v3 (F := Ideal) (x2 m c)) := by
  show StableHlo.after hostOps9 (W18 m ρ c) (Proc.devRef .tc main_v3) = _
  after_results_simp
  exact k18_main_v3 m ρ c
theorem k19_main_v25 : W19 m ρ c (Proc.devRef .tc main_v25) = (Cert.ReferenceIdeal.Read.val_main_v25 (F := Ideal) (x2 m c)) := by
  show StableHlo.after hostOps9 (W18 m ρ c) (Proc.devRef .tc main_v25) = _
  after_results_simp
  exact k18_main_v25 m ρ c
theorem k19_main_v27 : W19 m ρ c (Proc.devRef .tc main_v27) = (shapeCast S100000x1 (Cert.ReferenceIdeal.Read.val_main_v26 (F := Ideal) (x2 m c)) shapeCasts_S100000_S100000x1) := by
  show StableHlo.after hostOps9 (W18 m ρ c) (Proc.devRef .tc main_v27) = _
  after_results_simp
  exact k18_main_v27 m ρ c
theorem k19_main_arg13 : W19 m ρ c (Proc.devRef .tc main_arg13) = (x13 m c) := by
  show StableHlo.after hostOps9 (W18 m ρ c) (Proc.devRef .tc main_arg13) = _
  after_results_simp
  exact k18_main_arg13 m ρ c
theorem k19_main_arg14 : W19 m ρ c (Proc.devRef .tc main_arg14) = (x14 m c) := by
  show StableHlo.after hostOps9 (W18 m ρ c) (Proc.devRef .tc main_arg14) = _
  after_results_simp
  exact k18_main_arg14 m ρ c
theorem k19_t : W19 m ρ c (Proc.devRef .tc main_v94_1) = own (Cert.ReferenceIdeal.Read.val_main_v116 (F := Ideal) (x0 m c) (x1 m c) (x2 m c) (x3 m c) (x4 m c) (x5 m c) (x6 m c) (x7 m c) (x8 m c) (x9 m c) (x10 m c) (x11 m c)) (shapeCast S100000x1 (Cert.ReferenceIdeal.Read.val_main_v26 (F := Ideal) (x2 m c)) shapeCasts_S100000_S100000x1) (shapeCast S1x128 (x12 m c) shapeCasts_S128_S1x128) := by
  show StableHlo.after hostOps9 (W18 m ρ c) (Proc.devRef .tc main_v94_1) = _
  after_results_simp
  exact v18_t m ρ c

theorem v19_agg : W19 m ρ c (Proc.devRef .tc main_v107) = (Cert.ReferenceIdeal.Read.val_main_v129 (F := Ideal) (x0 m c) (x1 m c) (x2 m c) (x3 m c) (x4 m c) (x5 m c) (x6 m c) (x7 m c) (x8 m c) (x9 m c) (x10 m c) (x11 m c)) := by
  show StableHlo.after hostOps9 (W18 m ρ c) (Proc.devRef .tc main_v107) = _
  after_results_simp
  rw [k18_main_v1, k18_main_v3, k18_main_v25, v18_xw]
  rfl

/-! ## After the combining region -/

theorem k20_main_v1 : W20 m ρ c (Proc.devRef .tc main_v1) = (Cert.ReferenceIdeal.Read.val_main_v1 (F := Ideal) (x2 m c)) :=
  (W20_of_ne m ρ c main_v1 (by decide)).trans (k19_main_v1 m ρ c)
theorem k20_main_v3 : W20 m ρ c (Proc.devRef .tc main_v3) = (Cert.ReferenceIdeal.Read.val_main_v3 (F := Ideal) (x2 m c)) :=
  (W20_of_ne m ρ c main_v3 (by decide)).trans (k19_main_v3 m ρ c)
theorem k20_main_v25 : W20 m ρ c (Proc.devRef .tc main_v25) = (Cert.ReferenceIdeal.Read.val_main_v25 (F := Ideal) (x2 m c)) :=
  (W20_of_ne m ρ c main_v25 (by decide)).trans (k19_main_v25 m ρ c)
theorem k20_main_v27 : W20 m ρ c (Proc.devRef .tc main_v27) = (shapeCast S100000x1 (Cert.ReferenceIdeal.Read.val_main_v26 (F := Ideal) (x2 m c)) shapeCasts_S100000_S100000x1) :=
  (W20_of_ne m ρ c main_v27 (by decide)).trans (k19_main_v27 m ρ c)
theorem k20_main_arg13 : W20 m ρ c (Proc.devRef .tc main_arg13) = (x13 m c) :=
  (W20_of_ne m ρ c main_arg13 (by decide)).trans (k19_main_arg13 m ρ c)
theorem k20_main_arg14 : W20 m ρ c (Proc.devRef .tc main_arg14) = (x14 m c) :=
  (W20_of_ne m ρ c main_arg14 (by decide)).trans (k19_main_arg14 m ρ c)
theorem v20_out : W20 m ρ c (Proc.devRef .tc main_v108) = (Cert.ReferenceIdeal.Read.val_main_v137 (F := Ideal) (x0 m c) (x1 m c) (x2 m c) (x3 m c) (x4 m c) (x5 m c) (x6 m c) (x7 m c) (x8 m c) (x9 m c) (x10 m c) (x11 m c) (x12 m c)) := by
  refine (W20_arr m ρ c 2).trans ((Cert.KernelIdeal.Combine9.final2 (V19 m ρ) c).trans ?_)
  show joinRelu (W19 m ρ c (Proc.devRef .tc main_v107)) (W19 m ρ c (Proc.devRef .tc main_v94_1)) = _
  rw [v19_agg, k19_t]
  unfold Cert.ReferenceIdeal.Read.val_main_v137 Cert.ReferenceIdeal.Read.val_main_v136 Cert.ReferenceIdeal.Read.val_main_v133 Cert.ReferenceIdeal.Read.val_main_v132 Cert.ReferenceIdeal.Read.val_main_v131 Cert.ReferenceIdeal.Read.val_main_v130 Cert.ReferenceIdeal.Read.val_main_v135 Cert.ReferenceIdeal.Read.val_main_v134 Cert.ReferenceIdeal.Read.val_main_call4_v0 Cert.ReferenceIdeal.Read.val_main_call4_cst
  exact (host_layerRelu (Cert.ReferenceIdeal.Read.val_main_v129 (F := Ideal) (x0 m c) (x1 m c) (x2 m c) (x3 m c) (x4 m c) (x5 m c) (x6 m c) (x7 m c) (x8 m c) (x9 m c) (x10 m c) (x11 m c)) (Cert.ReferenceIdeal.Read.val_main_v116 (F := Ideal) (x0 m c) (x1 m c) (x2 m c) (x3 m c) (x4 m c) (x5 m c) (x6 m c) (x7 m c) (x8 m c) (x9 m c) (x10 m c) (x11 m c)) (Cert.ReferenceIdeal.Read.val_main_v26 (F := Ideal) (x2 m c)) (x12 m c) _ _ _ _ _ _ _).symm

end Cert.KernelIdeal.Chain

end
-- ==== Proof.Chain5.lean ====
/-
  Layer 5 of the network in the kernel program, followed through the program's boundaries.  Writing x0 … x14 for the
  argument arrays at launch, this module reads the buffers the later steps need at the four boundaries of the layer —
  after the host operations before its dense region, after the dense region, after the host's gather / scale /
  scatter-add, after the combining region — as the SAME terms of the arguments that the reference program computes
  (its stages, one per host operation).  The dense region leaves the product h·W (which on the extended reals is the
  host's dot_general: both are the sum over k of h (p, k) · W (k, j)) and the node's own term; the host operations
  between the regions are, operation by operation, those of the reference; and the combining region's
  agg + (xw·s + b) is the reference's (agg + xw·s) + b because addition on the extended reals is associative.
  Buffers no step of the layer writes keep their contents.
-/
import proofs.«111918_j80633716015488_1_alg».proof.Proof.Dense10
import proofs.«111918_j80633716015488_1_alg».proof.Proof.Combine11
import proofs.«111918_j80633716015488_1_alg».proof.Proof.Chain4

set_option maxRecDepth 16384
set_option maxHeartbeats 2000000

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo Cert.Dense Cert.RowBlocks Cert.GcnTail

variable (m : (ℓ : Loc nD τ sig) → Buf (Elt Ideal) ℓ) (ρ : Dev nD → PrngReg) (c : Dev nD)

/-! ## After the host operations before the dense region -/

theorem k21_main_v1 : W21 m ρ c (Proc.devRef .tc main_v1) = (Cert.ReferenceIdeal.Read.val_main_v1 (F := Ideal) (x2 m c)) := by
  show StableHlo.after hostOps10 (W20 m ρ c) (Proc.devRef .tc main_v1) = _
  after_results_simp
  exact k20_main_v1 m ρ c
theorem k21_main_v3 : W21 m ρ c (Proc.devRef .tc main_v3) = (Cert.ReferenceIdeal.Read.val_main_v3 (F := Ideal) (x2 m c)) := by
  show StableHlo.after hostOps10 (W20 m ρ c) (Proc.devRef .tc main_v3) = _
  after_results_simp
  exact k20_main_v3 m ρ c
theorem k21_main_v25 : W21 m ρ c (Proc.devRef .tc main_v25) = (Cert.ReferenceIdeal.Read.val_main_v25 (F := Ideal) (x2 m c)) := by
  show StableHlo.after hostOps10 (W20 m ρ c) (Proc.devRef .tc main_v25) = _
  after_results_simp
  exact k20_main_v25 m ρ c
theorem k21_main_v27 : W21 m ρ c (Proc.devRef .tc main_v27) = (shapeCast S100000x1 (Cert.ReferenceIdeal.Read.val_main_v26 (F := Ideal) (x2 m c)) shapeCasts_S100000_S100000x1) := by
  show StableHlo.after hostOps10 (W20 m ρ c) (Proc.devRef .tc main_v27) = _
  after_results_simp
  exact k20_main_v27 m ρ c
theorem k21_main_arg13 : W21 m ρ c (Proc.devRef .tc main_arg13) = (x13 m c) := by
  show StableHlo.after hostOps10 (W20 m ρ c) (Proc.devRef .tc main_arg13) = _
  after_results_simp
  exact k20_main_arg13 m ρ c
theorem v21_h : W21 m ρ c (Proc.devRef .tc main_v108) = (Cert.ReferenceIdeal.Read.val_main_v137 (F := Ideal) (x0 m c) (x1 m c) (x2 m c) (x3 m c) (x4 m c) (x5 m c) (x6 m c) (x7 m c) (x8 m c) (x9 m c) (x10 m c) (x11 m c) (x12 m c)) := by
  show StableHlo.after hostOps10 (W20 m ρ c) (Proc.devRef .tc main_v108) = _
  after_results_simp
  exact v20_out m ρ c
theorem v21_brow : W21 m ρ c (Proc.devRef .tc main_v109) = (shapeCast S1x3 (x14 m c) shapeCasts_S3_S1x3) := by
  show StableHlo.after hostOps10 (W20 m ρ c) (Proc.devRef .tc main_v109) = _
  after_results_simp
  rw [k20_main_arg14]
  rfl

/-! ## After the dense region -/

theorem k22_main_v1 : W22 m ρ c (Proc.devRef .tc main_v1) = (Cert.ReferenceIdeal.Read.val_main_v1 (F := Ideal) (x2 m c)) :=
  (W22_of_ne m ρ c main_v1 (by decide)).trans (k21_main_v1 m ρ c)
theorem k22_main_v3 : W22 m ρ c (Proc.devRef .tc main_v3) = (Cert.ReferenceIdeal.Read.val_main_v3 (F := Ideal) (x2 m c)) :=
  (W22_of_ne m ρ c main_v3 (by decide)).trans (k21_main_v3 m ρ c)
theorem k22_main_v25 : W22 m ρ c (Proc.devRef .tc main_v25) = (Cert.ReferenceIdeal.Read.val_main_v25 (F := Ideal) (x2 m c)) :=
  (W22_of_ne m ρ c main_v25 (by decide)).trans (k21_main_v25 m ρ c)
/-- The host's dot_general of this layer is the product. -/
theorem dot5_eq : (Cert.ReferenceIdeal.Read.val_main_v138 (F := Ideal) (x0 m c) (x1 m c) (x2 m c) (x3 m c) (x4 m c) (x5 m c) (x6 m c) (x7 m c) (x8 m c) (x9 m c) (x10 m c) (x11 m c) (x12 m c) (x13 m c)) = prod (Cert.ReferenceIdeal.Read.val_main_v137 (F := Ideal) (x0 m c) (x1 m c) (x2 m c) (x3 m c) (x4 m c) (x5 m c) (x6 m c) (x7 m c) (x8 m c) (x9 m c) (x10 m c) (x11 m c) (x12 m c)) (x13 m c) :=
  dotGeneral_eq_prod Cert.ReferenceIdeal.dot_S100000x128_S128x3_S100000x3_1_0_0_1_n_n rfl rfl Cert.ReferenceIdeal.Read.lhs_main_v138_0 Cert.ReferenceIdeal.Read.lhs_main_v138_1 Cert.ReferenceIdeal.Read.rhs_main_v138_0 Cert.ReferenceIdeal.Read.rhs_main_v138_1 none _ _

theorem v22_xw : W22 m ρ c (Proc.devRef .tc main_v110_0) = (Cert.ReferenceIdeal.Read.val_main_v138 (F := Ideal) (x0 m c) (x1 m c) (x2 m c) (x3 m c) (x4 m c) (x5 m c) (x6 m c) (x7 m c) (x8 m c) (x9 m c) (x10 m c) (x11 m c) (x12 m c) (x13 m c)) := by
  refine (W22_arr m ρ c 4).trans ((Cert.KernelIdeal.Dense10.final4 (V21 m ρ) c).trans ?_)
  show prod (W21 m ρ c (Proc.devRef .tc main_v108)) (W21 m ρ c (Proc.devRef .tc main_arg13)) = _
  rw [v21_h, k21_main_arg13, ← dot5_eq]

theorem v22_t : W22 m ρ c (Proc.devRef .tc main_v110_1) = own (Cert.ReferenceIdeal.Read.val_main_v138 (F := Ideal) (x0 m c) (x1 m c) (x2 m c) (x3 m c) (x4 m c) (x5 m c) (x6 m c) (x7 m c) (x8 m c) (x9 m c) (x10 m c) (x11 m c) (x12 m c) (x13 m c)) (shapeCast S100000x1 (Cert.ReferenceIdeal.Read.val_main_v26 (F := Ideal) (x2 m c)) shapeCasts_S100000_S100000x1) (shapeCast S1x3 (x14 m c) shapeCasts_S3_S1x3) := by
  refine (W22_arr m ρ c 5).trans ((Cert.KernelIdeal.Dense10.final5 (V21 m ρ) c).trans ?_)
  show own (prod (W21 m ρ c (Proc.devRef .tc main_v108)) (W21 m ρ c (Proc.devRef .tc main_arg13))) (W21 m ρ c (Proc.devRef .tc main_v27)) (W21 m ρ c (Proc.devRef .tc main_v109)) = _
  rw [v21_h, k21_main_arg13, k21_main_v27, v21_brow, ← dot5_eq]

/-! ## After the gather, the scaling by the edge factors and the scatter-add -/

theorem k23_t : W23 m ρ c (Proc.devRef .tc main_v110_1) = own (Cert.ReferenceIdeal.Read.val_main_v138 (F := Ideal) (x0 m c) (x1 m c) (x2 m c) (x3 m c) (x4 m c) (x5 m c) (x6 m c) (x7 m c) (x8 m c) (x9 m c) (x10 m c) (x11 m c) (x12 m c) (x13 m c)) (shapeCast S100000x1 (Cert.ReferenceIdeal.Read.val_main_v26 (F := Ideal) (x2 m c)) shapeCasts_S100000_S100000x1) (shapeCast S1x3 (x14 m c) shapeCasts_S3_S1x3) := by
  show StableHlo.after hostOps11 (W22 m ρ c) (Proc.devRef .tc main_v110_1) = _
  after_results_simp
  exact v22_t m ρ c

theorem v23_agg : W23 m ρ c (Proc.devRef .tc main_v123) = (Cert.ReferenceIdeal.Read.val_main_v151 (F := Ideal) (x0 m c) (x1 m c) (x2 m c) (x3 m c) (x4 m c) (x5 m c) (x6 m c) (x7 m c) (x8 m c) (x9 m c) (x10 m c) (x11 m c) (x12 m c) (x13 m c)) := by
  show StableHlo.after hostOps11 (W22 m ρ c) (Proc.devRef .tc main_v123) = _
  after_results_simp
  rw [k22_main_v1, k22_main_v3, k22_main_v25, v22_xw]
  rfl

/-! ## After the combining region -/

theorem v24_out : W24 m ρ c (Proc.devRef .tc main_v124) = (Cert.ReferenceIdeal.Read.val_main_v158 (F := Ideal) (x0 m c) (x1 m c) (x2 m c) (x3 m c) (x4 m c) (x5 m c) (x6 m c) (x7 m c) (x8 m c) (x9 m c) (x10 m c) (x11 m c) (x12 m c) (x13 m c) (x14 m c)) := by
  refine (W24_arr m ρ c 2).trans ((Cert.KernelIdeal.Combine11.final2 (V23 m ρ) c).trans ?_)
  show join (W23 m ρ c (Proc.devRef .tc main_v123)) (W23 m ρ c (Proc.devRef .tc main_v110_1)) = _
  rw [v23_agg, k23_t]
  unfold Cert.ReferenceIdeal.Read.val_main_v158 Cert.ReferenceIdeal.Read.val_main_v155 Cert.ReferenceIdeal.Read.val_main_v154 Cert.ReferenceIdeal.Read.val_main_v153 Cert.ReferenceIdeal.Read.val_main_v152 Cert.ReferenceIdeal.Read.val_main_v157 Cert.ReferenceIdeal.Read.val_main_v156
  exact (host_layer (Cert.ReferenceIdeal.Read.val_main_v151 (F := Ideal) (x0 m c) (x1 m c) (x2 m c) (x3 m c) (x4 m c) (x5 m c) (x6 m c) (x7 m c) (x8 m c) (x9 m c) (x10 m c) (x11 m c) (x12 m c) (x13 m c)) (Cert.ReferenceIdeal.Read.val_main_v138 (F := Ideal) (x0 m c) (x1 m c) (x2 m c) (x3 m c) (x4 m c) (x5 m c) (x6 m c) (x7 m c) (x8 m c) (x9 m c) (x10 m c) (x11 m c) (x12 m c) (x13 m c)) (Cert.ReferenceIdeal.Read.val_main_v26 (F := Ideal) (x2 m c)) (x14 m c) _ _ _ _ _ _).symm

end Cert.KernelIdeal.Chain

end
-- ==== Proof.lean ====
/-
  The certificate of a six-layer graph-convolution network (100000 nodes, 600000 directed edges, symmetric
  normalisation with one self-loop per node) against its reference, on the extended reals.

  Both programs compute, from the edge list, the node counts deg = (number of incoming edges) + 1, the factors
  dinv = deg^(-1/2), the edge factors dinv[src]·dinv[dst] and the self factors dinv·dinv, all by the same host
  operations.  Each layer then forms xw = h·W, gathers the rows of xw at the edges' sources, scales them by the edge
  factors and scatter-adds them at the edges' targets (agg), and outputs agg + xw·self + b, followed by the maximum
  with zero in all but the last layer.  The kernel program computes xw and the own term xw·self + b in one region (in
  20 blocks of 5000 rows; the product on the matrix unit with operands narrowed to bf16, which is the identity on the
  extended reals) and agg + (own term) in a second region; the reference computes (agg + xw·self) + b in one
  expression.  The two agree because the block-wise product is the product of the whole matrices, the host
  operations between the regions are the reference's own, and addition on the extended reals is associative; no
  finiteness of the inputs is needed, so the precondition is never opened.

  Frames: the two kernel programs' are the generated ones; the reference's is its generated run with the result dropped.
  The ledger of the ideal pass is empty, so `preserves` is trivial.
-/
import proofs.«111918_j80633716015488_1_alg».proof.Defs
import proofs.«111918_j80633716015488_1_alg».proof.Proof.Gen.Kernel
import proofs.«111918_j80633716015488_1_alg».proof.Proof.Gen.Kernel.Skeleton
import proofs.«111918_j80633716015488_1_alg».proof.Proof.Gen.Kernel.Launch
import proofs.«111918_j80633716015488_1_alg».proof.Proof.Gen.Kernel.Points
import proofs.«111918_j80633716015488_1_alg».proof.Proof.Gen.Kernel.Frame
import proofs.«111918_j80633716015488_1_alg».proof.Proof.Gen.KernelIdeal
import proofs.«111918_j80633716015488_1_alg».proof.Proof.Gen.KernelIdeal.Skeleton
import proofs.«111918_j80633716015488_1_alg».proof.Proof.Gen.KernelIdeal.Launch
import proofs.«111918_j80633716015488_1_alg».proof.Proof.Gen.KernelIdeal.Points
import proofs.«111918_j80633716015488_1_alg».proof.Proof.Gen.KernelIdeal.Frame
import proofs.«111918_j80633716015488_1_alg».proof.Proof.Gen.ReferenceIdeal
import proofs.«111918_j80633716015488_1_alg».proof.Proof.Gen.ReferenceIdeal.Run
import proofs.«111918_j80633716015488_1_alg».proof.Proof.Gen.ReferenceIdeal.Read
import proofs.«111918_j80633716015488_1_alg».proof.Proof.Gen.Pre_finite_inputs
import proofs.«111918_j80633716015488_1_alg».proof.Proof.KRun
import proofs.«111918_j80633716015488_1_alg».proof.Proof.Chain5
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's last stage of the (agreeing) arguments. -/
theorem algebraic : Cert.algebraic_KernelIdeal_ReferenceIdeal := by
  intro m ρ m' ρ' _ hagree
  refine ⟨fun c => Cert.KernelIdeal.Gen.W24 m ρ c (Proc.devRef .tc Cert.KernelIdeal.main_v124), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v158_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.KernelIdeal.Chain.v24_out m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
